-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S128x10 .f32) (main_arg24 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x10 .f32 := Host.absf main_arg23
  let main_cst_40 : FVec F S_ .f32 := constant S_ .f32 0x7F800000#32
  let main_v105 : FVec F S128x10 .f32 := broadcastInDim S128x10 ![] bcast_S_S128x10 main_cst_40
  let main_v106 : IVec S128x10 1 := cmpf .olt main_v104 main_v105
  let main_c_41 : IVec S_ 1 := constantI S_ 1 1#1
  let main_v107 : IVec S_ 1 := (fun x v => Host.reduce IntOp.andi x v reducesTo_S128x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg20 : FVec F S128 .f32) (main_arg21 : FVec F S128x128 .f32) (main_arg22 : FVec F S128 .f32) (main_arg23 : FVec F S128x10 .f32) (main_arg24 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x10 .f32) (main_arg24 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x10 .f32) (main_arg24 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x10 .f32) (main_arg24 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x10 .f32) (main_arg24 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x10 .f32) (main_arg24 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 183
  | .vmem => 60
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S128x128, .bf16⟩
  | 43 => ⟨S128x128, .bf16⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S128x128, .bf16⟩
  | 88 => ⟨S128x128, .bf16⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S128x128, .bf16⟩
  | 5 => ⟨S128x128, .bf16⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S100000x128, .f32⟩
  | 36 => ⟨S_, .f32⟩
  | 37 => ⟨S512x128, .f32⟩
  | 38 => ⟨S100000x1, .i32⟩
  | 39 => ⟨S512x128, .f32⟩
  | 40 => ⟨S_, .f32⟩
  | 41 => ⟨S100000, .f32⟩
  | 42 => ⟨S_, .f32⟩
  | 43 => ⟨S512, .f32⟩
  | 44 => ⟨S100000x1, .i32⟩
  | 45 => ⟨S512, .f32⟩
  | 46 => ⟨S_, .f32⟩
  | 47 => ⟨S512, .f32⟩
  | 48 => ⟨S512, .f32⟩
  | 49 => ⟨S512x1, .f32⟩
  | 50 => ⟨S512x128, .f32⟩
  | 51 => ⟨S512x128, .f32⟩
  | 52 => ⟨S128x128, .bf16⟩
  | 53 => ⟨S128x10, .bf16⟩
  | 54 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .bf16⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128x128, .bf16⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .bf16⟩
  | .local _ .vmem, ⟨41, _⟩ => ⟨S128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128x128, .bf16⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S512x128, .f32⟩
  | .local _ .vmem, ⟨55, _⟩ => ⟨S128x128, .bf16⟩
  | .local _ .vmem, ⟨56, _⟩ => ⟨S128, .f32⟩
  | .local _ .vmem, ⟨57, _⟩ => ⟨S128x10, .bf16⟩
  | .local _ .vmem, ⟨58, _⟩ => ⟨S10, .f32⟩
  | .local _ .vmem, ⟨59, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v20 : Ref sig .tc := ⟨.hbm, 72, rfl⟩
abbrev main_v21 : Ref sig .tc := ⟨.hbm, 73, rfl⟩
abbrev main_c_4 : Ref sig .tc := ⟨.hbm, 74, rfl⟩
abbrev main_v22 : Ref sig .tc := ⟨.hbm, 75, rfl⟩
abbrev main_v23 : Ref sig .tc := ⟨.hbm, 76, rfl⟩
abbrev main_c_5 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_6 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_cst_7 : Ref sig .tc := ⟨.hbm, 90, rfl⟩
abbrev main_v35 : Ref sig .tc := ⟨.hbm, 91, rfl⟩
abbrev main_cst_8 : Ref sig .tc := ⟨.hbm, 92, rfl⟩
abbrev main_v36 : Ref sig .tc := ⟨.hbm, 93, rfl⟩
abbrev main_v37 : Ref sig .tc := ⟨.hbm, 94, rfl⟩
abbrev main_c_9 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v38 : Ref sig .tc := ⟨.hbm, 117, rfl⟩
abbrev main_v39 : Ref sig .tc := ⟨.hbm, 118, rfl⟩
abbrev main_c_10 : Ref sig .tc := ⟨.hbm, 119, rfl⟩
abbrev main_v40 : Ref sig .tc := ⟨.hbm, 120, rfl⟩
abbrev main_v41 : Ref sig .tc := ⟨.hbm, 121, rfl⟩
abbrev main_c_11 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_cst_12 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_cst_13 : Ref sig .tc := ⟨.hbm, 135, rfl⟩
abbrev main_v53 : Ref sig .tc := ⟨.hbm, 136, rfl⟩
abbrev main_cst_14 : Ref sig .tc := ⟨.hbm, 137, rfl⟩
abbrev main_v54 : Ref sig .tc := ⟨.hbm, 138, rfl⟩
abbrev main_v55 : Ref sig .tc := ⟨.hbm, 139, rfl⟩
abbrev main_c_15 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_cst_3 : Ref sig .tc := ⟨.hbm, 157, rfl⟩
abbrev main_call2_v12 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v56 : Ref sig .tc := ⟨.hbm, 162, rfl⟩
abbrev main_v57 : Ref sig .tc := ⟨.hbm, 163, rfl⟩
abbrev main_cst_16 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_cst_17 : Ref sig .tc := ⟨.hbm, 168, rfl⟩
abbrev main_v61 : Ref sig .tc := ⟨.hbm, 169, rfl⟩
abbrev main_cst_18 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_cst_19 : Ref sig .tc := ⟨.hbm, 174, rfl⟩
abbrev main_v65 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x10 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S128 : S128.ShapeCasts S128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x10.size a ≤ S128x10.size a
  hwx6_3 : ∀ i : grid6.Coords, EltTy.bits .bf16 = 32 ∨ (Rect.block (s := S128x10) S128x10.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S10.size a ≤ S10.size a
  hwx6_4 : ∀ i : grid6.Coords, EltTy.bits .f32 = 32 ∨ (Rect.block (s := S10) S10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v34) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v39) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v51) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v57) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v69) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v70) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg22) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v71) S128x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg24) S10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v72) S512x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S100000x128, .f32⟩

abbrev hbmTy0_1 (i : Nat) : BufTy := match i % 128 with
  | 0 => ⟨S_, .f32⟩
  | 1 => ⟨S1x128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S512x128, .f32⟩
  | 116 => ⟨S100000x1, .i32⟩
  | 117 => ⟨S512x128, .f32⟩
  | 118 => ⟨S_, .f32⟩
  | 119 => ⟨S100000, .f32⟩
  | 120 => ⟨S_, .f32⟩
  | 121 => ⟨S512, .f32⟩
  | 122 => ⟨S100000x1, .i32⟩
  | 123 => ⟨S512, .f32⟩
  | 124 => ⟨S_, .f32⟩
  | 125 => ⟨S512, .f32⟩
  | 126 => ⟨S512, .f32⟩
  | 127 => ⟨S512x1, .f32⟩
  | _ => ⟨S100000x128, .f32⟩

abbrev hbmTy0_2 (i : Nat) : BufTy := match i % 128 with
  | 0 => ⟨S512x128, .f32⟩
  | 1 => ⟨S512x128, .f32⟩
  | 2 => ⟨S512x128, .f32⟩
  | 3 => ⟨S1x128, .f32⟩
  | 4 => ⟨S512x128, .f32⟩
  | 5 => ⟨S512x128, .f32⟩
  | 6 => ⟨S_, .f32⟩
  | 7 => ⟨S512x128, .f32⟩
  | 8 => ⟨S512x128, .f32⟩
  | 9 => ⟨S512x10, .f32⟩
  | 10 => ⟨S1x10, .f32⟩
  | 11 => ⟨S512x10, .f32⟩
  | 12 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_4 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_call1_cst : Ref sig .tc := ⟨.hbm, 91, rfl⟩
abbrev main_call1_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call2_cst : Ref sig .tc := ⟨.hbm, 98, rfl⟩
abbrev main_call2_v0 : Ref sig .tc := ⟨.hbm, 99, rfl⟩
abbrev main_v43 : Ref sig .tc := ⟨.hbm, 100, rfl⟩
abbrev main_c_5 : Ref sig .tc := ⟨.hbm, 101, rfl⟩
abbrev main_v44 : Ref sig .tc := ⟨.hbm, 102, rfl⟩
abbrev main_v45 : Ref sig .tc := ⟨.hbm, 103, rfl⟩
abbrev main_c_6 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_cst_7 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_8 : Ref sig .tc := ⟨.hbm, 119, rfl⟩
abbrev main_v59 : Ref sig .tc := ⟨.hbm, 120, rfl⟩
abbrev main_cst_9 : Ref sig .tc := ⟨.hbm, 121, rfl⟩
abbrev main_v60 : Ref sig .tc := ⟨.hbm, 122, rfl⟩
abbrev main_v61 : Ref sig .tc := ⟨.hbm, 123, rfl⟩
abbrev main_c_10 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_cst_1 : Ref sig .tc := ⟨.hbm, 135, rfl⟩
abbrev main_call3_v8 : Ref sig .tc := ⟨.hbm, 136, rfl⟩
abbrev main_call3_cst_2 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_cst_3 : Ref sig .tc := ⟨.hbm, 141, rfl⟩
abbrev main_call3_v12 : Ref sig .tc := ⟨.hbm, 142, rfl⟩
abbrev main_call3_cst_4 : Ref sig .tc := ⟨.hbm, 143, rfl⟩
abbrev main_call3_call0_v0 : Ref sig .tc := ⟨.hbm, 144, rfl⟩
abbrev main_call3_call0_v1 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_cst_11 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_call4_cst : Ref sig .tc := ⟨.hbm, 163, rfl⟩
abbrev main_call4_v0 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_call5_cst : Ref sig .tc := ⟨.hbm, 170, rfl⟩
abbrev main_call5_v0 : Ref sig .tc := ⟨.hbm, 171, rfl⟩
abbrev main_v83 : Ref sig .tc := ⟨.hbm, 172, rfl⟩
abbrev main_c_12 : Ref sig .tc := ⟨.hbm, 173, rfl⟩
abbrev main_v84 : Ref sig .tc := ⟨.hbm, 174, rfl⟩
abbrev main_v85 : Ref sig .tc := ⟨.hbm, 175, rfl⟩
abbrev main_c_13 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_14 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_cst_15 : Ref sig .tc := ⟨.hbm, 191, rfl⟩
abbrev main_v99 : Ref sig .tc := ⟨.hbm, 192, rfl⟩
abbrev main_cst_16 : Ref sig .tc := ⟨.hbm, 193, rfl⟩
abbrev main_v100 : Ref sig .tc := ⟨.hbm, 194, rfl⟩
abbrev main_v101 : Ref sig .tc := ⟨.hbm, 195, rfl⟩
abbrev main_c_17 : Ref sig .tc := ⟨.hbm, 196, rfl⟩
abbrev main_call6_cst : Ref sig .tc := ⟨.hbm, 197, rfl⟩
abbrev main_call6_v0 : Ref sig .tc := ⟨.hbm, 198, rfl⟩
abbrev main_call6_v1 : Ref sig .tc := ⟨.hbm, 199, rfl⟩
abbrev main_call6_cst_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_v6 : Ref sig .tc := ⟨.hbm, 205, rfl⟩
abbrev main_call6_v7 : Ref sig .tc := ⟨.hbm, 206, rfl⟩
abbrev main_call6_cst_1 : Ref sig .tc := ⟨.hbm, 207, rfl⟩
abbrev main_call6_v8 : Ref sig .tc := ⟨.hbm, 208, rfl⟩
abbrev main_call6_cst_2 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_cst_3 : Ref sig .tc := ⟨.hbm, 213, rfl⟩
abbrev main_call6_v12 : Ref sig .tc := ⟨.hbm, 214, rfl⟩
abbrev main_call6_cst_4 : Ref sig .tc := ⟨.hbm, 215, rfl⟩
abbrev main_call6_call0_v0 : Ref sig .tc := ⟨.hbm, 216, rfl⟩
abbrev main_call6_call0_v1 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_cst_18 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_call7_cst : Ref sig .tc := ⟨.hbm, 235, rfl⟩
abbrev main_call7_v0 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_cst_19 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_cst_20 : Ref sig .tc := ⟨.hbm, 246, rfl⟩
abbrev main_v126 : Ref sig .tc := ⟨.hbm, 247, rfl⟩
abbrev main_cst_21 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_cst_22 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_call8_cst : Ref sig .tc := ⟨.hbm, 262, rfl⟩
abbrev main_call8_v0 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel program's run with every buffer named.

  Every weakly fair execution of the program from a memory with zero counters terminates without a fault, and
  each unscoped buffer of a TensorCore ends at the last boundary's contents: the launch memory folded through
  the host stretches (each operation rewriting its result buffer) and the seven regions (each rewriting its
  windows' arrays with what its grid points wrote back).  The argument is the launch over the program's segments;
  only the reading of the final state differs from the frame statement: all buffers are kept, not only the arguments.
-/
import proofs.«131036_j27977416966474_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every unscoped TensorCore buffer ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

end Cert.KernelIdeal.RunAll

end
-- ==== Proof.KernelKeep.lean ====
/-
  What each step of the idealized kernel program leaves alone.

  The buffer contents at the program's boundaries are a fold: a host stretch rewrites the result buffer of each of
  its operations and nothing else; a region rewrites its output window's array and nothing else (an input
  window's array is never written back, and a buffer that is no window's array is not touched).  Hence a buffer
  keeps its contents across a step unless the step writes it, and an argument array — written by nothing — holds
  its launch contents at every boundary.
-/
import proofs.«131036_j27977416966474_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer alone when the buffer is none of the stretch's result buffers. -/
theorem after_keep (ops : List (HloOp τ sig (Elt F))) (written : List (Ref sig .tc)) (W : Valuation τ sig (Elt F))
    (h : ∀ r : Ref sig .tc, r ∉ written → ∀ op ∈ ops, Proc.devRef (τ := τ) .tc r ∉ op.writes)
    (r : Ref sig .tc) (hr : r ∉ written) : StableHlo.after ops W (Proc.devRef .tc r) = W (Proc.devRef .tc r) :=
  StableHlo.after_of_forall_not_mem ops W (h r hr)

/-- The result buffers of `hostOps0`. -/
abbrev wr_hostOps0 : List (Ref sig .tc) := [main_v0, main_v1, main_v2, main_v3, main_c, main_v4, main_v5, main_c_0, main_v6, main_v7, main_v8, main_v9, main_v10, main_cst, main_v11, main_v12, main_v13, main_v14, main_v15]
theorem keep_W1 (c : Dev nD) (r : Ref sig .tc) (hr : r ∉ wr_hostOps0) :
    W1 m ρ c (Proc.devRef .tc r) = W0 m ρ c (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 0 rewrites only its output array `main_v16`. -/
theorem keep_W2 (c : Dev nD) (r : Ref sig .tc) (hr : r ≠ main_v16) :
    W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_v13
  · subst h1; exact (W2_arr m ρ c 1).trans (((dat0 (V1 m ρ) c).arrAt_in 1 rfl _).trans (A_eq0 (V1 m ρ) c 1))
  by_cases h2 : r = main_v14
  · subst h2; exact (W2_arr m ρ c 2).trans (((dat0 (V1 m ρ) c).arrAt_in 2 rfl _).trans (A_eq0 (V1 m ρ) c 2))
  by_cases h3 : r = main_arg4
  · subst h3; exact (W2_arr m ρ c 3).trans (((dat0 (V1 m ρ) c).arrAt_in 3 rfl _).trans (A_eq0 (V1 m ρ) c 3))
  exact W2_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm hr)

/-- The result buffers of `hostOps1`. -/
abbrev wr_hostOps1 : List (Ref sig .tc) := [main_cst_1, main_v17, main_cst_2, main_v18, main_v19, main_c_3]
theorem keep_W3 (c : Dev nD) (r : Ref sig .tc) (hr : r ∉ wr_hostOps1) :
    W3 m ρ c (Proc.devRef .tc r) = W2 m ρ c (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- The result buffers of `hostOps1_1`. -/
abbrev wr_hostOps1_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v20]
theorem keep_W4 (c : Dev nD) (r : Ref sig .tc) (hr : r ∉ wr_hostOps1_1) :
    W4 m ρ c (Proc.devRef .tc r) = W3 m ρ c (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 1 rewrites only its output array `main_v21`. -/
theorem keep_W5 (c : Dev nD) (r : Ref sig .tc) (hr : r ≠ main_v21) :
    W5 m ρ c (Proc.devRef .tc r) = W4 m ρ c (Proc.devRef .tc r) := by
  by_cases h0 : r = main_v16
  · subst h0; exact (W5_arr m ρ c 0).trans (((dat1 (V4 m ρ) c).arrAt_in 0 rfl _).trans (A_eq1 (V4 m ρ) c 0))
  by_cases h1 : r = main_v19
  · subst h1; exact (W5_arr m ρ c 1).trans (((dat1 (V4 m ρ) c).arrAt_in 1 rfl _).trans (A_eq1 (V4 m ρ) c 1))
  by_cases h2 : r = main_v20
  · subst h2; exact (W5_arr m ρ c 2).trans (((dat1 (V4 m ρ) c).arrAt_in 2 rfl _).trans (A_eq1 (V4 m ρ) c 2))
  by_cases h3 : r = main_arg5
  · subst h3; exact (W5_arr m ρ c 3).trans (((dat1 (V4 m ρ) c).arrAt_in 3 rfl _).trans (A_eq1 (V4 m ρ) c 3))
  by_cases h4 : r = main_arg6
  · subst h4; exact (W5_arr m ρ c 4).trans (((dat1 (V4 m ρ) c).arrAt_in 4 rfl _).trans (A_eq1 (V4 m ρ) c 4))
  by_cases h5 : r = main_v15
  · subst h5; exact (W5_arr m ρ c 5).trans (((dat1 (V4 m ρ) c).arrAt_in 5 rfl _).trans (A_eq1 (V4 m ρ) c 5))
  by_cases h6 : r = main_arg8
  · subst h6; exact (W5_arr m ρ c 6).trans (((dat1 (V4 m ρ) c).arrAt_in 6 rfl _).trans (A_eq1 (V4 m ρ) c 6))
  exact W5_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm h4
    | ⟨5, _⟩ => exact Ne.symm h5
    | ⟨6, _⟩ => exact Ne.symm h6
    | ⟨7, _⟩ => exact Ne.symm hr)

/-- The result buffers of `hostOps2`. -/
abbrev wr_hostOps2 : List (Ref sig .tc) := [main_c_4, main_v22, main_v23, main_c_5, main_v24, main_v25, main_v26, main_v27, main_v28, main_cst_6, main_v29, main_v30, main_v31, main_v32, main_v33]
theorem keep_W6 (c : Dev nD) (r : Ref sig .tc) (hr : r ∉ wr_hostOps2) :
    W6 m ρ c (Proc.devRef .tc r) = W5 m ρ c (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 2 rewrites only its output array `main_v34`. -/
theorem keep_W7 (c : Dev nD) (r : Ref sig .tc) (hr : r ≠ main_v34) :
    W7 m ρ c (Proc.devRef .tc r) = W6 m ρ c (Proc.devRef .tc r) := by
  by_cases h0 : r = main_v21
  · subst h0; exact (W7_arr m ρ c 0).trans (((dat2 (V6 m ρ) c).arrAt_in 0 rfl _).trans (A_eq2 (V6 m ρ) c 0))
  by_cases h1 : r = main_v31
  · subst h1; exact (W7_arr m ρ c 1).trans (((dat2 (V6 m ρ) c).arrAt_in 1 rfl _).trans (A_eq2 (V6 m ρ) c 1))
  by_cases h2 : r = main_v32
  · subst h2; exact (W7_arr m ρ c 2).trans (((dat2 (V6 m ρ) c).arrAt_in 2 rfl _).trans (A_eq2 (V6 m ρ) c 2))
  by_cases h3 : r = main_arg10
  · subst h3; exact (W7_arr m ρ c 3).trans (((dat2 (V6 m ρ) c).arrAt_in 3 rfl _).trans (A_eq2 (V6 m ρ) c 3))
  exact W7_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm hr)

/-- The result buffers of `hostOps3`. -/
abbrev wr_hostOps3 : List (Ref sig .tc) := [main_cst_7, main_v35, main_cst_8, main_v36, main_v37, main_c_9]
theorem keep_W8 (c : Dev nD) (r : Ref sig .tc) (hr : r ∉ wr_hostOps3) :
    W8 m ρ c (Proc.devRef .tc r) = W7 m ρ c (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- The result buffers of `hostOps3_1`. -/
abbrev wr_hostOps3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v38]
theorem keep_W9 (c : Dev nD) (r : Ref sig .tc) (hr : r ∉ wr_hostOps3_1) :
    W9 m ρ c (Proc.devRef .tc r) = W8 m ρ c (Proc.devRef .tc r) :=
  StableHlo.after_of_forall_not_mem (b := Proc.devRef .tc r) _ _ (List.forall_iff_forall_mem.mp (by
    simp only [hostOps3_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 3 rewrites only its output array `main_v39`. -/
theorem keep_W10 (c : Dev nD) (r : Ref sig .tc) (hr : r ≠ main_v39) :
    W10 m ρ c (Proc.devRef .tc r) = W9 m ρ c (Proc.devRef .tc r) := by
  by_cases h0 : r = main_v34
  · subst h0; exact (W10_arr m ρ c 0).trans (((dat3 (V9 m ρ) c).arrAt_in 0 rfl _).trans (A_eq3 (V9 m ρ) c 0))
  by_cases h1 : r = main_v37
  · subst h1; exact (W10_arr m ρ c 1).trans (((dat3 (V9 m ρ) c).arrAt_in 1 rfl _).trans (A_eq3 (V9 m ρ) c 1))
  by_cases h2 : r = main_v38
  · subst h2; exact (W10_arr m ρ c 2).trans (((dat3 (V9 m ρ) c).arrAt_in 2 rfl _).trans (A_eq3 (V9 m ρ) c 2))
  by_cases h3 : r = main_arg11
  · subst h3; exact (W10_arr m ρ c 3).trans (((dat3 (V9 m ρ) c).arrAt_in 3 rfl _).trans (A_eq3 (V9 m ρ) c 3))
  by_cases h4 : r = main_arg12
  · subst h4; exact (W10_arr m ρ c 4).trans (((dat3 (V9 m ρ) c).arrAt_in 4 rfl _).trans (A_eq3 (V9 m ρ) c 4))
  by_cases h5 : r = main_v33
  · subst h5; exact (W10_arr m ρ c 5).trans (((dat3 (V9 m ρ) c).arrAt_in 5 rfl _).trans (A_eq3 (V9 m ρ) c 5))
  by_cases h6 : r = main_arg14
  · subst h6; exact (W10_arr m ρ c 6).trans (((dat3 (V9 m ρ) c).arrAt_in 6 rfl _).trans (A_eq3 (V9 m ρ) c 6))
  exact W10_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm h4
    | ⟨5, _⟩ => exact Ne.symm h5
    | ⟨6, _⟩ => exact Ne.symm h6
    | ⟨7, _⟩ => exact Ne.symm hr)

/-- The result buffers of `hostOps4`. -/
abbrev wr_hostOps4 : List (Ref sig .tc) := [main_c_10, main_v40, main_v41, main_c_11, main_v42, main_v43, main_v44, main_v45, main_v46, main_cst_12, main_v47, main_v48, main_v49, main_v50, main_v51]
theorem keep_W11 (c : Dev nD) (r : Ref sig .tc) (hr : r ∉ wr_hostOps4) :
    W11 m ρ c (Proc.devRef .tc r) = W10 m ρ c (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 4 rewrites only its output array `main_v52`. -/
theorem keep_W12 (c : Dev nD) (r : Ref sig .tc) (hr : r ≠ main_v52) :
    W12 m ρ c (Proc.devRef .tc r) = W11 m ρ c (Proc.devRef .tc r) := by
  by_cases h0 : r = main_v39
  · subst h0; exact (W12_arr m ρ c 0).trans (((dat4 (V11 m ρ) c).arrAt_in 0 rfl _).trans (A_eq4 (V11 m ρ) c 0))
  by_cases h1 : r = main_v49
  · subst h1; exact (W12_arr m ρ c 1).trans (((dat4 (V11 m ρ) c).arrAt_in 1 rfl _).trans (A_eq4 (V11 m ρ) c 1))
  by_cases h2 : r = main_v50
  · subst h2; exact (W12_arr m ρ c 2).trans (((dat4 (V11 m ρ) c).arrAt_in 2 rfl _).trans (A_eq4 (V11 m ρ) c 2))
  by_cases h3 : r = main_arg16
  · subst h3; exact (W12_arr m ρ c 3).trans (((dat4 (V11 m ρ) c).arrAt_in 3 rfl _).trans (A_eq4 (V11 m ρ) c 3))
  exact W12_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm hr)

/-- The result buffers of `hostOps5`. -/
abbrev wr_hostOps5 : List (Ref sig .tc) := [main_cst_13, main_v53, main_cst_14, main_v54, main_v55, main_c_15]
theorem keep_W13 (c : Dev nD) (r : Ref sig .tc) (hr : r ∉ wr_hostOps5) :
    W13 m ρ c (Proc.devRef .tc r) = W12 m ρ c (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- The result buffers of `hostOps5_1`. -/
abbrev wr_hostOps5_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v56]
theorem keep_W14 (c : Dev nD) (r : Ref sig .tc) (hr : r ∉ wr_hostOps5_1) :
    W14 m ρ c (Proc.devRef .tc r) = W13 m ρ c (Proc.devRef .tc r) :=
  StableHlo.after_of_forall_not_mem (b := Proc.devRef .tc r) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 5 rewrites only its output array `main_v57`. -/
theorem keep_W15 (c : Dev nD) (r : Ref sig .tc) (hr : r ≠ main_v57) :
    W15 m ρ c (Proc.devRef .tc r) = W14 m ρ c (Proc.devRef .tc r) := by
  by_cases h0 : r = main_v52
  · subst h0; exact (W15_arr m ρ c 0).trans (((dat5 (V14 m ρ) c).arrAt_in 0 rfl _).trans (A_eq5 (V14 m ρ) c 0))
  by_cases h1 : r = main_v55
  · subst h1; exact (W15_arr m ρ c 1).trans (((dat5 (V14 m ρ) c).arrAt_in 1 rfl _).trans (A_eq5 (V14 m ρ) c 1))
  by_cases h2 : r = main_v56
  · subst h2; exact (W15_arr m ρ c 2).trans (((dat5 (V14 m ρ) c).arrAt_in 2 rfl _).trans (A_eq5 (V14 m ρ) c 2))
  by_cases h3 : r = main_arg17
  · subst h3; exact (W15_arr m ρ c 3).trans (((dat5 (V14 m ρ) c).arrAt_in 3 rfl _).trans (A_eq5 (V14 m ρ) c 3))
  by_cases h4 : r = main_arg18
  · subst h4; exact (W15_arr m ρ c 4).trans (((dat5 (V14 m ρ) c).arrAt_in 4 rfl _).trans (A_eq5 (V14 m ρ) c 4))
  by_cases h5 : r = main_v51
  · subst h5; exact (W15_arr m ρ c 5).trans (((dat5 (V14 m ρ) c).arrAt_in 5 rfl _).trans (A_eq5 (V14 m ρ) c 5))
  by_cases h6 : r = main_arg20
  · subst h6; exact (W15_arr m ρ c 6).trans (((dat5 (V14 m ρ) c).arrAt_in 6 rfl _).trans (A_eq5 (V14 m ρ) c 6))
  exact W15_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm h4
    | ⟨5, _⟩ => exact Ne.symm h5
    | ⟨6, _⟩ => exact Ne.symm h6
    | ⟨7, _⟩ => exact Ne.symm hr)

/-- The result buffers of `hostOps6`. -/
abbrev wr_hostOps6 : List (Ref sig .tc) := [main_cst_16, main_v58, main_v59, main_v60, main_cst_17, main_v61, main_cst_18, main_v62, main_v63, main_v64, main_cst_19, main_v65, main_v66, main_v67, main_v68, main_v69, main_v70, main_v71]
theorem keep_W16 (c : Dev nD) (r : Ref sig .tc) (hr : r ∉ wr_hostOps6) :
    W16 m ρ c (Proc.devRef .tc r) = W15 m ρ c (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hr).symm))

/-- Region 6 rewrites only its output array `main_v72`. -/
theorem keep_W17 (c : Dev nD) (r : Ref sig .tc) (hr : r ≠ main_v72) :
    W17 m ρ c (Proc.devRef .tc r) = W16 m ρ c (Proc.devRef .tc r) := by
  by_cases h0 : r = main_v69
  · subst h0; exact (W17_arr m ρ c 0).trans (((dat6 (V16 m ρ) c).arrAt_in 0 rfl _).trans (A_eq6 (V16 m ρ) c 0))
  by_cases h1 : r = main_v70
  · subst h1; exact (W17_arr m ρ c 1).trans (((dat6 (V16 m ρ) c).arrAt_in 1 rfl _).trans (A_eq6 (V16 m ρ) c 1))
  by_cases h2 : r = main_arg22
  · subst h2; exact (W17_arr m ρ c 2).trans (((dat6 (V16 m ρ) c).arrAt_in 2 rfl _).trans (A_eq6 (V16 m ρ) c 2))
  by_cases h3 : r = main_v71
  · subst h3; exact (W17_arr m ρ c 3).trans (((dat6 (V16 m ρ) c).arrAt_in 3 rfl _).trans (A_eq6 (V16 m ρ) c 3))
  by_cases h4 : r = main_arg24
  · subst h4; exact (W17_arr m ρ c 4).trans (((dat6 (V16 m ρ) c).arrAt_in 4 rfl _).trans (A_eq6 (V16 m ρ) c 4))
  exact W17_of_ne m ρ c r (fun w => by
    match w with
    | ⟨0, _⟩ => exact Ne.symm h0
    | ⟨1, _⟩ => exact Ne.symm h1
    | ⟨2, _⟩ => exact Ne.symm h2
    | ⟨3, _⟩ => exact Ne.symm h3
    | ⟨4, _⟩ => exact Ne.symm h4
    | ⟨5, _⟩ => exact Ne.symm hr)

end Cert.KernelIdeal.Keep

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.Spec.lean ====
/-
  The network's stages as whole-array functions of their inputs, at the exact values (floats are extended reals).

  One graph-isomorphism layer on node features h (N × 128), with edges (src, dst):
    agg      = the sum, into each destination row, of the source rows of h          (agg)
    z        = (h + agg) · w1 + b1                                                   (lin)
    mu, var  = the column means of z and the column means of (z - mu)²              (meanOf, varOf)
    out      = relu?( relu( (z - mu) · (var + ε)^(-1/2) · g + be ) · w2 + b2 )      (bn, reluN, lin)
  then the mean of the node rows of each graph (pool) and a two-layer classifier on the pooled rows (cls).

  Every function here is written with the host operations of the plain program, over its dimension records; the
  weight of a product may be of any float format (at the exact values a change of format is the identity).
-/
import proofs.«131036_j27977416966474_1_alg».proof.Proof.Gen.ReferenceIdeal
import Idealize.ShloMosaic.PureOps.Ideal

noncomputable section

namespace Cert.Gin

open Idealize.ShloMosaic Cert.ReferenceIdeal Cert.ReferenceIdeal.Facts₀

/-- The zero word and the words of 1, 100000 and ε = 1e-5 as scalars. -/
abbrev zeroS : FVec Ideal S_ .f32 := constant (F := Ideal) S_ .f32 0x00000000#32
abbrev oneS : FVec Ideal S_ .f32 := constant (F := Ideal) S_ .f32 0x3F800000#32
abbrev nS : FVec Ideal S_ .f32 := constant (F := Ideal) S_ .f32 0x47C35000#32
abbrev epsS : FVec Ideal S_ .f32 := constant (F := Ideal) S_ .f32 0x3727C5AC#32

/-- A vector of 128 entries spread over the rows of an N × 128 matrix. -/
def rowsN (v : FVec Ideal S128 .f32) : FVec Ideal S100000x128 .f32 :=
  broadcastInDim S100000x128 ![0, 1] bcast_S1x128_S100000x128_0_1 (broadcastInDim S1x128 ![1] bcast_S128_S1x128_1 v)

/-- Row 0 and row 1 of the edge list: the source and the destination of every edge. -/
def srcOf (ei : IVec S2x1600000 32) : IVec S1600000 32 :=
  fun i => shapeCast S1600000 (extractStridedSlice S1x1600000 ![0, 0] ei slices_S2x1600000_S1x1600000_0_0) shapeCasts_S1x1600000_S1600000 i
def dstOf (ei : IVec S2x1600000 32) : IVec S1600000 32 :=
  fun i => shapeCast S1600000 (extractStridedSlice S1x1600000 ![1, 0] ei slices_S2x1600000_S1x1600000_1_0) shapeCasts_S1x1600000_S1600000 i

/-- Source indices with a negative index wrapped once, as a column of start indices. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: row i is the sum of the rows h[src e] over the edges e with dst e = i. -/
def agg (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 zeroS)
    (broadcastInDim S1600000x1 ![0] bcast_S1600000_S1600000x1_0 dst)
    (Host.gather gather_S100000x128_S1600000x1_S1600000x128_1_0_n_n_0_1_1128 h (wrapIdx src))

/-- u · w + b, the bias spread over the rows. -/
def lin {φ : FTy} (u : FVec Ideal S100000x128 .f32) (w : FVec Ideal S128x128 φ) (b : FVec Ideal S128 .f32) : FVec Ideal S100000x128 .f32 :=
  addf (Host.dotGeneral (F := Ideal) dot_S100000x128_S128x128_S100000x128_1_0_0_1_n_n none u w) (rowsN b)

/-- max(x, 0), entry by entry. -/
def reluN (x : FVec Ideal S100000x128 .f32) : FVec Ideal S100000x128 .f32 :=
  maximumf x (broadcastInDim S100000x128 ![] bcast_S_S100000x128 zeroS)

/-- The column means of z. -/
def meanOf (z : FVec Ideal S100000x128 .f32) : FVec Ideal S128 .f32 :=
  Host.divf (Host.reduceAdd z zeroS reducesTo_S100000x128_S128_d0 h_S_) (broadcastInDim S128 ![] bcast_S_S128 nS)

/-- The column variances of z (biased: the divisor is N - 0), guarded as the plain program guards them. -/
def varOf (z : FVec Ideal S100000x128 .f32) : FVec Ideal S128 .f32 :=
  select (broadcastInDim S128 ![] bcast_S_S128 (cmpf .ogt (subf nS (sitofp .f32 (constantI S_ 32 0#32))) zeroS))
    (Host.divf
      (Host.reduceAdd
        (mulf
          (subf z (broadcastInDim S100000x128 ![0, 1] bcast_S1x128_S100000x128_0_1
            (Host.divf (broadcastInDim S1x128 ![1] bcast_S128_S1x128_1 (Host.reduceAdd z zeroS reducesTo_S100000x128_S128_d0 h_S_))
              (broadcastInDim S1x128 ![] bcast_S_S1x128 nS))))
          (subf z (broadcastInDim S100000x128 ![0, 1] bcast_S1x128_S100000x128_0_1
            (Host.divf (broadcastInDim S1x128 ![1] bcast_S128_S1x128_1 (Host.reduceAdd z zeroS reducesTo_S100000x128_S128_d0 h_S_))
              (broadcastInDim S1x128 ![] bcast_S_S1x128 nS)))))
        zeroS reducesTo_S100000x128_S128_d0 h_S_)
      (broadcastInDim S128 ![] bcast_S_S128 (subf nS (sitofp .f32 (constantI S_ 32 0#32)))))
    (broadcastInDim S128 ![] bcast_S_S128 (id (constant (F := Ideal) S_ .f32 0x7FC00000#32)))

/-- The normalisation: (z - mu) · (var + ε)^(-1/2) · g + be, each vector spread over the rows. -/
def bn (z : FVec Ideal S100000x128 .f32) (mu var g be : FVec Ideal S128 .f32) : FVec Ideal S100000x128 .f32 :=
  addf (mulf (mulf (subf z (rowsN mu)) (rowsN (Host.rsqrt (addf var (broadcastInDim S128 ![] bcast_S_S128 epsS))))) (rowsN g)) (rowsN be)

/-- The second half of a layer: relu(bn z) · w + b. -/
def mlp2 {φ : FTy} (z : FVec Ideal S100000x128 .f32) (mu var g be : FVec Ideal S128 .f32) (w : FVec Ideal S128x128 φ) (b : FVec Ideal S128 .f32) :
    FVec Ideal S100000x128 .f32 :=
  lin (reluN (bn z mu var g be)) w b

/-- The mean of the node rows of each graph: the rows summed by graph, over max(count, 1). -/
def pool (h : FVec Ideal S100000x128 .f32) (batch : IVec S100000 32) : FVec Ideal S512x128 .f32 :=
  Host.divf
    (Host.scatterAdd scatter_S512x128_S100000x1_S100000x128_1_0_0_1 (broadcastInDim S512x128 ![] bcast_S_S512x128 zeroS)
      (broadcastInDim S100000x1 ![0] bcast_S100000_S100000x1_0 batch) h)
    (broadcastInDim S512x128 ![0, 1] bcast_S512x1_S512x128_0_1 (broadcastInDim S512x1 ![0] bcast_S512_S512x1_0
      (maximumf
        (Host.scatterAdd scatter_S512_S100000x1_S100000_n_0_0_1 (broadcastInDim S512 ![] bcast_S_S512 zeroS)
          (broadcastInDim S100000x1 ![0] bcast_S100000_S100000x1_0 batch) (broadcastInDim S100000 ![] bcast_S_S100000 oneS))
        (broadcastInDim S512 ![] bcast_S_S512 oneS))))

/-- The classifier: relu(gr · w1 + b1) · w2 + b2. -/
def cls {φ₁ φ₂ : FTy} (gr : FVec Ideal S512x128 .f32) (w1 : FVec Ideal S128x128 φ₁) (b1 : FVec Ideal S128 .f32)
    (w2 : FVec Ideal S128x10 φ₂) (b2 : FVec Ideal S10 .f32) : FVec Ideal S512x10 .f32 :=
  addf
    (Host.dotGeneral (F := Ideal) dot_S512x128_S128x10_S512x10_1_0_0_1_n_n none
      (maximumf
        (addf (Host.dotGeneral (F := Ideal) dot_S512x128_S128x128_S512x128_1_0_0_1_n_n none gr w1)
          (broadcastInDim S512x128 ![0, 1] bcast_S1x128_S512x128_0_1 (broadcastInDim S1x128 ![1] bcast_S128_S1x128_1 b1)))
        (broadcastInDim S512x128 ![] bcast_S_S512x128 zeroS))
      w2)
    (broadcastInDim S512x10 ![0, 1] bcast_S1x10_S512x10_0_1 (broadcastInDim S1x10 ![1] bcast_S10_S1x10_1 b2))

end Cert.Gin

end
-- ==== Proof.RegAPay.lean ====
/-
  The first half of a layer on one block of 5000 rows, read at one entry.

  The block's rows of h and of the neighbour sum are added, the sum is narrowed to the product unit's operand
  format (at the exact values a change of format is the identity), multiplied by the 128 × 128 weight into a zero
  accumulator, and the bias — a vector of 128 entries laid as one row and spread over the rows — is added.  So the
  entry at row p and column j is  ∑ k, (h[p,k] + agg[p,k]) · w[k,j]  +  b[j].
-/
import proofs.«131036_j27977416966474_1_alg».proof.Proof.Gen.KernelIdeal.Skeleton
import proofs.«131036_j27977416966474_1_alg».proof.Proof.LibMatmulRows
import proofs.«131036_j27977416966474_1_alg».proof.Proof.LibHostRows
import proofs.«131036_j27977416966474_1_alg».proof.Proof.Spec
import Idealize.ShloMosaic.Lib.Pipeline.Value
import Idealize.ShloMosaic.Lib.ValueLayout

noncomputable section

open scoped BigOperators

namespace Cert.Gin.Reg

open Idealize.ShloMosaic Idealize.ShloMosaic.ValueIdx Cert.KernelIdeal Cert.KernelIdeal.Gen

/-! ## The block product's operand indices: the left operand is read at (row, k), the right at (k, column) -/

theorem blkDot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem blkDot_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem blkDot_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem blkDot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The half layer on a block, at one entry -/

/-- u · w + b on a block of 5000 rows, at row p and column j: the product into the zero accumulator is the sum of
    products over the shared axis, the narrowing of u is the identity, and the spread bias reads b at j. -/
theorem blkLin_apply (u : FVec Ideal S5000x128 .f32) (w : FVec Ideal S128x128 .bf16) (b : FVec Ideal S128 .f32)
    (p : Fin 5000) (j : Fin 128) :
    addf (matmul dot_S5000x128_S128x128_S5000x128_1_0_0_1_n_n none (truncf .bf16 u bitsLt_bf16_f32) w
        (constant (F := Ideal) S5000x128 .f32 0x00000000#32))
      (broadcastTo S5000x128 (shapeCast S1x128 b shapeCasts_S128_S1x128) broadcasts_S1x128_S5000x128) (ix2 p j)
      = (∑ k : Fin 128, u (ix2 p k) * w (ix2 k j)) + b (ix1 j) := by
  rw [addf_apply]
  congr 1
  · exact Cert.LibMatmulRows.matmul_zero_apply dot_S5000x128_S128x128_S5000x128_1_0_0_1_n_n rfl rfl
      blkDot_lhs0 blkDot_lhs1 blkDot_rhs0 blkDot_rhs1 none (truncf .bf16 u bitsLt_bf16_f32) w p j
  · rw [broadcastTo_apply _ broadcasts_S1x128_S5000x128 (ix2 p j) (ix2 (0 : Fin 1) j) (fun a => match a with
      | ⟨0, _⟩ => by show 0 = if (1 : Nat) = 1 then 0 else _; rw [if_pos rfl]
      | ⟨1, _⟩ => by show j.val = if (128 : Nat) = 1 then 0 else j.val; rw [if_neg (by decide)])]
    exact Cert.LibHostRows.rowOfVec_cast_apply b shapeCasts_S128_S1x128 j

/-- The three first-half bodies at row p and column j of their block: ∑ k, (h[p,k] + agg[p,k]) · w[k,j] + b[j]. -/
theorem half0_apply (x0 x1 : Vec Ideal S5000x128 .f32) (x2 : Vec Ideal S128x128 .bf16) (x3 : Vec Ideal S128 .f32)
    (p : Fin 5000) (j : Fin 128) :
    k0_pay1 x0 x1 x2 x3 (ix2 p j) = (∑ k : Fin 128, (x0 (ix2 p k) + x1 (ix2 p k)) * x2 (ix2 k j)) + x3 (ix1 j) := by
  unfold k0_pay1
  simp only [shapeCast_self]
  exact blkLin_apply (addf x0 x1) x2 x3 p j

theorem half2_apply (x0 x1 : Vec Ideal S5000x128 .f32) (x2 : Vec Ideal S128x128 .bf16) (x3 : Vec Ideal S128 .f32)
    (p : Fin 5000) (j : Fin 128) :
    k2_pay1 x0 x1 x2 x3 (ix2 p j) = (∑ k : Fin 128, (x0 (ix2 p k) + x1 (ix2 p k)) * x2 (ix2 k j)) + x3 (ix1 j) := by
  unfold k2_pay1
  simp only [shapeCast_self]
  exact blkLin_apply (addf x0 x1) x2 x3 p j

theorem half4_apply (x0 x1 : Vec Ideal S5000x128 .f32) (x2 : Vec Ideal S128x128 .bf16) (x3 : Vec Ideal S128 .f32)
    (p : Fin 5000) (j : Fin 128) :
    k4_pay1 x0 x1 x2 x3 (ix2 p j) = (∑ k : Fin 128, (x0 (ix2 p k) + x1 (ix2 p k)) * x2 (ix2 k j)) + x3 (ix1 j) := by
  unfold k4_pay1
  simp only [shapeCast_self]
  exact blkLin_apply (addf x0 x1) x2 x3 p j

end Cert.Gin.Reg

/-! ## The whole-array half layer at one entry -/

namespace Cert.Gin.Reg

open Idealize.ShloMosaic Idealize.ShloMosaic.ValueIdx Cert.ReferenceIdeal

theorem rowDot_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem rowDot_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rowDot_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rowDot_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- u · w + b over all the rows, at row r and column j: ∑ k, u[r,k] · w[k,j] + b[j]. -/
theorem lin_apply {φ : FTy} (u : FVec Ideal S100000x128 .f32) (w : FVec Ideal S128x128 φ) (b : FVec Ideal S128 .f32)
    (r : Fin 100000) (j : Fin 128) :
    Cert.Gin.lin u w b (ix2 r j) = (∑ k : Fin 128, u (ix2 r k) * w (ix2 k j)) + b (ix1 j) := by
  unfold Cert.Gin.lin Cert.Gin.rowsN
  rw [addf_apply]
  congr 1
  · exact Cert.LibHostRows.hostDot_apply dot_S100000x128_S128x128_S100000x128_1_0_0_1_n_n rfl rfl
      rowDot_lhs0 rowDot_lhs1 rowDot_rhs0 rowDot_rhs1 none u w r j
  · exact Cert.LibHostRows.rowOfVec_spread_apply (by decide) b _ _ r j

/-- The body of region 0 on a block whose rows are rows of the whole arrays: entry (p, j) of the block's result is
    entry (r, j) of (h + agg) · w + b over all the rows, when row p of each row block is row r of its array and the
    weight and bias blocks are the whole weight and bias. -/
theorem half0_rows (A0 A1 : FVec Ideal S100000x128 .f32) (A2 : FVec Ideal S128x128 .bf16) (A3 : FVec Ideal S128 .f32)
    (x0 x1 : FVec Ideal ⟨2, ![5000, 128]⟩ .f32) (x2 : FVec Ideal ⟨2, ![128, 128]⟩ .bf16) (x3 : FVec Ideal ⟨1, ![128]⟩ .f32)
    (p : Fin 5000) (j : Fin 128) (r : Fin 100000)
    (h0 : ∀ k : Fin 128, x0 (ix2 p k) = A0 (ix2 r k)) (h1 : ∀ k : Fin 128, x1 (ix2 p k) = A1 (ix2 r k))
    (h2 : ∀ k : Fin 128, x2 (ix2 k j) = A2 (ix2 k j)) (h3 : x3 (ix1 j) = A3 (ix1 j)) :
    Cert.KernelIdeal.Gen.k0_pay1 x0 x1 x2 x3 (ix2 p j) = Cert.Gin.lin (φ := .bf16) (addf A0 A1) A2 A3 (ix2 r j) := by
  rw [half0_apply, lin_apply]
  refine congrArg₂ (· + ·) (Finset.sum_congr rfl fun k _ => ?_) h3
  rw [addf_apply, h0, h1, h2]

/-- The body of region 2 on a block whose rows are rows of the whole arrays: entry (p, j) of the block's result is
    entry (r, j) of (h + agg) · w + b over all the rows, when row p of each row block is row r of its array and the
    weight and bias blocks are the whole weight and bias. -/
theorem half2_rows (A0 A1 : FVec Ideal S100000x128 .f32) (A2 : FVec Ideal S128x128 .bf16) (A3 : FVec Ideal S128 .f32)
    (x0 x1 : FVec Ideal ⟨2, ![5000, 128]⟩ .f32) (x2 : FVec Ideal ⟨2, ![128, 128]⟩ .bf16) (x3 : FVec Ideal ⟨1, ![128]⟩ .f32)
    (p : Fin 5000) (j : Fin 128) (r : Fin 100000)
    (h0 : ∀ k : Fin 128, x0 (ix2 p k) = A0 (ix2 r k)) (h1 : ∀ k : Fin 128, x1 (ix2 p k) = A1 (ix2 r k))
    (h2 : ∀ k : Fin 128, x2 (ix2 k j) = A2 (ix2 k j)) (h3 : x3 (ix1 j) = A3 (ix1 j)) :
    Cert.KernelIdeal.Gen.k2_pay1 x0 x1 x2 x3 (ix2 p j) = Cert.Gin.lin (φ := .bf16) (addf A0 A1) A2 A3 (ix2 r j) := by
  rw [half2_apply, lin_apply]
  refine congrArg₂ (· + ·) (Finset.sum_congr rfl fun k _ => ?_) h3
  rw [addf_apply, h0, h1, h2]

/-- The body of region 4 on a block whose rows are rows of the whole arrays: entry (p, j) of the block's result is
    entry (r, j) of (h + agg) · w + b over all the rows, when row p of each row block is row r of its array and the
    weight and bias blocks are the whole weight and bias. -/
theorem half4_rows (A0 A1 : FVec Ideal S100000x128 .f32) (A2 : FVec Ideal S128x128 .bf16) (A3 : FVec Ideal S128 .f32)
    (x0 x1 : FVec Ideal ⟨2, ![5000, 128]⟩ .f32) (x2 : FVec Ideal ⟨2, ![128, 128]⟩ .bf16) (x3 : FVec Ideal ⟨1, ![128]⟩ .f32)
    (p : Fin 5000) (j : Fin 128) (r : Fin 100000)
    (h0 : ∀ k : Fin 128, x0 (ix2 p k) = A0 (ix2 r k)) (h1 : ∀ k : Fin 128, x1 (ix2 p k) = A1 (ix2 r k))
    (h2 : ∀ k : Fin 128, x2 (ix2 k j) = A2 (ix2 k j)) (h3 : x3 (ix1 j) = A3 (ix1 j)) :
    Cert.KernelIdeal.Gen.k4_pay1 x0 x1 x2 x3 (ix2 p j) = Cert.Gin.lin (φ := .bf16) (addf A0 A1) A2 A3 (ix2 r j) := by
  rw [half4_apply, lin_apply]
  refine congrArg₂ (· + ·) (Finset.sum_congr rfl fun k _ => ?_) h3
  rw [addf_apply, h0, h1, h2]

end Cert.Gin.Reg

end
-- ==== Proof.RegA0.lean ====
/-
  Region 0: the first half of layer 1 over all the rows.

  The grid has 20 points; point t holds rows 5000·t … 5000·t + 4999 of h, of the neighbour sum and of the
  output, and the whole weight and bias.  On its block the body computes (h + agg) · w + b (RegAPay), which is
  the same rows of the whole-array (h + agg) · w + b; the 20 blocks tile the 100000 rows, so the output
  array ends holding that function of the region's input arrays.
-/
import proofs.«131036_j27977416966474_1_alg».proof.Proof.Gen.KernelIdeal.Frame
import proofs.«131036_j27977416966474_1_alg».proof.Proof.RegAPay
import Idealize.ShloMosaic.Lib.Pipeline.Value

set_option maxRecDepth 16384

noncomputable section

open scoped BigOperators

namespace Cert.Gin.Reg

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2_0 : (![0, 0] : Fin 2 → Nat) = fun _ => 0 := funext fun a => by fin_cases a <;> rfl
theorem origin1_0 : (![0] : Fin 1 → Nat) = fun _ => 0 := funext fun a => by fin_cases a <;> rfl

/-- The index maps over the grid: the row windows are at block t, the weight and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of point t's block of h is row 5000·t + p of h. -/
theorem rows0_0 (c : Dev nD) (t : Fin cfg0.N) (p : Fin 5000) (k : Fin 128) (r : Fin 100000)
    (hr : r.val = 5000 * t.val + p.val) :
    (iblk0 V c 0 t : Vec Ideal S5000x128 .f32) (ix2 p k)
      = (V c (Pipeline.arrRef spec0 0) : Vec Ideal S100000x128 .f32) (ix2 r k) := by
  obtain ⟨e0, e1, -⟩ := idx0 t
  unfold iblk0
  show (V c (Pipeline.arrRef spec0 0) : Vec Ideal S100000x128 .f32) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of point t's block of the neighbour sum is row 5000·t + p of it. -/
theorem rows0_1 (c : Dev nD) (t : Fin cfg0.N) (p : Fin 5000) (k : Fin 128) (r : Fin 100000)
    (hr : r.val = 5000 * t.val + p.val) :
    (iblk0 V c 1 t : Vec Ideal S5000x128 .f32) (ix2 p k)
      = (V c (Pipeline.arrRef spec0 1) : Vec Ideal S100000x128 .f32) (ix2 r k) := by
  obtain ⟨-, -, e0, e1, -⟩ := idx0 t
  unfold iblk0
  show (V c (Pipeline.arrRef spec0 1) : Vec Ideal S100000x128 .f32) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Every point's block of the weight is the weight. -/
theorem whole0_2 (c : Dev nD) (t : Fin cfg0.N) (k j : Fin 128) :
    (iblk0 V c 2 t : Vec Ideal S128x128 .bf16) (ix2 k j)
      = (V c (Pipeline.arrRef spec0 2) : Vec Ideal S128x128 .bf16) (ix2 k j) := by
  obtain ⟨-, -, -, -, e0, e1, -⟩ := idx0 t
  unfold iblk0
  show (V c (Pipeline.arrRef spec0 2) : Vec Ideal S128x128 .bf16) (((cfg0.win 2).blk t).view.emb (ix2 k j)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- Every point's block of the bias is the bias. -/
theorem whole0_3 (c : Dev nD) (t : Fin cfg0.N) (j : Fin 128) :
    (iblk0 V c 3 t : Vec Ideal S128 .f32) (ix1 j)
      = (V c (Pipeline.arrRef spec0 3) : Vec Ideal S128 .f32) (ix1 j) := by
  obtain ⟨-, -, -, -, -, -, e0, -⟩ := idx0 t
  unfold iblk0
  show (V c (Pipeline.arrRef spec0 3) : Vec Ideal S128 .f32) (((cfg0.win 3).blk t).view.emb (ix1 j)) = _
  refine congrArg _ (funext fun a => Fin.ext ?_)
  match a with
  | ⟨0, _⟩ => show win0_3.index t (0 : Fin 1) * 128 + 1 * j.val = j.val; omega

/-- Entry (p, j) of what the body computes at point t is entry (5000·t + p, j) of (h + agg) · w + b. -/
theorem ent0 (c : Dev nD) (t : Fin cfg0.N) (p : Fin 5000) (j : Fin 128) (hr : 5000 * t.val + p.val < 100000) :
    k0_pay1 (iblk0 V c 0 t) (iblk0 V c 1 t) (iblk0 V c 2 t) (iblk0 V c 3 t) (ix2 p j)
      = Cert.Gin.lin (φ := .bf16) (addf (V c (Pipeline.arrRef spec0 0)) (V c (Pipeline.arrRef spec0 1)))
          (V c (Pipeline.arrRef spec0 2)) (V c (Pipeline.arrRef spec0 3)) (ix2 ⟨5000 * t.val + p.val, hr⟩ j) :=
  half0_rows (V c (Pipeline.arrRef spec0 0)) (V c (Pipeline.arrRef spec0 1)) (V c (Pipeline.arrRef spec0 2))
    (V c (Pipeline.arrRef spec0 3)) (iblk0 V c 0 t) (iblk0 V c 1 t) (iblk0 V c 2 t) (iblk0 V c 3 t) p j
    ⟨5000 * t.val + p.val, hr⟩ (fun k => rows0_0 V c t p k ⟨5000 * t.val + p.val, hr⟩ rfl)
    (fun k => rows0_1 V c t p k ⟨5000 * t.val + p.val, hr⟩ rfl) (fun k => whole0_2 V c t k j) (whole0_3 V c t j)

/-- Entry (p, j) of point t's output block lies at entry (5000·t + p, j) of the output array. -/
theorem emb0 (t : Fin cfg0.N) (p : Fin 5000) (j : Fin 128) (hr : 5000 * t.val + p.val < 100000) :
    (((cfg0.win 4).blk t).view.emb (ix2 p j) : S100000x128.Idx) = ix2 (⟨5000 * t.val + p.val, hr⟩ : Fin 100000) j := by
  obtain ⟨-, -, -, -, -, -, -, e0, e1⟩ := idx0 t
  funext a; apply Fin.ext
  match a with
  | ⟨0, _⟩ => show win0_4.index t (0 : Fin 2) * 5000 + 1 * p.val = 5000 * t.val + p.val; omega
  | ⟨1, _⟩ => show win0_4.index t (1 : Fin 2) * 128 + 1 * j.val = j.val; omega

set_option maxHeartbeats 1000000 in
/-- What point t writes back is block t of (h + agg) · w + b of the region's input arrays. -/
theorem blk0 (c : Dev nD) (t : Fin cfg0.N) :
    (dat0 (F := Ideal) V c).flushed 4 t = ((cfg0.win 4).blk t).view.read (Elt Ideal)
      (Cert.Gin.lin (φ := .bf16) (addf (V c (Pipeline.arrRef spec0 0)) (V c (Pipeline.arrRef spec0 1)))
        (V c (Pipeline.arrRef spec0 2)) (V c (Pipeline.arrRef spec0 3))) := by
  show (cfg0.win 4).cut (grid0.coords t) ((dat0 V c).after 4 t) = _
  rw [after0_4]
  unfold out0_4
  rw [View.canon_unit_zero origin2_0]
  simp only [View.ld_unit_zero (S := S5000x128) origin2_0, View.ld_unit_zero (S := S128x128) origin2_0,
    View.ld_unit_zero (S := S128) origin1_0]
  refine funext fun (y : S5000x128.Idx) => ?_
  obtain ⟨p, j, rfl⟩ : ∃ (p : Fin 5000) (j : Fin 128), y = ix2 p j := ⟨y 0, y 1, eq_ix2 y⟩
  have ht : t.val < 20 := t.isLt
  have hr : 5000 * t.val + p.val < 100000 := by have := p.isLt; omega
  refine (ent0 V c t p j hr).trans ?_
  exact congrArg (Cert.Gin.lin (φ := .bf16) (addf (V c (Pipeline.arrRef spec0 0)) (V c (Pipeline.arrRef spec0 1)))
    (V c (Pipeline.arrRef spec0 2)) (V c (Pipeline.arrRef spec0 3))) (emb0 t p j hr).symm

/-- An index of the output array is in point t's block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v16).slice (win0_4.rect t)).set ↔ _
  rw [View.set_slice_whole, Rect.mem_set_unit]
  exact Iff.rfl

/-- Every row of the output is in some point's block: row r is in the block of point r / 5000. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show _ < 20; omega⟩, rfl⟩
  obtain ⟨-, -, -, -, -, -, -, e0, e1⟩ := idx0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The output array after region 0: (h + agg) · w + b of the arrays the region found. -/
theorem val0 (c : Dev nD) :
    (dat0 (F := Ideal) V c).arrAt 4 cfg0.N
      = Cert.Gin.lin (φ := .bf16) (addf (V c (Pipeline.arrRef spec0 0)) (V c (Pipeline.arrRef spec0 1)))
          (V c (Pipeline.arrRef spec0 2)) (V c (Pipeline.arrRef spec0 3)) :=
  (dat0 (F := Ideal) V c).arrAt_eq_of_cover 4 _ (fun t _ => blk0 V c t) cover0

end Cert.Gin.Reg

end
-- ==== Proof.RegA2.lean ====
/-
  Region 2: the first half of layer 2 over all the rows.

  The grid has 20 points; point t holds rows 5000·t … 5000·t + 4999 of h, of the neighbour sum and of the
  output, and the whole weight and bias.  On its block the body computes (h + agg) · w + b (RegAPay), which is
  the same rows of the whole-array (h + agg) · w + b; the 20 blocks tile the 100000 rows, so the output
  array ends holding that function of the region's input arrays.
-/
import proofs.«131036_j27977416966474_1_alg».proof.Proof.Gen.KernelIdeal.Frame
import proofs.«131036_j27977416966474_1_alg».proof.Proof.RegAPay
import Idealize.ShloMosaic.Lib.Pipeline.Value

set_option maxRecDepth 16384

noncomputable section

open scoped BigOperators

namespace Cert.Gin.Reg

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2_2 : (![0, 0] : Fin 2 → Nat) = fun _ => 0 := funext fun a => by fin_cases a <;> rfl
theorem origin1_2 : (![0] : Fin 1 → Nat) = fun _ => 0 := funext fun a => by fin_cases a <;> rfl

/-- The index maps over the grid: the row windows are at block t, the weight and the bias at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row p of point t's block of h is row 5000·t + p of h. -/
theorem rows2_0 (c : Dev nD) (t : Fin cfg2.N) (p : Fin 5000) (k : Fin 128) (r : Fin 100000)
    (hr : r.val = 5000 * t.val + p.val) :
    (iblk2 V c 0 t : Vec Ideal S5000x128 .f32) (ix2 p k)
      = (V c (Pipeline.arrRef spec2 0) : Vec Ideal S100000x128 .f32) (ix2 r k) := by
  obtain ⟨e0, e1, -⟩ := idx2 t
  unfold iblk2
  show (V c (Pipeline.arrRef spec2 0) : Vec Ideal S100000x128 .f32) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of point t's block of the neighbour sum is row 5000·t + p of it. -/
theorem rows2_1 (c : Dev nD) (t : Fin cfg2.N) (p : Fin 5000) (k : Fin 128) (r : Fin 100000)
    (hr : r.val = 5000 * t.val + p.val) :
    (iblk2 V c 1 t : Vec Ideal S5000x128 .f32) (ix2 p k)
      = (V c (Pipeline.arrRef spec2 1) : Vec Ideal S100000x128 .f32) (ix2 r k) := by
  obtain ⟨-, -, e0, e1, -⟩ := idx2 t
  unfold iblk2
  show (V c (Pipeline.arrRef spec2 1) : Vec Ideal S100000x128 .f32) (((cfg2.win 1).blk t).view.emb (ix2 p k)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Every point's block of the weight is the weight. -/
theorem whole2_2 (c : Dev nD) (t : Fin cfg2.N) (k j : Fin 128) :
    (iblk2 V c 2 t : Vec Ideal S128x128 .bf16) (ix2 k j)
      = (V c (Pipeline.arrRef spec2 2) : Vec Ideal S128x128 .bf16) (ix2 k j) := by
  obtain ⟨-, -, -, -, e0, e1, -⟩ := idx2 t
  unfold iblk2
  show (V c (Pipeline.arrRef spec2 2) : Vec Ideal S128x128 .bf16) (((cfg2.win 2).blk t).view.emb (ix2 k j)) = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- Every point's block of the bias is the bias. -/
theorem whole2_3 (c : Dev nD) (t : Fin cfg2.N) (j : Fin 128) :
    (iblk2 V c 3 t : Vec Ideal S128 .f32) (ix1 j)
      = (V c (Pipeline.arrRef spec2 3) : Vec Ideal S128 .f32) (ix1 j) := by
  obtain ⟨-, -, -, -, -, -, e0, -⟩ := idx2 t
  unfold iblk2
  show (V c (Pipeline.arrRef spec2 3) : Vec Ideal S128 .f32) (((cfg2.win 3).blk t).view.emb (ix1 j)) = _
  refine congrArg _ (funext fun a => Fin.ext ?_)
  match a with
  | ⟨0, _⟩ => show win2_3.index t (0 : Fin 1) * 128 + 1 * j.val = j.val; omega

/-- Entry (p, j) of what the body computes at point t is entry (5000·t + p, j) of (h + agg) · w + b. -/
theorem ent2 (c : Dev nD) (t : Fin cfg2.N) (p : Fin 5000) (j : Fin 128) (hr : 5000 * t.val + p.val < 100000) :
    k2_pay1 (iblk2 V c 0 t) (iblk2 V c 1 t) (iblk2 V c 2 t) (iblk2 V c 3 t) (ix2 p j)
      = Cert.Gin.lin (φ := .bf16) (addf (V c (Pipeline.arrRef spec2 0)) (V c (Pipeline.arrRef spec2 1)))
          (V c (Pipeline.arrRef spec2 2)) (V c (Pipeline.arrRef spec2 3)) (ix2 ⟨5000 * t.val + p.val, hr⟩ j) :=
  half2_rows (V c (Pipeline.arrRef spec2 0)) (V c (Pipeline.arrRef spec2 1)) (V c (Pipeline.arrRef spec2 2))
    (V c (Pipeline.arrRef spec2 3)) (iblk2 V c 0 t) (iblk2 V c 1 t) (iblk2 V c 2 t) (iblk2 V c 3 t) p j
    ⟨5000 * t.val + p.val, hr⟩ (fun k => rows2_0 V c t p k ⟨5000 * t.val + p.val, hr⟩ rfl)
    (fun k => rows2_1 V c t p k ⟨5000 * t.val + p.val, hr⟩ rfl) (fun k => whole2_2 V c t k j) (whole2_3 V c t j)

/-- Entry (p, j) of point t's output block lies at entry (5000·t + p, j) of the output array. -/
theorem emb2 (t : Fin cfg2.N) (p : Fin 5000) (j : Fin 128) (hr : 5000 * t.val + p.val < 100000) :
    (((cfg2.win 4).blk t).view.emb (ix2 p j) : S100000x128.Idx) = ix2 (⟨5000 * t.val + p.val, hr⟩ : Fin 100000) j := by
  obtain ⟨-, -, -, -, -, -, -, e0, e1⟩ := idx2 t
  funext a; apply Fin.ext
  match a with
  | ⟨0, _⟩ => show win2_4.index t (0 : Fin 2) * 5000 + 1 * p.val = 5000 * t.val + p.val; omega
  | ⟨1, _⟩ => show win2_4.index t (1 : Fin 2) * 128 + 1 * j.val = j.val; omega

set_option maxHeartbeats 1000000 in
/-- What point t writes back is block t of (h + agg) · w + b of the region's input arrays. -/
theorem blk2 (c : Dev nD) (t : Fin cfg2.N) :
    (dat2 (F := Ideal) V c).flushed 4 t = ((cfg2.win 4).blk t).view.read (Elt Ideal)
      (Cert.Gin.lin (φ := .bf16) (addf (V c (Pipeline.arrRef spec2 0)) (V c (Pipeline.arrRef spec2 1)))
        (V c (Pipeline.arrRef spec2 2)) (V c (Pipeline.arrRef spec2 3))) := by
  show (cfg2.win 4).cut (grid2.coords t) ((dat2 V c).after 4 t) = _
  rw [after2_4]
  unfold out2_4
  rw [View.canon_unit_zero origin2_2]
  simp only [View.ld_unit_zero (S := S5000x128) origin2_2, View.ld_unit_zero (S := S128x128) origin2_2,
    View.ld_unit_zero (S := S128) origin1_2]
  refine funext fun (y : S5000x128.Idx) => ?_
  obtain ⟨p, j, rfl⟩ : ∃ (p : Fin 5000) (j : Fin 128), y = ix2 p j := ⟨y 0, y 1, eq_ix2 y⟩
  have ht : t.val < 20 := t.isLt
  have hr : 5000 * t.val + p.val < 100000 := by have := p.isLt; omega
  refine (ent2 V c t p j hr).trans ?_
  exact congrArg (Cert.Gin.lin (φ := .bf16) (addf (V c (Pipeline.arrRef spec2 0)) (V c (Pipeline.arrRef spec2 1)))
    (V c (Pipeline.arrRef spec2 2)) (V c (Pipeline.arrRef spec2 3))) (emb2 t p j hr).symm

/-- An index of the output array is in point t's block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v34).slice (win2_4.rect t)).set ↔ _
  rw [View.set_slice_whole, Rect.mem_set_unit]
  exact Iff.rfl

/-- Every row of the output is in some point's block: row r is in the block of point r / 5000. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show _ < 20; omega⟩, rfl⟩
  obtain ⟨-, -, -, -, -, -, -, e0, e1⟩ := idx2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- The output array after region 2: (h + agg) · w + b of the arrays the region found. -/
theorem val2 (c : Dev nD) :
    (dat2 (F := Ideal) V c).arrAt 4 cfg2.N
      = Cert.Gin.lin (φ := .bf16) (addf (V c (Pipeline.arrRef spec2 0)) (V c (Pipeline.arrRef spec2 1)))
          (V c (Pipeline.arrRef spec2 2)) (V c (Pipeline.arrRef spec2 3)) :=
  (dat2 (F := Ideal) V c).arrAt_eq_of_cover 4 _ (fun t _ => blk2 V c t) cover2

end Cert.Gin.Reg

end
-- ==== Proof.RegA4.lean ====
/-
  Region 4: the first half of layer 3 over all the rows.

  The grid has 20 points; point t holds rows 5000·t … 5000·t + 4999 of h, of the neighbour sum and of the
  output, and the whole weight and bias.  On its block the body computes (h + agg) · w + b (RegAPay), which is
  the same rows of the whole-array (h + agg) · w + b; the 20 blocks tile the 100000 rows, so the output
  array ends holding that function of the region's input arrays.
-/
import proofs.«131036_j27977416966474_1_alg».proof.Proof.Gen.KernelIdeal.Frame
import proofs.«131036_j27977416966474_1_alg».proof.Proof.RegAPay
import Idealize.ShloMosaic.Lib.Pipeline.Value

set_option maxRecDepth 16384

noncomputable section

open scoped BigOperators

namespace Cert.Gin.Reg

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2_4 : (![0, 0] : Fin 2 → Nat) = fun _ => 0 := funext fun a => by fin_cases a <;> rfl
theorem origin1_4 : (![0] : Fin 1 → Nat) = fun _ => 0 := funext fun a => by fin_cases a <;> rfl

/-- The index maps over the grid: the row windows are at block t, the weight and the bias at block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- Row p of point t's block of h is row 5000·t + p of h. -/
theorem rows4_0 (c : Dev nD) (t : Fin cfg4.N) (p : Fin 5000) (k : Fin 128) (r : Fin 100000)
    (hr : r.val = 5000 * t.val + p.val) :
    (iblk4 V c 0 t : Vec Ideal S5000x128 .f32) (ix2 p k)
      = (V c (Pipeline.arrRef spec4 0) : Vec Ideal S100000x128 .f32) (ix2 r k) := by
  obtain ⟨e0, e1, -⟩ := idx4 t
  unfold iblk4
  show (V c (Pipeline.arrRef spec4 0) : Vec Ideal S100000x128 .f32) (((cfg4.win 0).blk t).view.emb (ix2 p k)) = _
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- Row p of point t's block of the neighbour sum is row 5000·t + p of it. -/
theorem rows4_1 (c : Dev nD) (t : Fin cfg4.N) (p : Fin 5000) (k : Fin 128) (r : Fin 100000)
    (hr : r.val = 5000 * t.val + p.val) :
    (iblk4 V c 1 t : Vec Ideal S5000x128 .f32) (ix2 p k)
      = (V c (Pipeline.arrRef spec4 1) : Vec Ideal S100000x128 .f32) (ix2 r k) := by
  obtain ⟨-, -, e0, e1, -⟩ := idx4 t
  unfold iblk4
  show (V c (Pipeline.arrRef spec4 1) : Vec Ideal S100000x128 .f32) (((cfg4.win 1).blk t).view.emb (ix2 p k)) = _
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- Every point's block of the weight is the weight. -/
theorem whole4_2 (c : Dev nD) (t : Fin cfg4.N) (k j : Fin 128) :
    (iblk4 V c 2 t : Vec Ideal S128x128 .bf16) (ix2 k j)
      = (V c (Pipeline.arrRef spec4 2) : Vec Ideal S128x128 .bf16) (ix2 k j) := by
  obtain ⟨-, -, -, -, e0, e1, -⟩ := idx4 t
  unfold iblk4
  show (V c (Pipeline.arrRef spec4 2) : Vec Ideal S128x128 .bf16) (((cfg4.win 2).blk t).view.emb (ix2 k j)) = _
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * j.val = j.val; omega

/-- Every point's block of the bias is the bias. -/
theorem whole4_3 (c : Dev nD) (t : Fin cfg4.N) (j : Fin 128) :
    (iblk4 V c 3 t : Vec Ideal S128 .f32) (ix1 j)
      = (V c (Pipeline.arrRef spec4 3) : Vec Ideal S128 .f32) (ix1 j) := by
  obtain ⟨-, -, -, -, -, -, e0, -⟩ := idx4 t
  unfold iblk4
  show (V c (Pipeline.arrRef spec4 3) : Vec Ideal S128 .f32) (((cfg4.win 3).blk t).view.emb (ix1 j)) = _
  refine congrArg _ (funext fun a => Fin.ext ?_)
  match a with
  | ⟨0, _⟩ => show win4_3.index t (0 : Fin 1) * 128 + 1 * j.val = j.val; omega

/-- Entry (p, j) of what the body computes at point t is entry (5000·t + p, j) of (h + agg) · w + b. -/
theorem ent4 (c : Dev nD) (t : Fin cfg4.N) (p : Fin 5000) (j : Fin 128) (hr : 5000 * t.val + p.val < 100000) :
    k4_pay1 (iblk4 V c 0 t) (iblk4 V c 1 t) (iblk4 V c 2 t) (iblk4 V c 3 t) (ix2 p j)
      = Cert.Gin.lin (φ := .bf16) (addf (V c (Pipeline.arrRef spec4 0)) (V c (Pipeline.arrRef spec4 1)))
          (V c (Pipeline.arrRef spec4 2)) (V c (Pipeline.arrRef spec4 3)) (ix2 ⟨5000 * t.val + p.val, hr⟩ j) :=
  half4_rows (V c (Pipeline.arrRef spec4 0)) (V c (Pipeline.arrRef spec4 1)) (V c (Pipeline.arrRef spec4 2))
    (V c (Pipeline.arrRef spec4 3)) (iblk4 V c 0 t) (iblk4 V c 1 t) (iblk4 V c 2 t) (iblk4 V c 3 t) p j
    ⟨5000 * t.val + p.val, hr⟩ (fun k => rows4_0 V c t p k ⟨5000 * t.val + p.val, hr⟩ rfl)
    (fun k => rows4_1 V c t p k ⟨5000 * t.val + p.val, hr⟩ rfl) (fun k => whole4_2 V c t k j) (whole4_3 V c t j)

/-- Entry (p, j) of point t's output block lies at entry (5000·t + p, j) of the output array. -/
theorem emb4 (t : Fin cfg4.N) (p : Fin 5000) (j : Fin 128) (hr : 5000 * t.val + p.val < 100000) :
    (((cfg4.win 4).blk t).view.emb (ix2 p j) : S100000x128.Idx) = ix2 (⟨5000 * t.val + p.val, hr⟩ : Fin 100000) j := by
  obtain ⟨-, -, -, -, -, -, -, e0, e1⟩ := idx4 t
  funext a; apply Fin.ext
  match a with
  | ⟨0, _⟩ => show win4_4.index t (0 : Fin 2) * 5000 + 1 * p.val = 5000 * t.val + p.val; omega
  | ⟨1, _⟩ => show win4_4.index t (1 : Fin 2) * 128 + 1 * j.val = j.val; omega

set_option maxHeartbeats 1000000 in
/-- What point t writes back is block t of (h + agg) · w + b of the region's input arrays. -/
theorem blk4 (c : Dev nD) (t : Fin cfg4.N) :
    (dat4 (F := Ideal) V c).flushed 4 t = ((cfg4.win 4).blk t).view.read (Elt Ideal)
      (Cert.Gin.lin (φ := .bf16) (addf (V c (Pipeline.arrRef spec4 0)) (V c (Pipeline.arrRef spec4 1)))
        (V c (Pipeline.arrRef spec4 2)) (V c (Pipeline.arrRef spec4 3))) := by
  show (cfg4.win 4).cut (grid4.coords t) ((dat4 V c).after 4 t) = _
  rw [after4_4]
  unfold out4_4
  rw [View.canon_unit_zero origin2_4]
  simp only [View.ld_unit_zero (S := S5000x128) origin2_4, View.ld_unit_zero (S := S128x128) origin2_4,
    View.ld_unit_zero (S := S128) origin1_4]
  refine funext fun (y : S5000x128.Idx) => ?_
  obtain ⟨p, j, rfl⟩ : ∃ (p : Fin 5000) (j : Fin 128), y = ix2 p j := ⟨y 0, y 1, eq_ix2 y⟩
  have ht : t.val < 20 := t.isLt
  have hr : 5000 * t.val + p.val < 100000 := by have := p.isLt; omega
  refine (ent4 V c t p j hr).trans ?_
  exact congrArg (Cert.Gin.lin (φ := .bf16) (addf (V c (Pipeline.arrRef spec4 0)) (V c (Pipeline.arrRef spec4 1)))
    (V c (Pipeline.arrRef spec4 2)) (V c (Pipeline.arrRef spec4 3))) (emb4 t p j hr).symm

/-- An index of the output array is in point t's block iff each coordinate is in the block's range on its axis. -/
theorem mem_blk4 (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v52).slice (win4_4.rect t)).set ↔ _
  rw [View.set_slice_whole, Rect.mem_set_unit]
  exact Iff.rfl

/-- Every row of the output is in some point's block: row r is in the block of point r / 5000. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by show _ < 20; omega⟩, rfl⟩
  obtain ⟨-, -, -, -, -, -, -, e0, e1⟩ := idx4 t
  refine ⟨t, flush4_4 t, ?_⟩
  rw [mem_blk4]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- The output array after region 4: (h + agg) · w + b of the arrays the region found. -/
theorem val4 (c : Dev nD) :
    (dat4 (F := Ideal) V c).arrAt 4 cfg4.N
      = Cert.Gin.lin (φ := .bf16) (addf (V c (Pipeline.arrRef spec4 0)) (V c (Pipeline.arrRef spec4 1)))
          (V c (Pipeline.arrRef spec4 2)) (V c (Pipeline.arrRef spec4 3)) :=
  (dat4 (F := Ideal) V c).arrAt_eq_of_cover 4 _ (fun t _ => blk4 V c t) cover4

end Cert.Gin.Reg

end
-- ==== Proof.RegBPay.lean ====
/-
  The second half of a layer read at one row and one column, on both sides.

  With h(z, mu, var, g, be) = max((z - mu) · (var + ε)^(-1/2) · g + be, 0) the hidden unit, row p and column j of
  relu(bn z) · w + b is  ∑ k, h(z[p,k], mu[k], var[k], g[k], be[k]) · w[k,j] + b[j].
  The kernel's body on a block of rows computes exactly this at every (p, j) of the block (the two changes of
  float format are the identity at the exact values and the product unit starts from the zero accumulator);
  the whole-array function of the specification is the same expression at every row of the array.
-/
import proofs.«131036_j27977416966474_1_alg».proof.Proof.Gen.KernelIdeal.Skeleton
import proofs.«131036_j27977416966474_1_alg».proof.Proof.Spec
import proofs.«131036_j27977416966474_1_alg».proof.Proof.LibMatmulRows
import proofs.«131036_j27977416966474_1_alg».proof.Proof.LibHostRows
import Idealize.ShloMosaic.Lib.ValueLayout

noncomputable section

open scoped BigOperators

namespace Cert.Gin.RegB

open Idealize.ShloMosaic Idealize.ShloMosaic.ValueIdx

/-- The hidden unit: max((z - mu) · (var + ε)^(-1/2) · g + be, 0). -/
def hid (z mu var g be : EReal) : EReal :=
  max ((z - mu) * Ideal.rsqrt (var + Ideal.ofBits .f32 0x3727C5AC#32) * g + be) (Ideal.ofBits .f32 0x00000000#32)

/-- Row p, column j of relu(bn z) · w + b, from row p of z. -/
def outAt (zrow : Fin 128 → EReal) (mu var g be : (⟨1, ![128]⟩ : Shape).Idx → EReal)
    (w : (⟨2, ![128, 128]⟩ : Shape).Idx → EReal) (b : (⟨1, ![128]⟩ : Shape).Idx → EReal) (j : Fin 128) : EReal :=
  ∑ k : Fin 128, hid (zrow k) (mu (ix1 k)) (var (ix1 k)) (g (ix1 k)) (be (ix1 k)) * w (ix2 k j) + b (ix1 j)

section Kernel

open Cert.KernelIdeal Cert.KernelIdeal.Gen

/-- A vector of 128 entries laid as one row and spread over 5000 rows, at (p, k): the vector's entry k. -/
theorem rowSpread_apply (v : FVec Ideal S128 .f32) (p : Fin 5000) (k : Fin 128) :
    broadcastTo S5000x128 (shapeCast S1x128 v shapeCasts_S128_S1x128) broadcasts_S1x128_S5000x128 (ix2 p k) = v (ix1 k) :=
  (broadcastTo_1b_ab_apply _ broadcasts_S1x128_S5000x128 p k).trans
    (Cert.LibHostRows.rowOfVec_cast_apply v shapeCasts_S128_S1x128 k)

/-- The body without its last relu, at row p and column j of the block. -/
theorem pay_lin (x0 : FVec Ideal S5000x128 .f32) (mu var g be : FVec Ideal S128 .f32) (w : FVec Ideal S128x128 .bf16)
    (b : FVec Ideal S128 .f32) (p : Fin 5000) (j : Fin 128) :
    k5_pay1 (F := Ideal) x0 mu var g be w b (ix2 p j) = outAt (fun k => x0 (ix2 p k)) mu var g be w b j := by
  unfold k5_pay1 outAt
  dsimp only
  refine congrArg₂ (· + ·) ?_ (rowSpread_apply b p j)
  refine (Cert.LibMatmulRows.matmul_zero_apply dot_S5000x128_S128x128_S5000x128_1_0_0_1_n_n rfl rfl
    (fun _ _ => rfl) (fun i q => DotDims.lhsIdx_val_of_single _ rfl i q) (fun i q => DotDims.rhsIdx_val_of_single _ rfl i q)
    (fun _ _ => rfl) none _ _ p j).trans ?_
  refine Finset.sum_congr rfl fun k _ => ?_
  refine congrArg₂ (· * ·) ?_ (congrFun (shapeCast_self w _) (ix2 k j))
  unfold hid
  refine congrArg₂ max ?_ rfl
  refine congrArg₂ (· + ·) ?_ (rowSpread_apply be p k)
  refine congrArg₂ (· * ·) ?_ (rowSpread_apply g p k)
  refine congrArg₂ (· * ·) ?_ ?_
  · exact congrArg₂ (· - ·) (congrFun (shapeCast_self x0 _) (ix2 p k))
      ((rowSpread_apply _ p k).trans (congrFun (shapeCast_self mu _) (ix1 k)))
  · exact (rowSpread_apply _ p k).trans
      (congrArg Ideal.rsqrt (congrArg₂ (· + ·) (congrFun (shapeCast_self var _) (ix1 k)) rfl))

/-- The body with its last relu, at row p and column j of the block (the second and the fourth region's body). -/
theorem pay_relu1 (x0 : FVec Ideal S5000x128 .f32) (mu var g be : FVec Ideal S128 .f32) (w : FVec Ideal S128x128 .bf16)
    (b : FVec Ideal S128 .f32) (p : Fin 5000) (j : Fin 128) :
    k1_pay1 (F := Ideal) x0 mu var g be w b (ix2 p j)
      = max (outAt (fun k => x0 (ix2 p k)) mu var g be w b j) (Ideal.ofBits .f32 0x00000000#32) :=
  congrArg₂ max (pay_lin x0 mu var g be w b p j) rfl

theorem pay_relu3 (x0 : FVec Ideal S5000x128 .f32) (mu var g be : FVec Ideal S128 .f32) (w : FVec Ideal S128x128 .bf16)
    (b : FVec Ideal S128 .f32) (p : Fin 5000) (j : Fin 128) :
    k3_pay1 (F := Ideal) x0 mu var g be w b (ix2 p j)
      = max (outAt (fun k => x0 (ix2 p k)) mu var g be w b j) (Ideal.ofBits .f32 0x00000000#32) :=
  congrArg₂ max (pay_lin x0 mu var g be w b p j) rfl

end Kernel

section Specification

open Cert.ReferenceIdeal Cert.ReferenceIdeal.Facts₀

/-- A vector spread over the rows of the array, at (r, k): the vector's entry k. -/
theorem rowsN_apply (v : FVec Ideal S128 .f32) (r : Fin 100000) (k : Fin 128) : Cert.Gin.rowsN v (ix2 r k) = v (ix1 k) :=
  Cert.LibHostRows.rowOfVec_spread_apply (by decide) v _ _ r k

/-- max(x, 0) at (r, j). -/
theorem reluN_apply (x : FVec Ideal S100000x128 .f32) (r : Fin 100000) (j : Fin 128) :
    Cert.Gin.reluN x (ix2 r j) = max (x (ix2 r j)) (Ideal.ofBits .f32 0x00000000#32) := rfl

/-- The specification's second half of a layer at row r and column j of the array. -/
theorem mlp2_apply (z : FVec Ideal S100000x128 .f32) (mu var g be : FVec Ideal S128 .f32) (w : FVec Ideal S128x128 .bf16)
    (b : FVec Ideal S128 .f32) (r : Fin 100000) (j : Fin 128) :
    Cert.Gin.mlp2 (φ := .bf16) z mu var g be w b (ix2 r j) = outAt (fun k => z (ix2 r k)) mu var g be w b j := by
  unfold Cert.Gin.mlp2 Cert.Gin.lin outAt
  refine congrArg₂ (· + ·) ?_ (rowsN_apply b r j)
  refine (Cert.LibHostRows.hostDot_apply dot_S100000x128_S128x128_S100000x128_1_0_0_1_n_n rfl rfl
    (fun _ _ => rfl) (fun i q => DotDims.lhsIdx_val_of_single _ rfl i q) (fun i q => DotDims.rhsIdx_val_of_single _ rfl i q)
    (fun _ _ => rfl) none _ _ r j).trans ?_
  refine Finset.sum_congr rfl fun k _ => ?_
  refine congrArg₂ (· * ·) ?_ rfl
  unfold hid
  refine congrArg₂ max ?_ rfl
  refine congrArg₂ (· + ·) ?_ (rowsN_apply be r k)
  refine congrArg₂ (· * ·) ?_ (rowsN_apply g r k)
  refine congrArg₂ (· * ·) ?_ ?_
  · exact congrArg₂ (· - ·) rfl (rowsN_apply mu r k)
  · exact (rowsN_apply _ r k).trans rfl

end Specification

section Point

open Cert.KernelIdeal Cert.KernelIdeal.Gen

/-- The body without its last relu, on a block whose row p is row r of the array z, is the specification's second
    half of a layer at (r, j). -/
theorem point_lin (x0 : FVec Ideal S5000x128 .f32) (mu var g be : FVec Ideal S128 .f32) (w : FVec Ideal S128x128 .bf16)
    (b : FVec Ideal S128 .f32) (z : FVec Ideal S100000x128 .f32) (p : Fin 5000) (r : Fin 100000) (j : Fin 128)
    (hx : ∀ k : Fin 128, x0 (ix2 p k) = z (ix2 r k)) :
    k5_pay1 (F := Ideal) x0 mu var g be w b (ix2 p j) = Cert.Gin.mlp2 (φ := .bf16) z mu var g be w b (ix2 r j) := by
  rw [pay_lin, mlp2_apply]
  exact congrArg (fun f => outAt f mu var g be w b j) (funext hx)

/-- The same with the last relu. -/
theorem point_relu1 (x0 : FVec Ideal S5000x128 .f32) (mu var g be : FVec Ideal S128 .f32) (w : FVec Ideal S128x128 .bf16)
    (b : FVec Ideal S128 .f32) (z : FVec Ideal S100000x128 .f32) (p : Fin 5000) (r : Fin 100000) (j : Fin 128)
    (hx : ∀ k : Fin 128, x0 (ix2 p k) = z (ix2 r k)) :
    k1_pay1 (F := Ideal) x0 mu var g be w b (ix2 p j)
      = Cert.Gin.reluN (Cert.Gin.mlp2 (φ := .bf16) z mu var g be w b) (ix2 r j) := by
  rw [pay_relu1, reluN_apply, mlp2_apply]
  exact congrArg (fun f => max (outAt f mu var g be w b j) _) (funext hx)

theorem point_relu3 (x0 : FVec Ideal S5000x128 .f32) (mu var g be : FVec Ideal S128 .f32) (w : FVec Ideal S128x128 .bf16)
    (b : FVec Ideal S128 .f32) (z : FVec Ideal S100000x128 .f32) (p : Fin 5000) (r : Fin 100000) (j : Fin 128)
    (hx : ∀ k : Fin 128, x0 (ix2 p k) = z (ix2 r k)) :
    k3_pay1 (F := Ideal) x0 mu var g be w b (ix2 p j)
      = Cert.Gin.reluN (Cert.Gin.mlp2 (φ := .bf16) z mu var g be w b) (ix2 r j) := by
  rw [pay_relu3, reluN_apply, mlp2_apply]
  exact congrArg (fun f => max (outAt f mu var g be w b j) _) (funext hx)

end Point

end Cert.Gin.RegB

end
-- ==== Proof.RegB1.lean ====
/-
  The second kernel region of layer one: the array it leaves is the specification's second half of a layer
  of the arrays it finds.

  The region's grid has 20 points; point t reads rows 5000·t … 5000·t + 4999 of z and the whole of the six
  vectors and of the weight, and writes back rows 5000·t … 5000·t + 4999 of the output.  What it writes at row p
  and column j of its block is the body's value there, which is the specification's value at row 5000·t + p and
  column j of the array (the body reads only row p of its block of z).  The 20 blocks tile the 100000 rows, so
  the array after the region is the specification's function everywhere.
-/
import proofs.«131036_j27977416966474_1_alg».proof.Proof.Gen.KernelIdeal.Frame
import proofs.«131036_j27977416966474_1_alg».proof.Proof.RegBPay
import Idealize.ShloMosaic.Lib.Pipeline.Value

set_option maxRecDepth 16384

noncomputable section

namespace Cert.Gin.RegB1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the blocks of z and of the output are row block t, every other window
    is its whole array at every point. -/
theorem idx : ∀ t : Fin cfg1.N,
    win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0
    ∧ win1_5.index t (0 : Fin 2) = 0 ∧ win1_5.index t (1 : Fin 2) = 0 ∧ win1_6.index t (0 : Fin 1) = 0
    ∧ win1_7.index t (0 : Fin 2) = t.val ∧ win1_7.index t (1 : Fin 2) = 0 :=
  (by decide +kernel : ∀ t : Fin grid1.N, _)

/-- What the region's output array ends holding. -/
abbrev G (c : Dev nD) : FVec Ideal S100000x128 .f32 :=
  Cert.Gin.reluN (Cert.Gin.mlp2 (φ := .bf16) (V c (Pipeline.arrRef spec1 0)) (V c (Pipeline.arrRef spec1 1))
    (V c (Pipeline.arrRef spec1 2)) (V c (Pipeline.arrRef spec1 3)) (V c (Pipeline.arrRef spec1 4))
    (V c (Pipeline.arrRef spec1 5)) (V c (Pipeline.arrRef spec1 6)))

/-- Window 1 holds its whole vector at every point. -/
theorem whole_1 (c : Dev nD) (t : Fin cfg1.N) :
    (iblk1 V c 1 t : FVec Ideal S128 .f32) = V c (Pipeline.arrRef spec1 1) := by
  obtain ⟨e00, e01, e1, e2, e3, e4, e50, e51, e6, e70, e71⟩ := idx t
  unfold iblk1
  funext y
  show V c (Pipeline.arrRef spec1 1) (((cfg1.win 1).blk t).view.emb y) = V c (Pipeline.arrRef spec1 1) y
  refine congrArg (V c (Pipeline.arrRef spec1 1)) (funext fun a => Fin.ext ?_)
  match a with
  | ⟨0, _⟩ => show win1_1.index t (0 : Fin 1) * 128 + 1 * (y 0).val = (y 0).val; omega

/-- Window 2 holds its whole vector at every point. -/
theorem whole_2 (c : Dev nD) (t : Fin cfg1.N) :
    (iblk1 V c 2 t : FVec Ideal S128 .f32) = V c (Pipeline.arrRef spec1 2) := by
  obtain ⟨e00, e01, e1, e2, e3, e4, e50, e51, e6, e70, e71⟩ := idx t
  unfold iblk1
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 1) * 128 + 1 * (y 0).val = (y 0).val; omega

/-- Window 3 holds its whole vector at every point. -/
theorem whole_3 (c : Dev nD) (t : Fin cfg1.N) :
    (iblk1 V c 3 t : FVec Ideal S128 .f32) = V c (Pipeline.arrRef spec1 3) := by
  obtain ⟨e00, e01, e1, e2, e3, e4, e50, e51, e6, e70, e71⟩ := idx t
  unfold iblk1
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 1) * 128 + 1 * (y 0).val = (y 0).val; omega

/-- Window 4 holds its whole vector at every point. -/
theorem whole_4 (c : Dev nD) (t : Fin cfg1.N) :
    (iblk1 V c 4 t : FVec Ideal S128 .f32) = V c (Pipeline.arrRef spec1 4) := by
  obtain ⟨e00, e01, e1, e2, e3, e4, e50, e51, e6, e70, e71⟩ := idx t
  unfold iblk1
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 1) * 128 + 1 * (y 0).val = (y 0).val; omega

/-- Window 5 holds the whole weight at every point. -/
theorem whole_5 (c : Dev nD) (t : Fin cfg1.N) :
    (iblk1 V c 5 t : FVec Ideal S128x128 .bf16) = V c (Pipeline.arrRef spec1 5) := by
  obtain ⟨e00, e01, e1, e2, e3, e4, e50, e51, e6, e70, e71⟩ := idx t
  unfold iblk1
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6 holds its whole vector at every point. -/
theorem whole_6 (c : Dev nD) (t : Fin cfg1.N) :
    (iblk1 V c 6 t : FVec Ideal S128 .f32) = V c (Pipeline.arrRef spec1 6) := by
  obtain ⟨e00, e01, e1, e2, e3, e4, e50, e51, e6, e70, e71⟩ := idx t
  unfold iblk1
  funext y
  show V c (Pipeline.arrRef spec1 6) (((cfg1.win 6).blk t).view.emb y) = V c (Pipeline.arrRef spec1 6) y
  refine congrArg (V c (Pipeline.arrRef spec1 6)) (funext fun a => Fin.ext ?_)
  match a with
  | ⟨0, _⟩ => show win1_6.index t (0 : Fin 1) * 128 + 1 * (y 0).val = (y 0).val; omega

/-- Row p of point t's block of z is row 5000·t + p of the array. -/
theorem rows_0 (c : Dev nD) (t : Fin cfg1.N) (p : Fin 5000) (k : Fin 128) (hr : t.val * 5000 + p.val < 100000) :
    (iblk1 V c 0 t : FVec Ideal S5000x128 .f32) (ix2 p k)
      = (V c (Pipeline.arrRef spec1 0) : FVec Ideal S100000x128 .f32) (ix2 (⟨t.val * 5000 + p.val, hr⟩ : Fin 100000) k) := by
  obtain ⟨e00, e01, e1, e2, e3, e4, e50, e51, e6, e70, e71⟩ := idx t
  unfold iblk1
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- What point t writes back is block t of the specification's function of the arrays the region finds. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz2]
  simp only [View.ld_unit_zero (S := S5000x128) hz2, View.ld_unit_zero (S := S128) hz1, View.ld_unit_zero (S := S128x128) hz2]
  funext y
  obtain ⟨p, j, rfl⟩ : ∃ (p : Fin 5000) (j : Fin 128), y = ix2 p j := ⟨y 0, y 1, eq_ix2 y⟩
  obtain ⟨e00, e01, e1, e2, e3, e4, e50, e51, e6, e70, e71⟩ := idx t
  have hr : t.val * 5000 + p.val < 100000 := by have := t.isLt; have hN : cfg1.N = 20 := N_1; omega
  show k1_pay1 (iblk1 V c 0 t) (iblk1 V c 1 t) (iblk1 V c 2 t) (iblk1 V c 3 t) (iblk1 V c 4 t) (iblk1 V c 5 t)
      (iblk1 V c 6 t) (ix2 p j) = G V c (((cfg1.win 7).blk t).view.emb (ix2 p j))
  have he : ((cfg1.win 7).blk t).view.emb (ix2 p j) = ix2 (⟨t.val * 5000 + p.val, hr⟩ : Fin 100000) j := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * j.val = j.val; omega
  rw [he, whole_1 V c t, whole_2 V c t, whole_3 V c t, whole_4 V c t, whole_5 V c t, whole_6 V c t]
  exact Cert.Gin.RegB.point_relu1 (iblk1 V c 0 t) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 0)) p ⟨t.val * 5000 + p.val, hr⟩ j
    (fun k => rows_0 V c t p k hr)

/-- An index of the array is in point t's block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v21).slice (win1_7.rect t)).set ↔ _
  rw [View.set_slice_whole, Rect.mem_set_unit]
  exact Iff.rfl

/-- Every index of the array is in the block of the point its row falls in: row r is in block r / 5000. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e00, e01, e1, e2, e3, e4, e50, e51, e6, e70, e71⟩ := idx t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

end Cert.Gin.RegB1

namespace Cert.Gin.Reg

open Cert.KernelIdeal Cert.KernelIdeal.Gen Idealize.ShloMosaic Idealize.ShloMosaic.TcCoe Idealize.SL.Sem

/-- The array the region leaves in its output window is the specification's second half of a layer, with the last relu, of the
    seven arrays it finds. -/
theorem val1 (V : (c : Dev nD) → (b : Ref sig .tc) → Buf (Elt Ideal) ((c : Thread nD τ).loc b)) (c : Dev nD) :
    (dat1 (F := Ideal) V c).arrAt 7 cfg1.N
      = Cert.Gin.reluN (Cert.Gin.mlp2 (φ := .bf16) (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6))) :=
  (dat1 (F := Ideal) V c).arrAt_eq_of_cover 7 (Cert.Gin.RegB1.G V c) (fun t _ => Cert.Gin.RegB1.flushed_eq V c t)
    Cert.Gin.RegB1.cover

end Cert.Gin.Reg

end
-- ==== Proof.RegB3.lean ====
/-
  The second kernel region of layer two: the array it leaves is the specification's second half of a layer
  of the arrays it finds.

  The region's grid has 20 points; point t reads rows 5000·t … 5000·t + 4999 of z and the whole of the six
  vectors and of the weight, and writes back rows 5000·t … 5000·t + 4999 of the output.  What it writes at row p
  and column j of its block is the body's value there, which is the specification's value at row 5000·t + p and
  column j of the array (the body reads only row p of its block of z).  The 20 blocks tile the 100000 rows, so
  the array after the region is the specification's function everywhere.
-/
import proofs.«131036_j27977416966474_1_alg».proof.Proof.Gen.KernelIdeal.Frame
import proofs.«131036_j27977416966474_1_alg».proof.Proof.RegBPay
import Idealize.ShloMosaic.Lib.Pipeline.Value

set_option maxRecDepth 16384

noncomputable section

namespace Cert.Gin.RegB3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the blocks of z and of the output are row block t, every other window
    is its whole array at every point. -/
theorem idx : ∀ t : Fin cfg3.N,
    win3_0.index t (0 : Fin 2) = t.val ∧ win3_0.index t (1 : Fin 2) = 0
    ∧ win3_1.index t (0 : Fin 1) = 0 ∧ win3_2.index t (0 : Fin 1) = 0 ∧ win3_3.index t (0 : Fin 1) = 0
    ∧ win3_4.index t (0 : Fin 1) = 0
    ∧ win3_5.index t (0 : Fin 2) = 0 ∧ win3_5.index t (1 : Fin 2) = 0 ∧ win3_6.index t (0 : Fin 1) = 0
    ∧ win3_7.index t (0 : Fin 2) = t.val ∧ win3_7.index t (1 : Fin 2) = 0 :=
  (by decide +kernel : ∀ t : Fin grid3.N, _)

/-- What the region's output array ends holding. -/
abbrev G (c : Dev nD) : FVec Ideal S100000x128 .f32 :=
  Cert.Gin.reluN (Cert.Gin.mlp2 (φ := .bf16) (V c (Pipeline.arrRef spec3 0)) (V c (Pipeline.arrRef spec3 1))
    (V c (Pipeline.arrRef spec3 2)) (V c (Pipeline.arrRef spec3 3)) (V c (Pipeline.arrRef spec3 4))
    (V c (Pipeline.arrRef spec3 5)) (V c (Pipeline.arrRef spec3 6)))

/-- Window 1 holds its whole vector at every point. -/
theorem whole_1 (c : Dev nD) (t : Fin cfg3.N) :
    (iblk3 V c 1 t : FVec Ideal S128 .f32) = V c (Pipeline.arrRef spec3 1) := by
  obtain ⟨e00, e01, e1, e2, e3, e4, e50, e51, e6, e70, e71⟩ := idx t
  unfold iblk3
  funext y
  show V c (Pipeline.arrRef spec3 1) (((cfg3.win 1).blk t).view.emb y) = V c (Pipeline.arrRef spec3 1) y
  refine congrArg (V c (Pipeline.arrRef spec3 1)) (funext fun a => Fin.ext ?_)
  match a with
  | ⟨0, _⟩ => show win3_1.index t (0 : Fin 1) * 128 + 1 * (y 0).val = (y 0).val; omega

/-- Window 2 holds its whole vector at every point. -/
theorem whole_2 (c : Dev nD) (t : Fin cfg3.N) :
    (iblk3 V c 2 t : FVec Ideal S128 .f32) = V c (Pipeline.arrRef spec3 2) := by
  obtain ⟨e00, e01, e1, e2, e3, e4, e50, e51, e6, e70, e71⟩ := idx t
  unfold iblk3
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 1) * 128 + 1 * (y 0).val = (y 0).val; omega

/-- Window 3 holds its whole vector at every point. -/
theorem whole_3 (c : Dev nD) (t : Fin cfg3.N) :
    (iblk3 V c 3 t : FVec Ideal S128 .f32) = V c (Pipeline.arrRef spec3 3) := by
  obtain ⟨e00, e01, e1, e2, e3, e4, e50, e51, e6, e70, e71⟩ := idx t
  unfold iblk3
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 1) * 128 + 1 * (y 0).val = (y 0).val; omega

/-- Window 4 holds its whole vector at every point. -/
theorem whole_4 (c : Dev nD) (t : Fin cfg3.N) :
    (iblk3 V c 4 t : FVec Ideal S128 .f32) = V c (Pipeline.arrRef spec3 4) := by
  obtain ⟨e00, e01, e1, e2, e3, e4, e50, e51, e6, e70, e71⟩ := idx t
  unfold iblk3
  funext y
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 1) * 128 + 1 * (y 0).val = (y 0).val; omega

/-- Window 5 holds the whole weight at every point. -/
theorem whole_5 (c : Dev nD) (t : Fin cfg3.N) :
    (iblk3 V c 5 t : FVec Ideal S128x128 .bf16) = V c (Pipeline.arrRef spec3 5) := by
  obtain ⟨e00, e01, e1, e2, e3, e4, e50, e51, e6, e70, e71⟩ := idx t
  unfold iblk3
  funext y
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 6 holds its whole vector at every point. -/
theorem whole_6 (c : Dev nD) (t : Fin cfg3.N) :
    (iblk3 V c 6 t : FVec Ideal S128 .f32) = V c (Pipeline.arrRef spec3 6) := by
  obtain ⟨e00, e01, e1, e2, e3, e4, e50, e51, e6, e70, e71⟩ := idx t
  unfold iblk3
  funext y
  show V c (Pipeline.arrRef spec3 6) (((cfg3.win 6).blk t).view.emb y) = V c (Pipeline.arrRef spec3 6) y
  refine congrArg (V c (Pipeline.arrRef spec3 6)) (funext fun a => Fin.ext ?_)
  match a with
  | ⟨0, _⟩ => show win3_6.index t (0 : Fin 1) * 128 + 1 * (y 0).val = (y 0).val; omega

/-- Row p of point t's block of z is row 5000·t + p of the array. -/
theorem rows_0 (c : Dev nD) (t : Fin cfg3.N) (p : Fin 5000) (k : Fin 128) (hr : t.val * 5000 + p.val < 100000) :
    (iblk3 V c 0 t : FVec Ideal S5000x128 .f32) (ix2 p k)
      = (V c (Pipeline.arrRef spec3 0) : FVec Ideal S100000x128 .f32) (ix2 (⟨t.val * 5000 + p.val, hr⟩ : Fin 100000) k) := by
  obtain ⟨e00, e01, e1, e2, e3, e4, e50, e51, e6, e70, e71⟩ := idx t
  unfold iblk3
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- What point t writes back is block t of the specification's function of the arrays the region finds. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz2]
  simp only [View.ld_unit_zero (S := S5000x128) hz2, View.ld_unit_zero (S := S128) hz1, View.ld_unit_zero (S := S128x128) hz2]
  funext y
  obtain ⟨p, j, rfl⟩ : ∃ (p : Fin 5000) (j : Fin 128), y = ix2 p j := ⟨y 0, y 1, eq_ix2 y⟩
  obtain ⟨e00, e01, e1, e2, e3, e4, e50, e51, e6, e70, e71⟩ := idx t
  have hr : t.val * 5000 + p.val < 100000 := by have := t.isLt; have hN : cfg3.N = 20 := N_3; omega
  show k3_pay1 (iblk3 V c 0 t) (iblk3 V c 1 t) (iblk3 V c 2 t) (iblk3 V c 3 t) (iblk3 V c 4 t) (iblk3 V c 5 t)
      (iblk3 V c 6 t) (ix2 p j) = G V c (((cfg3.win 7).blk t).view.emb (ix2 p j))
  have he : ((cfg3.win 7).blk t).view.emb (ix2 p j) = ix2 (⟨t.val * 5000 + p.val, hr⟩ : Fin 100000) j := by
    funext a; apply Fin.ext
    match a with
    | ⟨0, _⟩ => show win3_7.index t (0 : Fin 2) * 5000 + 1 * p.val = t.val * 5000 + p.val; omega
    | ⟨1, _⟩ => show win3_7.index t (1 : Fin 2) * 128 + 1 * j.val = j.val; omega
  rw [he, whole_1 V c t, whole_2 V c t, whole_3 V c t, whole_4 V c t, whole_5 V c t, whole_6 V c t]
  exact Cert.Gin.RegB.point_relu3 (iblk3 V c 0 t) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 0)) p ⟨t.val * 5000 + p.val, hr⟩ j
    (fun k => rows_0 V c t p k hr)

/-- An index of the array is in point t's block iff each coordinate is in the block's range on its axis. -/
theorem mem_blk (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v39).slice (win3_7.rect t)).set ↔ _
  rw [View.set_slice_whole, Rect.mem_set_unit]
  exact Iff.rfl

/-- Every index of the array is in the block of the point its row falls in: row r is in block r / 5000. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨e00, e01, e1, e2, e3, e4, e50, e51, e6, e70, e71⟩ := idx t
  refine ⟨t, flush3_7 t, ?_⟩
  rw [mem_blk]
  intro a
  match a with
  | ⟨0, _⟩ =>
    show win3_7.index t (0 : Fin 2) * 5000 ≤ (i 0).val ∧ (i 0).val < win3_7.index t (0 : Fin 2) * 5000 + 5000
    omega
  | ⟨1, _⟩ =>
    show win3_7.index t (1 : Fin 2) * 128 ≤ (i 1).val ∧ (i 1).val < win3_7.index t (1 : Fin 2) * 128 + 128
    omega

end Cert.Gin.RegB3

namespace Cert.Gin.Reg

open Cert.KernelIdeal Cert.KernelIdeal.Gen Idealize.ShloMosaic Idealize.ShloMosaic.TcCoe Idealize.SL.Sem

/-- The array the region leaves in its output window is the specification's second half of a layer, with the last relu, of the
    seven arrays it finds. -/
theorem val3 (V : (c : Dev nD) → (b : Ref sig .tc) → Buf (Elt Ideal) ((c : Thread nD τ).loc b)) (c : Dev nD) :
    (dat3 (F := Ideal) V c).arrAt 7 cfg3.N
      = Cert.Gin.reluN (Cert.Gin.mlp2 (φ := .bf16) (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6))) :=
  (dat3 (F := Ideal) V c).arrAt_eq_of_cover 7 (Cert.Gin.RegB3.G V c) (fun t _ => Cert.Gin.RegB3.flushed_eq V c t)
    Cert.Gin.RegB3.cover

end Cert.Gin.Reg

end
-- ==== Proof.RegB5.lean ====
/-
  The second kernel region of layer three: the array it leaves is the specification's second half of a layer
  of the arrays it finds.

  The region's grid has 20 points; point t reads rows 5000·t … 5000·t + 4999 of z and the whole of the six
  vectors and of the weight, and writes back rows 5000·t … 5000·t + 4999 of the output.  What it writes at row p
  and column j of its block is the body's value there, which is the specification's value at row 5000·t + p and
  column j of the array (the body reads only row p of its block of z).  The 20 blocks tile the 100000 rows, so
  the array after the region is the specification's function everywhere.
-/
import proofs.«131036_j27977416966474_1_alg».proof.Proof.Gen.KernelIdeal.Frame
import proofs.«131036_j27977416966474_1_alg».proof.Proof.RegBPay
import Idealize.ShloMosaic.Lib.Pipeline.Value

set_option maxRecDepth 16384

noncomputable section

namespace Cert.Gin.RegB5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the blocks of z and of the output are row block t, every other window
    is its whole array at every point. -/
theorem idx : ∀ t : Fin cfg5.N,
    win5_0.index t (0 : Fin 2) = t.val ∧ win5_0.index t (1 : Fin 2) = 0
    ∧ win5_1.index t (0 : Fin 1) = 0 ∧ win5_2.index t (0 : Fin 1) = 0 ∧ win5_3.index t (0 : Fin 1) = 0
    ∧ win5_4.index t (0 : Fin 1) = 0
    ∧ win5_5.index t (0 : Fin 2) = 0 ∧ win5_5.index t (1 : Fin 2) = 0 ∧ win5_6.index t (0 : Fin 1) = 0
    ∧ win5_7.index t (0 : Fin 2) = t.val ∧ win5_7.index t (1 : Fin 2) = 0 :=
  (by decide +kernel : ∀ t : Fin grid5.N, _)

/-- What the region's output array ends holding. -/
abbrev G (c : Dev nD) : FVec Ideal S100000x128 .f32 :=
  Cert.Gin.mlp2 (φ := .bf16) (V c (Pipeline.arrRef spec5 0)) (V c (Pipeline.arrRef spec5 1))
    (V c (Pipeline.arrRef spec5 2)) (V c (Pipeline.arrRef spec5 3)) (V c (Pipeline.arrRef spec5 4))
    (V c (Pipeline.arrRef spec5 5)) (V c (Pipeline.arrRef spec5 6))

/-- Window 1 holds its whole vector at every point. -/
theorem whole_1 (c : Dev nD) (t : Fin cfg5.N) :
    (iblk5 V c 1 t : FVec Ideal S128 .f32) = V c (Pipeline.arrRef spec5 1) := by
  obtain ⟨e00, e01, e1, e2, e3, e4, e50, e51, e6, e70, e71⟩ := idx t
  unfold iblk5
  funext y
  show V c (Pipeline.arrRef spec5 1) (((cfg5.win 1).blk t).view.emb y) = V c (Pipeline.arrRef spec5 1) y
  refine congrArg (V c (Pipeline.arrRef spec5 1)) (funext fun a => Fin.ext ?_)
  match a with
  | ⟨0, _⟩ => show win5_1.index t (0 : Fin 1) * 128 + 1 * (y 0).val = (y 0).val; omega

/-- Window 2 holds its whole vector at every point. -/
theorem whole_2 (c : Dev nD) (t : Fin cfg5.N) :
    (iblk5 V c 2 t : FVec Ideal S128 .f32) = V c (Pipeline.arrRef spec5 2) := by
  obtain ⟨e00, e01, e1, e2, e3, e4, e50, e51, e6, e70, e71⟩ := idx t
  unfold iblk5
  funext y
  show V c (Pipeline.arrRef spec5 2) (((cfg5.win 2).blk t).view.emb y) = V c (Pipeline.arrRef spec5 2) y
  refine congrArg (V c (Pipeline.arrRef spec5 2)) (funext fun a => Fin.ext ?_)
  match a with
  | ⟨0, _⟩ => show win5_2.index t (0 : Fin 1) * 128 + 1 * (y 0).val = (y 0).val; omega

/-- Window 3 holds its whole vector at every point. -/
theorem whole_3 (c : Dev nD) (t : Fin cfg5.N) :
    (iblk5 V c 3 t : FVec Ideal S128 .f32) = V c (Pipeline.arrRef spec5 3) := by
  obtain ⟨e00, e01, e1, e2, e3, e4, e50, e51, e6, e70, e71⟩ := idx t
  unfold iblk5
  funext y
  show V c (Pipeline.arrRef spec5 3) (((cfg5.win 3).blk t).view.emb y) = V c (Pipeline.arrRef spec5 3) y
  refine congrArg (V c (Pipeline.arrRef spec5 3)) (funext fun a => Fin.ext ?_)
  match a with
  | ⟨0, _⟩ => show win5_3.index t (0 : Fin 1) * 128 + 1 * (y 0).val = (y 0).val; omega

/-- Window 4 holds its whole vector at every point. -/
theorem whole_4 (c : Dev nD) (t : Fin cfg5.N) :
    (iblk5 V c 4 t : FVec Ideal S128 .f32) = V c (Pipeline.arrRef spec5 4) := by
  obtain ⟨e00, e01, e1, e2, e3, e4, e50, e51, e6, e70, e71⟩ := idx t
  unfold iblk5
  funext y
  show V c (Pipeline.arrRef spec5 4) (((cfg5.win 4).blk t).view.emb y) = V c (Pipeline.arrRef spec5 4) y
  refine congrArg (V c (Pipeline.arrRef spec5 4)) (funext fun a => Fin.ext ?_)
  match a with
  | ⟨0, _⟩ => show win5_4.index t (0 : Fin 1) * 128 + 1 * (y 0).val = (y 0).val; omega

/-- Window 5 holds the whole weight at every point. -/
theorem whole_5 (c : Dev nD) (t : Fin cfg5.N) :
    (iblk5 V c 5 t : FVec Ideal S128x128 .bf16) = V c (Pipeline.arrRef spec5 5) := by
  obtain ⟨e00, e01, e1, e2, e3, e4, e50, e51, e6, e70, e71⟩ := idx t
  unfold iblk5
  funext y
  show V c (Pipeline.arrRef spec5 5) (((cfg5.win 5).blk t).view.emb y) = V c (Pipeline.arrRef spec5 5) y
  refine congrArg (V c (Pipeline.arrRef spec5 5)) (funext fun a => Fin.ext ?_)
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- Window 6 holds its whole vector at every point. -/
theorem whole_6 (c : Dev nD) (t : Fin cfg5.N) :
    (iblk5 V c 6 t : FVec Ideal S128 .f32) = V c (Pipeline.arrRef spec5 6) := by
  obtain ⟨e00, e01, e1, e2, e3, e4, e50, e51, e6, e70, e71⟩ := idx t
  unfold iblk5
  funext y
  show V c (Pipeline.arrRef spec5 6) (((cfg5.win 6).blk t).view.emb y) = V c (Pipeline.arrRef spec5 6) y
  refine congrArg (V c (Pipeline.arrRef spec5 6)) (funext fun a => Fin.ext ?_)
  match a with
  | ⟨0, _⟩ => show win5_6.index t (0 : Fin 1) * 128 + 1 * (y 0).val = (y 0).val; omega

/-- Row p of point t's block of z is row 5000·t + p of the array. -/
theorem rows_0 (c : Dev nD) (t : Fin cfg5.N) (p : Fin 5000) (k : Fin 128) (hr : t.val * 5000 + p.val < 100000) :
    (iblk5 V c 0 t : FVec Ideal S5000x128 .f32) (ix2 p k)
      = (V c (Pipeline.arrRef spec5 0) : FVec Ideal S100000x128 .f32) (ix2 (⟨t.val * 5000 + p.val, hr⟩ : Fin 100000) k) := by
  obtain ⟨e00, e01, e1, e2, e3, e4, e50, e51, e6, e70, e71⟩ := idx t
  unfold iblk5
  show V c (Pipeline.arrRef spec5 0) (((cfg5.win 0).blk t).view.emb (ix2 p k)) = _
  refine congrArg (V c (Pipeline.arrRef spec5 0)) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * k.val = k.val; omega

/-- What point t writes back is block t of the specification's function of the arrays the region finds. -/
theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  unfold out5_7
  rw [View.canon_unit_zero hz2]
  simp only [View.ld_unit_zero (S := S5000x128) hz2, View.ld_unit_zero (S := S128) hz1, View.ld_unit_zero (S := S128x128) hz2]
  funext y
  obtain ⟨p, j, rfl⟩ : ∃ (p : Fin 5000) (j : Fin 128), y = ix2 p j := ⟨y 0, y 1, eq_ix2 y⟩
  obtain ⟨e00, e01, e1, e2, e3, e4, e50, e51, e6, e70, e71⟩ := idx t
  have hr : t.val * 5000 + p.val < 100000 := by have := t.isLt; have hN : cfg5.N = 20 := N_5; omega
  show k5_pay1 (iblk5 V c 0 t) (iblk5 V c 1 t) (iblk5 V c 2 t) (iblk5 V c 3 t) (iblk5 V c 4 t) (iblk5 V c 5 t)
      (iblk5 V c 6 t) (ix2 p j) = G V c (((cfg5.win 7).blk t).view.emb (ix2 p j))
  have he : ((cfg5.win 7).blk t).view.emb (ix2 p j) = ix2 (⟨t.val * 5000 + p.val, hr⟩ : Fin 100000) j := by
    funext a; apply Fin.ext
    match a with
    | ⟨0, _⟩ => show win5_7.index t (0 : Fin 2) * 5000 + 1 * p.val = t.val * 5000 + p.val; omega
    | ⟨1, _⟩ => show win5_7.index t (1 : Fin 2) * 128 + 1 * j.val = j.val; omega
  rw [he, whole_1 V c t, whole_2 V c t, whole_3 V c t, whole_4 V c t, whole_5 V c t, whole_6 V c t]
  exact Cert.Gin.RegB.point_lin (iblk5 V c 0 t) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6)) (V c (Pipeline.arrRef spec5 0)) p ⟨t.val * 5000 + p.val, hr⟩ j
    (fun k => rows_0 V c t p k hr)

/-- An index of the array is in point t's block iff each coordinate is in the block's range on its axis. -/
theorem mem_blk (t : Fin cfg5.N) (i : S100000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole main_v57).slice (win5_7.rect t)).set ↔ _
  rw [View.set_slice_whole, Rect.mem_set_unit]
  exact Iff.rfl

/-- Every index of the array is in the block of the point its row falls in: row r is in block r / 5000. -/
theorem cover (i : S100000x128.Idx) :
    ∃ t : Fin cfg5.N, (cfg5.win 7).flush t = true ∧ i ∈ ((cfg5.win 7).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨e00, e01, e1, e2, e3, e4, e50, e51, e6, e70, e71⟩ := idx t
  refine ⟨t, flush5_7 t, ?_⟩
  rw [mem_blk]
  intro a
  match a with
  | ⟨0, _⟩ =>
    show win5_7.index t (0 : Fin 2) * 5000 ≤ (i 0).val ∧ (i 0).val < win5_7.index t (0 : Fin 2) * 5000 + 5000
    omega
  | ⟨1, _⟩ =>
    show win5_7.index t (1 : Fin 2) * 128 ≤ (i 1).val ∧ (i 1).val < win5_7.index t (1 : Fin 2) * 128 + 128
    omega

end Cert.Gin.RegB5

namespace Cert.Gin.Reg

open Cert.KernelIdeal Cert.KernelIdeal.Gen Idealize.ShloMosaic Idealize.ShloMosaic.TcCoe Idealize.SL.Sem

/-- The array the region leaves in its output window is the specification's second half of a layer of the
    seven arrays it finds. -/
theorem val5 (V : (c : Dev nD) → (b : Ref sig .tc) → Buf (Elt Ideal) ((c : Thread nD τ).loc b)) (c : Dev nD) :
    (dat5 (F := Ideal) V c).arrAt 7 cfg5.N
      = Cert.Gin.mlp2 (φ := .bf16) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5)) (V c (Pipeline.arrRef spec5 6)) :=
  (dat5 (F := Ideal) V c).arrAt_eq_of_cover 7 (Cert.Gin.RegB5.G V c) (fun t _ => Cert.Gin.RegB5.flushed_eq V c t)
    Cert.Gin.RegB5.cover

end Cert.Gin.Reg

end
-- ==== Proof.RegC6Pay.lean ====
/-
  The classifier on the 512 pooled rows, read at one entry.

  Both programs compute  relu(gr · w1 + b1) · w2 + b2 : the pooled rows times the 128 × 128 weight plus the first bias
  spread over the rows, the maximum with zero, times the 128 × 10 weight plus the second bias spread over the rows.
  At the exact values a change of float format is the identity, a product into the zero accumulator is the plain
  sum of products, and so is the host's product; so at row p and column j both are
      ∑ k, max (∑ m, gr[p,m] · w1[m,k] + b1[k]) 0 · w2[k,j]  +  b2[j].
-/
import proofs.«131036_j27977416966474_1_alg».proof.Proof.Gen.KernelIdeal.Skeleton
import proofs.«131036_j27977416966474_1_alg».proof.Proof.LibMatmulRows
import proofs.«131036_j27977416966474_1_alg».proof.Proof.LibHostRows
import proofs.«131036_j27977416966474_1_alg».proof.Proof.Spec
import Idealize.ShloMosaic.Lib.Pipeline.Value
import Idealize.ShloMosaic.Lib.ValueLayout

noncomputable section

open scoped BigOperators

namespace Cert.Gin.Reg

open Idealize.ShloMosaic Idealize.ShloMosaic.ValueIdx

/-- The classifier at row p and column j, as a sum of products of entries. -/
def clsAt (gr : (⟨2, ![512, 128]⟩ : Shape).Idx → EReal) (w1 : (⟨2, ![128, 128]⟩ : Shape).Idx → EReal)
    (b1 : (⟨1, ![128]⟩ : Shape).Idx → EReal) (w2 : (⟨2, ![128, 10]⟩ : Shape).Idx → EReal)
    (b2 : (⟨1, ![10]⟩ : Shape).Idx → EReal) (p : Fin 512) (j : Fin 10) : EReal :=
  (∑ k : Fin 128, max ((∑ m : Fin 128, gr (ix2 p m) * w1 (ix2 m k)) + b1 (ix1 k)) (Ideal.ofBits .f32 0x00000000#32)
      * w2 (ix2 k j)) + b2 (ix1 j)

end Cert.Gin.Reg

/-! ## The kernel's body -/

namespace Cert.Gin.Reg

open Idealize.ShloMosaic Idealize.ShloMosaic.ValueIdx Cert.KernelIdeal Cert.KernelIdeal.Gen

/-! The two block products' operand indices: the left operand is read at (row, k), the right at (k, column). -/

theorem kDotA_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

theorem kDotA_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

theorem kDotA_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

theorem kDotA_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

theorem kDotB_lhs0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide),
    dif_pos (show (0 : Fin S512x128.rank) ∈ dot_S512x128_S128x10_S512x10_1_0_0_1_n_n.lhsNonContracting by decide)]
  rfl

theorem kDotB_lhs1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q

theorem kDotB_rhs0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q

theorem kDotB_rhs1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide),
    dif_pos (show (1 : Fin S128x10.rank) ∈ dot_S512x128_S128x10_S512x10_1_0_0_1_n_n.rhsNonContracting by decide)]
  rfl

/-- The classifier body at row p and column j. -/
theorem clsBody_apply (x0 : Vec Ideal S512x128 .f32) (x1 : Vec Ideal S128x128 .bf16) (x2 : Vec Ideal S128 .f32)
    (x3 : Vec Ideal S128x10 .bf16) (x4 : Vec Ideal S10 .f32) (p : Fin 512) (j : Fin 10) :
    k6_pay1 x0 x1 x2 x3 x4 (ix2 p j) = clsAt x0 x1 x2 x3 x4 p j := by
  unfold k6_pay1 clsAt
  simp only [shapeCast_self]
  rw [addf_apply]
  refine congrArg₂ (· + ·) ?_ ?_
  · refine (Cert.LibMatmulRows.matmul_zero_apply (φ₁ := .bf16) (φ₂ := .bf16) dot_S512x128_S128x10_S512x10_1_0_0_1_n_n rfl rfl
      kDotB_lhs0 kDotB_lhs1 kDotB_rhs0 kDotB_rhs1 none _ x3 p j).trans ?_
    refine Finset.sum_congr rfl fun k _ => ?_
    refine congrArg (· * x3 (ix2 k j)) ?_
    rw [truncf_apply, maximumf_apply, addf_apply]
    refine congrArg₂ max (congrArg₂ (· + ·) ?_ ?_) rfl
    · exact Cert.LibMatmulRows.matmul_zero_apply (φ₁ := .bf16) (φ₂ := .bf16) dot_S512x128_S128x128_S512x128_1_0_0_1_n_n rfl rfl
        kDotA_lhs0 kDotA_lhs1 kDotA_rhs0 kDotA_rhs1 none (truncf .bf16 x0 bitsLt_bf16_f32) x1 p k
    · rw [broadcastTo_apply _ broadcasts_S1x128_S512x128 (ix2 p k) (ix2 (0 : Fin 1) k) (fun a => match a with
        | ⟨0, _⟩ => by show 0 = if (1 : Nat) = 1 then 0 else _; rw [if_pos rfl]
        | ⟨1, _⟩ => by show k.val = if (128 : Nat) = 1 then 0 else k.val; rw [if_neg (by decide)])]
      exact Cert.LibHostRows.rowOfVec_cast_apply x2 shapeCasts_S128_S1x128 k
  · rw [broadcastTo_apply _ broadcasts_S1x10_S512x10 (ix2 p j) (ix2 (0 : Fin 1) j) (fun a => match a with
      | ⟨0, _⟩ => by show 0 = if (1 : Nat) = 1 then 0 else _; rw [if_pos rfl]
      | ⟨1, _⟩ => by show j.val = if (10 : Nat) = 1 then 0 else j.val; rw [if_neg (by decide)])]
    exact Cert.LibHostRows.rowOfVec_cast_apply x4 shapeCasts_S10_S1x10 j

end Cert.Gin.Reg

/-! ## The plain program's classifier -/

namespace Cert.Gin.Reg

open Idealize.ShloMosaic Idealize.ShloMosaic.ValueIdx Cert.ReferenceIdeal

theorem hDotA_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

theorem hDotA_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

theorem hDotA_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

theorem hDotA_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

theorem hDotB_lhs0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide),
    dif_pos (show (0 : Fin S512x128.rank) ∈ dot_S512x128_S128x10_S512x10_1_0_0_1_n_n.lhsNonContracting by decide)]
  rfl

theorem hDotB_lhs1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q

theorem hDotB_rhs0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q

theorem hDotB_rhs1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide),
    dif_pos (show (1 : Fin S128x10.rank) ∈ dot_S512x128_S128x10_S512x10_1_0_0_1_n_n.rhsNonContracting by decide)]
  rfl

/-- A scalar spread over every entry of a matrix is the scalar. -/
theorem scalarOver_apply {R C : ℕ} (z : (⟨0, ![]⟩ : Shape).Idx → EReal)
    (h : (⟨0, ![]⟩ : Shape).BroadcastsInDim ⟨2, ![R, C]⟩ ![]) (i : (⟨2, ![R, C]⟩ : Shape).Idx) :
    broadcastInDim ⟨2, ![R, C]⟩ ![] h z i = z ix0 :=
  broadcastInDim_apply ![] h z i ix0 (fun a => a.elim0)

/-- The classifier of the specification at row p and column j. -/
theorem cls_apply {φ₁ φ₂ : FTy} (gr : FVec Ideal S512x128 .f32) (w1 : FVec Ideal S128x128 φ₁) (b1 : FVec Ideal S128 .f32)
    (w2 : FVec Ideal S128x10 φ₂) (b2 : FVec Ideal S10 .f32) (p : Fin 512) (j : Fin 10) :
    Cert.Gin.cls gr w1 b1 w2 b2 (ix2 p j) = clsAt gr w1 b1 w2 b2 p j := by
  unfold Cert.Gin.cls clsAt
  rw [addf_apply]
  refine congrArg₂ (· + ·) ?_ ?_
  · refine (Cert.LibHostRows.hostDot_apply dot_S512x128_S128x10_S512x10_1_0_0_1_n_n rfl rfl
      hDotB_lhs0 hDotB_lhs1 hDotB_rhs0 hDotB_rhs1 none _ w2 p j).trans ?_
    refine Finset.sum_congr rfl fun k _ => ?_
    refine congrArg (· * w2 (ix2 k j)) ?_
    rw [maximumf_apply, addf_apply]
    refine congrArg₂ max (congrArg₂ (· + ·) ?_ ?_) ?_
    · exact Cert.LibHostRows.hostDot_apply dot_S512x128_S128x128_S512x128_1_0_0_1_n_n rfl rfl
        hDotA_lhs0 hDotA_lhs1 hDotA_rhs0 hDotA_rhs1 none gr w1 p k
    · exact Cert.LibHostRows.rowOfVec_spread_apply (by decide) b1 _ _ p k
    · exact scalarOver_apply _ _ _
  · exact Cert.LibHostRows.rowOfVec_spread_apply (by decide) b2 _ _ p j

/-- The kernel's classifier body on blocks that are the whole arrays is the specification's classifier of those
    arrays, entry by entry. -/
theorem cls_whole (A0 : FVec Ideal S512x128 .f32) (A1 : FVec Ideal S128x128 .bf16) (A2 : FVec Ideal S128 .f32)
    (A3 : FVec Ideal S128x10 .bf16) (A4 : FVec Ideal S10 .f32)
    (x0 : FVec Ideal ⟨2, ![512, 128]⟩ .f32) (x1 : FVec Ideal ⟨2, ![128, 128]⟩ .bf16) (x2 : FVec Ideal ⟨1, ![128]⟩ .f32)
    (x3 : FVec Ideal ⟨2, ![128, 10]⟩ .bf16) (x4 : FVec Ideal ⟨1, ![10]⟩ .f32) (p : Fin 512) (j : Fin 10)
    (h0 : ∀ m : Fin 128, x0 (ix2 p m) = A0 (ix2 p m)) (h1 : ∀ m k : Fin 128, x1 (ix2 m k) = A1 (ix2 m k))
    (h2 : ∀ k : Fin 128, x2 (ix1 k) = A2 (ix1 k)) (h3 : ∀ k : Fin 128, x3 (ix2 k j) = A3 (ix2 k j))
    (h4 : x4 (ix1 j) = A4 (ix1 j)) :
    Cert.KernelIdeal.Gen.k6_pay1 x0 x1 x2 x3 x4 (ix2 p j)
      = Cert.Gin.cls (φ₁ := .bf16) (φ₂ := .bf16) A0 A1 A2 A3 A4 (ix2 p j) := by
  rw [clsBody_apply, cls_apply]
  unfold clsAt
  refine congrArg₂ (· + ·) (Finset.sum_congr rfl fun k _ => ?_) h4
  rw [h3 k, h2 k]
  refine congrArg (fun s => max (s + A2 (ix1 k)) (Ideal.ofBits .f32 0x00000000#32) * A3 (ix2 k j)) ?_
  refine Finset.sum_congr rfl fun m _ => ?_
  rw [h0 m, h1 m k]

end Cert.Gin.Reg

end
-- ==== Proof.RegC6.lean ====
/-
  Region 6: the classifier on the pooled rows.

  The grid has one point and every window is its whole array, so each block is its array and the body's result — the
  classifier of the blocks (RegC6Pay) — is the classifier of the region's input arrays; the one block covers the
  512 × 10 output.
-/
import proofs.«131036_j27977416966474_1_alg».proof.Proof.Gen.KernelIdeal.Frame
import proofs.«131036_j27977416966474_1_alg».proof.Proof.RegC6Pay
import Idealize.ShloMosaic.Lib.Pipeline.Value

set_option maxRecDepth 16384

noncomputable section

open scoped BigOperators

namespace Cert.Gin.Reg

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem origin2_6 : (![0, 0] : Fin 2 → Nat) = fun _ => 0 := funext fun a => by fin_cases a <;> rfl
theorem origin1_6 : (![0] : Fin 1 → Nat) = fun _ => 0 := funext fun a => by fin_cases a <;> rfl

/-- The index maps at the one grid point: every window is at block 0 on every axis. -/
theorem idx6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0 :=
  (by decide +kernel : ∀ t : Fin grid6.N, _)

/-- The block of the pooled rows is the pooled rows. -/
theorem whole6_0 (c : Dev nD) (t : Fin cfg6.N) (p : Fin 512) (m : Fin 128) :
    (iblk6 V c 0 t : Vec Ideal S512x128 .f32) (ix2 p m)
      = (V c (Pipeline.arrRef spec6 0) : Vec Ideal S512x128 .f32) (ix2 p m) := by
  obtain ⟨e0, e1, -⟩ := idx6 t
  unfold iblk6
  show (V c (Pipeline.arrRef spec6 0) : Vec Ideal S512x128 .f32) (((cfg6.win 0).blk t).view.emb (ix2 p m)) = _
  refine congrArg _ (funext fun a => Fin.ext ?_)
  match a with
  | ⟨0, _⟩ => show win6_0.index t (0 : Fin 2) * 512 + 1 * p.val = p.val; omega
  | ⟨1, _⟩ => show win6_0.index t (1 : Fin 2) * 128 + 1 * m.val = m.val; omega

/-- The block of the first weight is the first weight. -/
theorem whole6_1 (c : Dev nD) (t : Fin cfg6.N) (m k : Fin 128) :
    (iblk6 V c 1 t : Vec Ideal S128x128 .bf16) (ix2 m k)
      = (V c (Pipeline.arrRef spec6 1) : Vec Ideal S128x128 .bf16) (ix2 m k) := by
  obtain ⟨-, -, e0, e1, -⟩ := idx6 t
  unfold iblk6
  show (V c (Pipeline.arrRef spec6 1) : Vec Ideal S128x128 .bf16) (((cfg6.win 1).blk t).view.emb (ix2 m k)) = _
  refine congrArg _ (funext fun a => Fin.ext ?_)
  match a with
  | ⟨0, _⟩ => show win6_1.index t (0 : Fin 2) * 128 + 1 * m.val = m.val; omega
  | ⟨1, _⟩ => show win6_1.index t (1 : Fin 2) * 128 + 1 * k.val = k.val; omega

/-- The block of the first bias is the first bias. -/
theorem whole6_2 (c : Dev nD) (t : Fin cfg6.N) (k : Fin 128) :
    (iblk6 V c 2 t : Vec Ideal S128 .f32) (ix1 k)
      = (V c (Pipeline.arrRef spec6 2) : Vec Ideal S128 .f32) (ix1 k) := by
  obtain ⟨-, -, -, -, e0, -⟩ := idx6 t
  unfold iblk6
  show (V c (Pipeline.arrRef spec6 2) : Vec Ideal S128 .f32) (((cfg6.win 2).blk t).view.emb (ix1 k)) = _
  refine congrArg _ (funext fun a => Fin.ext ?_)
  match a with
  | ⟨0, _⟩ => show win6_2.index t (0 : Fin 1) * 128 + 1 * k.val = k.val; omega

/-- The block of the second weight is the second weight. -/
theorem whole6_3 (c : Dev nD) (t : Fin cfg6.N) (k : Fin 128) (j : Fin 10) :
    (iblk6 V c 3 t : Vec Ideal S128x10 .bf16) (ix2 k j)
      = (V c (Pipeline.arrRef spec6 3) : Vec Ideal S128x10 .bf16) (ix2 k j) := by
  obtain ⟨-, -, -, -, -, e0, e1, -⟩ := idx6 t
  unfold iblk6
  show (V c (Pipeline.arrRef spec6 3) : Vec Ideal S128x10 .bf16) (((cfg6.win 3).blk t).view.emb (ix2 k j)) = _
  refine congrArg _ (funext fun a => Fin.ext ?_)
  match a with
  | ⟨0, _⟩ => show win6_3.index t (0 : Fin 2) * 128 + 1 * k.val = k.val; omega
  | ⟨1, _⟩ => show win6_3.index t (1 : Fin 2) * 10 + 1 * j.val = j.val; omega

/-- The block of the second bias is the second bias. -/
theorem whole6_4 (c : Dev nD) (t : Fin cfg6.N) (j : Fin 10) :
    (iblk6 V c 4 t : Vec Ideal S10 .f32) (ix1 j)
      = (V c (Pipeline.arrRef spec6 4) : Vec Ideal S10 .f32) (ix1 j) := by
  obtain ⟨-, -, -, -, -, -, -, e0, -⟩ := idx6 t
  unfold iblk6
  show (V c (Pipeline.arrRef spec6 4) : Vec Ideal S10 .f32) (((cfg6.win 4).blk t).view.emb (ix1 j)) = _
  refine congrArg _ (funext fun a => Fin.ext ?_)
  match a with
  | ⟨0, _⟩ => show win6_4.index t (0 : Fin 1) * 10 + 1 * j.val = j.val; omega

/-- Entry (p, j) of what the body computes is entry (p, j) of the classifier of the region's input arrays. -/
theorem ent6 (c : Dev nD) (t : Fin cfg6.N) (p : Fin 512) (j : Fin 10) :
    k6_pay1 (iblk6 V c 0 t) (iblk6 V c 1 t) (iblk6 V c 2 t) (iblk6 V c 3 t) (iblk6 V c 4 t) (ix2 p j)
      = Cert.Gin.cls (φ₁ := .bf16) (φ₂ := .bf16) (V c (Pipeline.arrRef spec6 0)) (V c (Pipeline.arrRef spec6 1))
          (V c (Pipeline.arrRef spec6 2)) (V c (Pipeline.arrRef spec6 3)) (V c (Pipeline.arrRef spec6 4)) (ix2 p j) :=
  cls_whole (V c (Pipeline.arrRef spec6 0)) (V c (Pipeline.arrRef spec6 1)) (V c (Pipeline.arrRef spec6 2))
    (V c (Pipeline.arrRef spec6 3)) (V c (Pipeline.arrRef spec6 4))
    (iblk6 V c 0 t) (iblk6 V c 1 t) (iblk6 V c 2 t) (iblk6 V c 3 t) (iblk6 V c 4 t) p j
    (fun m => whole6_0 V c t p m) (fun m k => whole6_1 V c t m k) (fun k => whole6_2 V c t k)
    (fun k => whole6_3 V c t k j) (whole6_4 V c t j)

/-- Entry (p, j) of the one output block lies at entry (p, j) of the output array. -/
theorem emb6 (t : Fin cfg6.N) (p : Fin 512) (j : Fin 10) :
    (((cfg6.win 5).blk t).view.emb (ix2 p j) : S512x10.Idx) = ix2 p j := by
  obtain ⟨-, -, -, -, -, -, -, -, e0, e1⟩ := idx6 t
  funext a; apply Fin.ext
  match a with
  | ⟨0, _⟩ => show win6_5.index t (0 : Fin 2) * 512 + 1 * p.val = p.val; omega
  | ⟨1, _⟩ => show win6_5.index t (1 : Fin 2) * 10 + 1 * j.val = j.val; omega

/-- What the one point writes back is its block of the classifier of the region's input arrays. -/
theorem blk6 (c : Dev nD) (t : Fin cfg6.N) :
    (dat6 (F := Ideal) V c).flushed 5 t = ((cfg6.win 5).blk t).view.read (Elt Ideal)
      (Cert.Gin.cls (φ₁ := .bf16) (φ₂ := .bf16) (V c (Pipeline.arrRef spec6 0)) (V c (Pipeline.arrRef spec6 1))
        (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero origin2_6]
  simp only [View.ld_unit_zero (S := S512x128) origin2_6, View.ld_unit_zero (S := S128x128) origin2_6,
    View.ld_unit_zero (S := S128) origin1_6, View.ld_unit_zero (S := S128x10) origin2_6,
    View.ld_unit_zero (S := S10) origin1_6]
  refine funext fun (y : S512x10.Idx) => ?_
  obtain ⟨p, j, rfl⟩ : ∃ (p : Fin 512) (j : Fin 10), y = ix2 p j := ⟨y 0, y 1, eq_ix2 y⟩
  refine (ent6 V c t p j).trans ?_
  exact congrArg (Cert.Gin.cls (φ₁ := .bf16) (φ₂ := .bf16) (V c (Pipeline.arrRef spec6 0)) (V c (Pipeline.arrRef spec6 1))
    (V c (Pipeline.arrRef spec6 2)) (V c (Pipeline.arrRef spec6 3)) (V c (Pipeline.arrRef spec6 4))) (emb6 t p j).symm

/-- An index of the output array is in the point's block iff each coordinate is in the block's range on its axis. -/
theorem mem_blk6 (t : Fin cfg6.N) (i : S512x10.Idx) :
    i ∈ ((cfg6.win 5).blk t).view.set ↔ ∀ a : Fin 2, win6_5.index t a * S512x10.size a ≤ (i a).val
      ∧ (i a).val < win6_5.index t a * S512x10.size a + S512x10.size a := by
  show i ∈ ((View.whole main_v72).slice (win6_5.rect t)).set ↔ _
  rw [View.set_slice_whole, Rect.mem_set_unit]
  exact Iff.rfl

/-- The one block covers the output array. -/
theorem cover6 (i : S512x10.Idx) :
    ∃ t : Fin cfg6.N, (cfg6.win 5).flush t = true ∧ i ∈ ((cfg6.win 5).blk t).view.set := by
  have hi0 : (i 0).val < 512 := (i 0).isLt
  have hi1 : (i 1).val < 10 := (i 1).isLt
  obtain ⟨t, -⟩ : ∃ t : Fin cfg6.N, t.val = 0 := ⟨⟨0, by show 0 < 1; omega⟩, rfl⟩
  obtain ⟨-, -, -, -, -, -, -, -, e0, e1⟩ := idx6 t
  refine ⟨t, flush6_5 t, ?_⟩
  rw [mem_blk6]
  intro a
  match a with
  | ⟨0, _⟩ =>
    show win6_5.index t (0 : Fin 2) * 512 ≤ (i 0).val ∧ (i 0).val < win6_5.index t (0 : Fin 2) * 512 + 512
    omega
  | ⟨1, _⟩ =>
    show win6_5.index t (1 : Fin 2) * 10 ≤ (i 1).val ∧ (i 1).val < win6_5.index t (1 : Fin 2) * 10 + 10
    omega

/-- The output array after region 6: the classifier of the arrays the region found. -/
theorem val6 (c : Dev nD) :
    (dat6 (F := Ideal) V c).arrAt 5 cfg6.N
      = Cert.Gin.cls (φ₁ := .bf16) (φ₂ := .bf16) (V c (Pipeline.arrRef spec6 0)) (V c (Pipeline.arrRef spec6 1))
          (V c (Pipeline.arrRef spec6 2)) (V c (Pipeline.arrRef spec6 3)) (V c (Pipeline.arrRef spec6 4)) :=
  (dat6 (F := Ideal) V c).arrAt_eq_of_cover 5 _ (fun t _ => blk6 V c t) cover6

end Cert.Gin.Reg

end
-- ==== Proof.Net.lean ====
/-
  The whole network as functions of its argument arrays, at the exact values.

  Three layers of  h ↦ relu?( relu(bn((h + agg h)·w1 + b1))·w2 + b2 )  over the same edges (the last without the
  outer relu), the per-graph mean of the node rows, and the classifier.  The six layer weights and the two classifier
  weights may be of any float format: at the exact values a change of format is the identity, so the network
  with its weights rounded to a narrower format first is the same function of the unrounded weights.
-/
import proofs.«131036_j27977416966474_1_alg».proof.Proof.Spec

noncomputable section

namespace Cert.Gin

open Idealize.ShloMosaic Cert.ReferenceIdeal Cert.ReferenceIdeal.Facts₀

/-- The first half of a layer: (h + agg h) · w1 + b1. -/
def zOf {φ : FTy} (h : FVec Ideal S100000x128 .f32) (src dst : IVec S1600000 32) (w1 : FVec Ideal S128x128 φ) (b1 : FVec Ideal S128 .f32) :
    FVec Ideal S100000x128 .f32 :=
  lin (addf h (agg h src dst)) w1 b1

/-- A layer without its outer relu. -/
def layerLast {φ : FTy} (h : FVec Ideal S100000x128 .f32) (src dst : IVec S1600000 32) (w1 : FVec Ideal S128x128 φ) (b1 g be : FVec Ideal S128 .f32)
    (w2 : FVec Ideal S128x128 φ) (b2 : FVec Ideal S128 .f32) : FVec Ideal S100000x128 .f32 :=
  mlp2 (zOf h src dst w1 b1) (meanOf (zOf h src dst w1 b1)) (varOf (zOf h src dst w1 b1)) g be w2 b2

/-- A layer with its outer relu. -/
def layer {φ : FTy} (h : FVec Ideal S100000x128 .f32) (src dst : IVec S1600000 32) (w1 : FVec Ideal S128x128 φ) (b1 g be : FVec Ideal S128 .f32)
    (w2 : FVec Ideal S128x128 φ) (b2 : FVec Ideal S128 .f32) : FVec Ideal S100000x128 .f32 :=
  reluN (layerLast h src dst w1 b1 g be w2 b2)

/-- The node embeddings after the three layers. -/
def netH {φ : FTy} (x : FVec Ideal S100000x128 .f32) (ei : IVec S2x1600000 32)
    (w1a : FVec Ideal S128x128 φ) (b1a ga bea : FVec Ideal S128 .f32) (w2a : FVec Ideal S128x128 φ) (b2a : FVec Ideal S128 .f32)
    (w1b : FVec Ideal S128x128 φ) (b1b gb beb : FVec Ideal S128 .f32) (w2b : FVec Ideal S128x128 φ) (b2b : FVec Ideal S128 .f32)
    (w1c : FVec Ideal S128x128 φ) (b1c gc bec : FVec Ideal S128 .f32) (w2c : FVec Ideal S128x128 φ) (b2c : FVec Ideal S128 .f32) :
    FVec Ideal S100000x128 .f32 :=
  layerLast (layer (layer x (srcOf ei) (dstOf ei) w1a b1a ga bea w2a b2a) (srcOf ei) (dstOf ei) w1b b1b gb beb w2b b2b)
    (srcOf ei) (dstOf ei) w1c b1c gc bec w2c b2c

end Cert.Gin

end
-- ==== Proof.NetFormat.lean ====
/-
  Rounding the weights to a narrower float format does not change the network at the exact values.

  At the exact values every float format is the extended reals and a change of format is the identity, so a
  product with a weight rounded to bf16 is the product with the weight itself; the layers, the network and the
  classifier inherit this.
-/
import proofs.«131036_j27977416966474_1_alg».proof.Proof.Net

noncomputable section

namespace Cert.Gin

open Idealize.ShloMosaic Cert.ReferenceIdeal Cert.ReferenceIdeal.Facts₀

/-- A weight rounded to bf16 (the identity at the exact values). -/
def tr {S : Shape} (w : FVec Ideal S .f32) : FVec Ideal S .bf16 := truncf .bf16 w (by decide)

theorem lin_tr (u : FVec Ideal S100000x128 .f32) (w : FVec Ideal S128x128 .f32) (b : FVec Ideal S128 .f32) :
    lin (φ := .bf16) u (tr w) b = lin (φ := .f32) u w b := rfl

theorem mlp2_tr (z : FVec Ideal S100000x128 .f32) (mu var g be : FVec Ideal S128 .f32) (w : FVec Ideal S128x128 .f32) (b : FVec Ideal S128 .f32) :
    mlp2 (φ := .bf16) z mu var g be (tr w) b = mlp2 (φ := .f32) z mu var g be w b := by
  unfold mlp2; exact lin_tr _ _ _

theorem zOf_tr (h : FVec Ideal S100000x128 .f32) (src dst : IVec S1600000 32) (w1 : FVec Ideal S128x128 .f32) (b1 : FVec Ideal S128 .f32) :
    zOf (φ := .bf16) h src dst (tr w1) b1 = zOf (φ := .f32) h src dst w1 b1 := by
  unfold zOf; exact lin_tr _ _ _

theorem layerLast_tr (h : FVec Ideal S100000x128 .f32) (src dst : IVec S1600000 32) (w1 : FVec Ideal S128x128 .f32) (b1 g be : FVec Ideal S128 .f32)
    (w2 : FVec Ideal S128x128 .f32) (b2 : FVec Ideal S128 .f32) :
    layerLast (φ := .bf16) h src dst (tr w1) b1 g be (tr w2) b2 = layerLast (φ := .f32) h src dst w1 b1 g be w2 b2 := by
  unfold layerLast; rw [zOf_tr, mlp2_tr]

theorem layer_tr (h : FVec Ideal S100000x128 .f32) (src dst : IVec S1600000 32) (w1 : FVec Ideal S128x128 .f32) (b1 g be : FVec Ideal S128 .f32)
    (w2 : FVec Ideal S128x128 .f32) (b2 : FVec Ideal S128 .f32) :
    layer (φ := .bf16) h src dst (tr w1) b1 g be (tr w2) b2 = layer (φ := .f32) h src dst w1 b1 g be w2 b2 := by
  unfold layer; rw [layerLast_tr]

theorem netH_tr (x : FVec Ideal S100000x128 .f32) (ei : IVec S2x1600000 32)
    (w1a : FVec Ideal S128x128 .f32) (b1a ga bea : FVec Ideal S128 .f32) (w2a : FVec Ideal S128x128 .f32) (b2a : FVec Ideal S128 .f32)
    (w1b : FVec Ideal S128x128 .f32) (b1b gb beb : FVec Ideal S128 .f32) (w2b : FVec Ideal S128x128 .f32) (b2b : FVec Ideal S128 .f32)
    (w1c : FVec Ideal S128x128 .f32) (b1c gc bec : FVec Ideal S128 .f32) (w2c : FVec Ideal S128x128 .f32) (b2c : FVec Ideal S128 .f32) :
    netH (φ := .bf16) x ei (tr w1a) b1a ga bea (tr w2a) b2a (tr w1b) b1b gb beb (tr w2b) b2b (tr w1c) b1c gc bec (tr w2c) b2c
      = netH (φ := .f32) x ei w1a b1a ga bea w2a b2a w1b b1b gb beb w2b b2b w1c b1c gc bec w2c b2c := by
  unfold netH; rw [layer_tr, layer_tr, layerLast_tr]

theorem cls_tr (gr : FVec Ideal S512x128 .f32) (w1 : FVec Ideal S128x128 .f32) (b1 : FVec Ideal S128 .f32) (w2 : FVec Ideal S128x10 .f32) (b2 : FVec Ideal S10 .f32) :
    cls (φ₁ := .bf16) (φ₂ := .bf16) gr (tr w1) b1 (tr w2) b2 = cls (φ₁ := .f32) (φ₂ := .f32) gr w1 b1 w2 b2 := rfl

end Cert.Gin

end
-- ==== Proof.KernelFold.lean ====
/-
  The idealized kernel program's buffer contents, boundary by boundary, as the network's functions of the arguments.

  Walking the fold of KernelRun: the first host stretch leaves the two rows of the edge list, the neighbour sum of
  the input features and the rounded first weights; each region leaves, in its output array, the value its grid
  points wrote back (the region value lemmas); each later stretch leaves the column means and variances, or the next
  neighbour sum and rounded weights, of what the region before it left; everything else is kept.  At the end the
  three result buffers hold the node embeddings, the pooled rows and the classifier's output of the network with
  its weights rounded to bf16 first.
-/
import proofs.«131036_j27977416966474_1_alg».proof.Proof.KernelKeep
import proofs.«131036_j27977416966474_1_alg».proof.Proof.RegA0
import proofs.«131036_j27977416966474_1_alg».proof.Proof.RegA2
import proofs.«131036_j27977416966474_1_alg».proof.Proof.RegA4
import proofs.«131036_j27977416966474_1_alg».proof.Proof.RegB1
import proofs.«131036_j27977416966474_1_alg».proof.Proof.RegB3
import proofs.«131036_j27977416966474_1_alg».proof.Proof.RegB5
import proofs.«131036_j27977416966474_1_alg».proof.Proof.RegC6
import proofs.«131036_j27977416966474_1_alg».proof.Proof.NetFormat
import Idealize.ShloMosaic.Lib.StableHlo.Run

set_option maxRecDepth 16384

noncomputable section

namespace Cert.KernelIdeal.Fold

open Cert.KernelIdeal Cert.KernelIdeal.Gen Cert.KernelIdeal.Keep
open Idealize.ShloMosaic Idealize.ShloMosaic.TcCoe Idealize.SL.Sem Idealize.ShloMosaic.StableHlo
open Cert.Gin (tr)

variable (m : (ℓ : Loc nD τ sig) → Buf (Elt Ideal) ℓ) (ρ : Dev nD → PrngReg) (c : Dev nD)

/-- An argument array's launch contents on core `c`. -/
abbrev arg (r : Ref sig .tc) : Buf (Elt Ideal) ((c : Thread nD τ).loc r) := m ((c : Thread nD τ).loc r)

/-! ## The argument arrays are kept at every boundary -/

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

theorem W0_arg (r : Ref sig .tc) (hr : r ∈ argRefs) : W0 m ρ c (Proc.devRef .tc r) = m ((c : Thread nD τ).loc r) := rfl
theorem W1_arg (r : Ref sig .tc) (hr : r ∈ argRefs) : W1 m ρ c (Proc.devRef .tc r) = m ((c : Thread nD τ).loc r) :=
  (keep_W1 m ρ c r ((by decide : ∀ r ∈ argRefs, r ∉ wr_hostOps0) r hr)).trans (W0_arg m ρ c r hr)
theorem W2_arg (r : Ref sig .tc) (hr : r ∈ argRefs) : W2 m ρ c (Proc.devRef .tc r) = m ((c : Thread nD τ).loc r) :=
  (keep_W2 m ρ c r ((by decide : ∀ r ∈ argRefs, r ≠ main_v16) r hr)).trans (W1_arg m ρ c r hr)
theorem W3_arg (r : Ref sig .tc) (hr : r ∈ argRefs) : W3 m ρ c (Proc.devRef .tc r) = m ((c : Thread nD τ).loc r) :=
  (keep_W3 m ρ c r ((by decide : ∀ r ∈ argRefs, r ∉ wr_hostOps1) r hr)).trans (W2_arg m ρ c r hr)
theorem W4_arg (r : Ref sig .tc) (hr : r ∈ argRefs) : W4 m ρ c (Proc.devRef .tc r) = m ((c : Thread nD τ).loc r) :=
  (keep_W4 m ρ c r ((by decide : ∀ r ∈ argRefs, r ∉ wr_hostOps1_1) r hr)).trans (W3_arg m ρ c r hr)
theorem W5_arg (r : Ref sig .tc) (hr : r ∈ argRefs) : W5 m ρ c (Proc.devRef .tc r) = m ((c : Thread nD τ).loc r) :=
  (keep_W5 m ρ c r ((by decide : ∀ r ∈ argRefs, r ≠ main_v21) r hr)).trans (W4_arg m ρ c r hr)
theorem W6_arg (r : Ref sig .tc) (hr : r ∈ argRefs) : W6 m ρ c (Proc.devRef .tc r) = m ((c : Thread nD τ).loc r) :=
  (keep_W6 m ρ c r ((by decide : ∀ r ∈ argRefs, r ∉ wr_hostOps2) r hr)).trans (W5_arg m ρ c r hr)
theorem W7_arg (r : Ref sig .tc) (hr : r ∈ argRefs) : W7 m ρ c (Proc.devRef .tc r) = m ((c : Thread nD τ).loc r) :=
  (keep_W7 m ρ c r ((by decide : ∀ r ∈ argRefs, r ≠ main_v34) r hr)).trans (W6_arg m ρ c r hr)
theorem W8_arg (r : Ref sig .tc) (hr : r ∈ argRefs) : W8 m ρ c (Proc.devRef .tc r) = m ((c : Thread nD τ).loc r) :=
  (keep_W8 m ρ c r ((by decide : ∀ r ∈ argRefs, r ∉ wr_hostOps3) r hr)).trans (W7_arg m ρ c r hr)
theorem W9_arg (r : Ref sig .tc) (hr : r ∈ argRefs) : W9 m ρ c (Proc.devRef .tc r) = m ((c : Thread nD τ).loc r) :=
  (keep_W9 m ρ c r ((by decide : ∀ r ∈ argRefs, r ∉ wr_hostOps3_1) r hr)).trans (W8_arg m ρ c r hr)
theorem W10_arg (r : Ref sig .tc) (hr : r ∈ argRefs) : W10 m ρ c (Proc.devRef .tc r) = m ((c : Thread nD τ).loc r) :=
  (keep_W10 m ρ c r ((by decide : ∀ r ∈ argRefs, r ≠ main_v39) r hr)).trans (W9_arg m ρ c r hr)
theorem W11_arg (r : Ref sig .tc) (hr : r ∈ argRefs) : W11 m ρ c (Proc.devRef .tc r) = m ((c : Thread nD τ).loc r) :=
  (keep_W11 m ρ c r ((by decide : ∀ r ∈ argRefs, r ∉ wr_hostOps4) r hr)).trans (W10_arg m ρ c r hr)
theorem W12_arg (r : Ref sig .tc) (hr : r ∈ argRefs) : W12 m ρ c (Proc.devRef .tc r) = m ((c : Thread nD τ).loc r) :=
  (keep_W12 m ρ c r ((by decide : ∀ r ∈ argRefs, r ≠ main_v52) r hr)).trans (W11_arg m ρ c r hr)
theorem W13_arg (r : Ref sig .tc) (hr : r ∈ argRefs) : W13 m ρ c (Proc.devRef .tc r) = m ((c : Thread nD τ).loc r) :=
  (keep_W13 m ρ c r ((by decide : ∀ r ∈ argRefs, r ∉ wr_hostOps5) r hr)).trans (W12_arg m ρ c r hr)
theorem W14_arg (r : Ref sig .tc) (hr : r ∈ argRefs) : W14 m ρ c (Proc.devRef .tc r) = m ((c : Thread nD τ).loc r) :=
  (keep_W14 m ρ c r ((by decide : ∀ r ∈ argRefs, r ∉ wr_hostOps5_1) r hr)).trans (W13_arg m ρ c r hr)
theorem W15_arg (r : Ref sig .tc) (hr : r ∈ argRefs) : W15 m ρ c (Proc.devRef .tc r) = m ((c : Thread nD τ).loc r) :=
  (keep_W15 m ρ c r ((by decide : ∀ r ∈ argRefs, r ≠ main_v57) r hr)).trans (W14_arg m ρ c r hr)
theorem W16_arg (r : Ref sig .tc) (hr : r ∈ argRefs) : W16 m ρ c (Proc.devRef .tc r) = m ((c : Thread nD τ).loc r) :=
  (keep_W16 m ρ c r ((by decide : ∀ r ∈ argRefs, r ∉ wr_hostOps6) r hr)).trans (W15_arg m ρ c r hr)
theorem W17_arg (r : Ref sig .tc) (hr : r ∈ argRefs) : W17 m ρ c (Proc.devRef .tc r) = m ((c : Thread nD τ).loc r) :=
  (keep_W17 m ρ c r ((by decide : ∀ r ∈ argRefs, r ≠ main_v72) r hr)).trans (W16_arg m ρ c r hr)

/-! ## The values -/

def S : IVec Cert.ReferenceIdeal.S1600000 32 := Cert.Gin.srcOf (arg m c main_arg1)
def D : IVec Cert.ReferenceIdeal.S1600000 32 := Cert.Gin.dstOf (arg m c main_arg1)
def Z1 := Cert.Gin.zOf (φ := .bf16) (arg m c main_arg0) (S m c) (D m c) (tr (arg m c main_arg3)) (arg m c main_arg4)
def H1 := Cert.Gin.layer (φ := .bf16) (arg m c main_arg0) (S m c) (D m c) (tr (arg m c main_arg3)) (arg m c main_arg4) (arg m c main_arg5) (arg m c main_arg6) (tr (arg m c main_arg7)) (arg m c main_arg8)
def Z2 := Cert.Gin.zOf (φ := .bf16) (H1 m c) (S m c) (D m c) (tr (arg m c main_arg9)) (arg m c main_arg10)
def H2 := Cert.Gin.layer (φ := .bf16) (H1 m c) (S m c) (D m c) (tr (arg m c main_arg9)) (arg m c main_arg10) (arg m c main_arg11) (arg m c main_arg12) (tr (arg m c main_arg13)) (arg m c main_arg14)
def Z3 := Cert.Gin.zOf (φ := .bf16) (H2 m c) (S m c) (D m c) (tr (arg m c main_arg15)) (arg m c main_arg16)
def H3 := Cert.Gin.layerLast (φ := .bf16) (H2 m c) (S m c) (D m c) (tr (arg m c main_arg15)) (arg m c main_arg16) (arg m c main_arg17) (arg m c main_arg18) (tr (arg m c main_arg19)) (arg m c main_arg20)
def GR := Cert.Gin.pool (H3 m c) (arg m c main_arg2)
def LG := Cert.Gin.cls (φ₁ := .bf16) (φ₂ := .bf16) (GR m c) (tr (arg m c main_arg21)) (arg m c main_arg22) (tr (arg m c main_arg23)) (arg m c main_arg24)

theorem W1_v1 : W1 m ρ c (Proc.devRef .tc main_v1) = S m c := by
  dsimp only [W1, hostOps0]
  after_results
  rfl
theorem W1_v3 : W1 m ρ c (Proc.devRef .tc main_v3) = D m c := by
  dsimp only [W1, hostOps0]
  after_results
  rfl
theorem W1_v13 : W1 m ρ c (Proc.devRef .tc main_v13) = Cert.Gin.agg (arg m c main_arg0) (S m c) (D m c) := by
  dsimp only [W1, hostOps0]
  after_results
  rfl
theorem W1_v14 : W1 m ρ c (Proc.devRef .tc main_v14) = tr (arg m c main_arg3) := by
  dsimp only [W1, hostOps0]
  after_results
  rfl
theorem W1_v15 : W1 m ρ c (Proc.devRef .tc main_v15) = tr (arg m c main_arg7) := by
  dsimp only [W1, hostOps0]
  after_results
  rfl
theorem W2_v16 : W2 m ρ c (Proc.devRef .tc main_v16) = Z1 m c := by
  refine (W2_arr m ρ c 4).trans ((Cert.Gin.Reg.val0 (V1 m ρ) c).trans ?_)
  show Cert.Gin.lin (φ := .bf16) (addf (W1 m ρ c (Proc.devRef .tc main_arg0)) (W1 m ρ c (Proc.devRef .tc main_v13))) (W1 m ρ c (Proc.devRef .tc main_v14)) (W1 m ρ c (Proc.devRef .tc main_arg4)) = _
  rw [W1_arg m ρ c main_arg0 (by decide), W1_v13, W1_v14, W1_arg m ρ c main_arg4 (by decide)]
  rfl
theorem W2_v1 : W2 m ρ c (Proc.devRef .tc main_v1) = S m c := (keep_W2 m ρ c main_v1 (by decide)).trans (W1_v1 m ρ c)
theorem W2_v3 : W2 m ρ c (Proc.devRef .tc main_v3) = D m c := (keep_W2 m ρ c main_v3 (by decide)).trans (W1_v3 m ρ c)
theorem W2_v15 : W2 m ρ c (Proc.devRef .tc main_v15) = tr (arg m c main_arg7) := (keep_W2 m ρ c main_v15 (by decide)).trans (W1_v15 m ρ c)
theorem W3_v1 : W3 m ρ c (Proc.devRef .tc main_v1) = S m c := (keep_W3 m ρ c main_v1 (by decide)).trans (W2_v1 m ρ c)
theorem W4_v1 : W4 m ρ c (Proc.devRef .tc main_v1) = S m c := (keep_W4 m ρ c main_v1 (by decide)).trans (W3_v1 m ρ c)
theorem W3_v3 : W3 m ρ c (Proc.devRef .tc main_v3) = D m c := (keep_W3 m ρ c main_v3 (by decide)).trans (W2_v3 m ρ c)
theorem W4_v3 : W4 m ρ c (Proc.devRef .tc main_v3) = D m c := (keep_W4 m ρ c main_v3 (by decide)).trans (W3_v3 m ρ c)
theorem W3_v15 : W3 m ρ c (Proc.devRef .tc main_v15) = tr (arg m c main_arg7) := (keep_W3 m ρ c main_v15 (by decide)).trans (W2_v15 m ρ c)
theorem W4_v15 : W4 m ρ c (Proc.devRef .tc main_v15) = tr (arg m c main_arg7) := (keep_W4 m ρ c main_v15 (by decide)).trans (W3_v15 m ρ c)
theorem W3_v16 : W3 m ρ c (Proc.devRef .tc main_v16) = Z1 m c := (keep_W3 m ρ c main_v16 (by decide)).trans (W2_v16 m ρ c)
theorem W4_v16 : W4 m ρ c (Proc.devRef .tc main_v16) = Z1 m c := (keep_W4 m ρ c main_v16 (by decide)).trans (W3_v16 m ρ c)
theorem W4_v19 : W4 m ρ c (Proc.devRef .tc main_v19) = Cert.Gin.meanOf (Z1 m c) := by
  dsimp only [W4, W3, hostOps1_1, hostOps1]
  after_results
  rw [W2_v16]
  rfl
theorem W4_v20 : W4 m ρ c (Proc.devRef .tc main_v20) = Cert.Gin.varOf (Z1 m c) := by
  dsimp only [W4, W3, hostOps1_1, hostOps1]
  after_results
  rw [W2_v16]
  rfl
theorem W5_v21 : W5 m ρ c (Proc.devRef .tc main_v21) = H1 m c := by
  refine (W5_arr m ρ c 7).trans ((Cert.Gin.Reg.val1 (V4 m ρ) c).trans ?_)
  show Cert.Gin.reluN (Cert.Gin.mlp2 (φ := .bf16) (W4 m ρ c (Proc.devRef .tc main_v16)) (W4 m ρ c (Proc.devRef .tc main_v19)) (W4 m ρ c (Proc.devRef .tc main_v20)) (W4 m ρ c (Proc.devRef .tc main_arg5)) (W4 m ρ c (Proc.devRef .tc main_arg6)) (W4 m ρ c (Proc.devRef .tc main_v15)) (W4 m ρ c (Proc.devRef .tc main_arg8))) = _
  rw [W4_v16, W4_v19, W4_v20, W4_arg m ρ c main_arg5 (by decide), W4_arg m ρ c main_arg6 (by decide), W4_v15, W4_arg m ρ c main_arg8 (by decide)]
  rfl
theorem W5_v1 : W5 m ρ c (Proc.devRef .tc main_v1) = S m c := (keep_W5 m ρ c main_v1 (by decide)).trans (W4_v1 m ρ c)
theorem W5_v3 : W5 m ρ c (Proc.devRef .tc main_v3) = D m c := (keep_W5 m ρ c main_v3 (by decide)).trans (W4_v3 m ρ c)
theorem W6_v31 : W6 m ρ c (Proc.devRef .tc main_v31) = Cert.Gin.agg (H1 m c) (S m c) (D m c) := by
  dsimp only [W6, hostOps2]
  after_results
  rw [W5_v21, W5_v1, W5_v3]
  rfl
theorem W6_v32 : W6 m ρ c (Proc.devRef .tc main_v32) = tr (arg m c main_arg9) := by
  dsimp only [W6, hostOps2]
  after_results
  rw [W5_arg m ρ c main_arg9 (by decide)]
  rfl
theorem W6_v33 : W6 m ρ c (Proc.devRef .tc main_v33) = tr (arg m c main_arg13) := by
  dsimp only [W6, hostOps2]
  after_results
  rw [W5_arg m ρ c main_arg13 (by decide)]
  rfl
theorem W6_v1 : W6 m ρ c (Proc.devRef .tc main_v1) = S m c := (keep_W6 m ρ c main_v1 (by decide)).trans (W5_v1 m ρ c)
theorem W6_v3 : W6 m ρ c (Proc.devRef .tc main_v3) = D m c := (keep_W6 m ρ c main_v3 (by decide)).trans (W5_v3 m ρ c)
theorem W6_v21 : W6 m ρ c (Proc.devRef .tc main_v21) = H1 m c := (keep_W6 m ρ c main_v21 (by decide)).trans (W5_v21 m ρ c)
theorem W7_v34 : W7 m ρ c (Proc.devRef .tc main_v34) = Z2 m c := by
  refine (W7_arr m ρ c 4).trans ((Cert.Gin.Reg.val2 (V6 m ρ) c).trans ?_)
  show Cert.Gin.lin (φ := .bf16) (addf (W6 m ρ c (Proc.devRef .tc main_v21)) (W6 m ρ c (Proc.devRef .tc main_v31))) (W6 m ρ c (Proc.devRef .tc main_v32)) (W6 m ρ c (Proc.devRef .tc main_arg10)) = _
  rw [W6_v21, W6_v31, W6_v32, W6_arg m ρ c main_arg10 (by decide)]
  rfl
theorem W7_v1 : W7 m ρ c (Proc.devRef .tc main_v1) = S m c := (keep_W7 m ρ c main_v1 (by decide)).trans (W6_v1 m ρ c)
theorem W7_v3 : W7 m ρ c (Proc.devRef .tc main_v3) = D m c := (keep_W7 m ρ c main_v3 (by decide)).trans (W6_v3 m ρ c)
theorem W7_v33 : W7 m ρ c (Proc.devRef .tc main_v33) = tr (arg m c main_arg13) := (keep_W7 m ρ c main_v33 (by decide)).trans (W6_v33 m ρ c)
theorem W8_v1 : W8 m ρ c (Proc.devRef .tc main_v1) = S m c := (keep_W8 m ρ c main_v1 (by decide)).trans (W7_v1 m ρ c)
theorem W9_v1 : W9 m ρ c (Proc.devRef .tc main_v1) = S m c := (keep_W9 m ρ c main_v1 (by decide)).trans (W8_v1 m ρ c)
theorem W8_v3 : W8 m ρ c (Proc.devRef .tc main_v3) = D m c := (keep_W8 m ρ c main_v3 (by decide)).trans (W7_v3 m ρ c)
theorem W9_v3 : W9 m ρ c (Proc.devRef .tc main_v3) = D m c := (keep_W9 m ρ c main_v3 (by decide)).trans (W8_v3 m ρ c)
theorem W8_v33 : W8 m ρ c (Proc.devRef .tc main_v33) = tr (arg m c main_arg13) := (keep_W8 m ρ c main_v33 (by decide)).trans (W7_v33 m ρ c)
theorem W9_v33 : W9 m ρ c (Proc.devRef .tc main_v33) = tr (arg m c main_arg13) := (keep_W9 m ρ c main_v33 (by decide)).trans (W8_v33 m ρ c)
theorem W8_v34 : W8 m ρ c (Proc.devRef .tc main_v34) = Z2 m c := (keep_W8 m ρ c main_v34 (by decide)).trans (W7_v34 m ρ c)
theorem W9_v34 : W9 m ρ c (Proc.devRef .tc main_v34) = Z2 m c := (keep_W9 m ρ c main_v34 (by decide)).trans (W8_v34 m ρ c)
theorem W9_v37 : W9 m ρ c (Proc.devRef .tc main_v37) = Cert.Gin.meanOf (Z2 m c) := by
  dsimp only [W9, W8, hostOps3_1, hostOps3]
  after_results
  rw [W7_v34]
  rfl
theorem W9_v38 : W9 m ρ c (Proc.devRef .tc main_v38) = Cert.Gin.varOf (Z2 m c) := by
  dsimp only [W9, W8, hostOps3_1, hostOps3]
  after_results
  rw [W7_v34]
  rfl
theorem W10_v39 : W10 m ρ c (Proc.devRef .tc main_v39) = H2 m c := by
  refine (W10_arr m ρ c 7).trans ((Cert.Gin.Reg.val3 (V9 m ρ) c).trans ?_)
  show Cert.Gin.reluN (Cert.Gin.mlp2 (φ := .bf16) (W9 m ρ c (Proc.devRef .tc main_v34)) (W9 m ρ c (Proc.devRef .tc main_v37)) (W9 m ρ c (Proc.devRef .tc main_v38)) (W9 m ρ c (Proc.devRef .tc main_arg11)) (W9 m ρ c (Proc.devRef .tc main_arg12)) (W9 m ρ c (Proc.devRef .tc main_v33)) (W9 m ρ c (Proc.devRef .tc main_arg14))) = _
  rw [W9_v34, W9_v37, W9_v38, W9_arg m ρ c main_arg11 (by decide), W9_arg m ρ c main_arg12 (by decide), W9_v33, W9_arg m ρ c main_arg14 (by decide)]
  rfl
theorem W10_v1 : W10 m ρ c (Proc.devRef .tc main_v1) = S m c := (keep_W10 m ρ c main_v1 (by decide)).trans (W9_v1 m ρ c)
theorem W10_v3 : W10 m ρ c (Proc.devRef .tc main_v3) = D m c := (keep_W10 m ρ c main_v3 (by decide)).trans (W9_v3 m ρ c)
theorem W11_v49 : W11 m ρ c (Proc.devRef .tc main_v49) = Cert.Gin.agg (H2 m c) (S m c) (D m c) := by
  dsimp only [W11, hostOps4]
  after_results
  rw [W10_v39, W10_v1, W10_v3]
  rfl
theorem W11_v50 : W11 m ρ c (Proc.devRef .tc main_v50) = tr (arg m c main_arg15) := by
  dsimp only [W11, hostOps4]
  after_results
  rw [W10_arg m ρ c main_arg15 (by decide)]
  rfl
theorem W11_v51 : W11 m ρ c (Proc.devRef .tc main_v51) = tr (arg m c main_arg19) := by
  dsimp only [W11, hostOps4]
  after_results
  rw [W10_arg m ρ c main_arg19 (by decide)]
  rfl
theorem W11_v39 : W11 m ρ c (Proc.devRef .tc main_v39) = H2 m c := (keep_W11 m ρ c main_v39 (by decide)).trans (W10_v39 m ρ c)
theorem W12_v52 : W12 m ρ c (Proc.devRef .tc main_v52) = Z3 m c := by
  refine (W12_arr m ρ c 4).trans ((Cert.Gin.Reg.val4 (V11 m ρ) c).trans ?_)
  show Cert.Gin.lin (φ := .bf16) (addf (W11 m ρ c (Proc.devRef .tc main_v39)) (W11 m ρ c (Proc.devRef .tc main_v49))) (W11 m ρ c (Proc.devRef .tc main_v50)) (W11 m ρ c (Proc.devRef .tc main_arg16)) = _
  rw [W11_v39, W11_v49, W11_v50, W11_arg m ρ c main_arg16 (by decide)]
  rfl
theorem W12_v51 : W12 m ρ c (Proc.devRef .tc main_v51) = tr (arg m c main_arg19) := (keep_W12 m ρ c main_v51 (by decide)).trans (W11_v51 m ρ c)
theorem W13_v51 : W13 m ρ c (Proc.devRef .tc main_v51) = tr (arg m c main_arg19) := (keep_W13 m ρ c main_v51 (by decide)).trans (W12_v51 m ρ c)
theorem W14_v51 : W14 m ρ c (Proc.devRef .tc main_v51) = tr (arg m c main_arg19) := (keep_W14 m ρ c main_v51 (by decide)).trans (W13_v51 m ρ c)
theorem W13_v52 : W13 m ρ c (Proc.devRef .tc main_v52) = Z3 m c := (keep_W13 m ρ c main_v52 (by decide)).trans (W12_v52 m ρ c)
theorem W14_v52 : W14 m ρ c (Proc.devRef .tc main_v52) = Z3 m c := (keep_W14 m ρ c main_v52 (by decide)).trans (W13_v52 m ρ c)
theorem W14_v55 : W14 m ρ c (Proc.devRef .tc main_v55) = Cert.Gin.meanOf (Z3 m c) := by
  dsimp only [W14, W13, hostOps5_1, hostOps5]
  after_results
  rw [W12_v52]
  rfl
theorem W14_v56 : W14 m ρ c (Proc.devRef .tc main_v56) = Cert.Gin.varOf (Z3 m c) := by
  dsimp only [W14, W13, hostOps5_1, hostOps5]
  after_results
  rw [W12_v52]
  rfl
theorem W15_v57 : W15 m ρ c (Proc.devRef .tc main_v57) = H3 m c := by
  refine (W15_arr m ρ c 7).trans ((Cert.Gin.Reg.val5 (V14 m ρ) c).trans ?_)
  show Cert.Gin.mlp2 (φ := .bf16) (W14 m ρ c (Proc.devRef .tc main_v52)) (W14 m ρ c (Proc.devRef .tc main_v55)) (W14 m ρ c (Proc.devRef .tc main_v56)) (W14 m ρ c (Proc.devRef .tc main_arg17)) (W14 m ρ c (Proc.devRef .tc main_arg18)) (W14 m ρ c (Proc.devRef .tc main_v51)) (W14 m ρ c (Proc.devRef .tc main_arg20)) = _
  rw [W14_v52, W14_v55, W14_v56, W14_arg m ρ c main_arg17 (by decide), W14_arg m ρ c main_arg18 (by decide), W14_v51, W14_arg m ρ c main_arg20 (by decide)]
  rfl
theorem W16_v69 : W16 m ρ c (Proc.devRef .tc main_v69) = GR m c := by
  dsimp only [W16, hostOps6]
  after_results
  rw [W15_v57, W15_arg m ρ c main_arg2 (by decide)]
  rfl
theorem W16_v70 : W16 m ρ c (Proc.devRef .tc main_v70) = tr (arg m c main_arg21) := by
  dsimp only [W16, hostOps6]
  after_results
  rw [W15_arg m ρ c main_arg21 (by decide)]
  rfl
theorem W16_v71 : W16 m ρ c (Proc.devRef .tc main_v71) = tr (arg m c main_arg23) := by
  dsimp only [W16, hostOps6]
  after_results
  rw [W15_arg m ρ c main_arg23 (by decide)]
  rfl
theorem W16_v57 : W16 m ρ c (Proc.devRef .tc main_v57) = H3 m c := (keep_W16 m ρ c main_v57 (by decide)).trans (W15_v57 m ρ c)
theorem W17_v72 : W17 m ρ c (Proc.devRef .tc main_v72) = LG m c := by
  refine (W17_arr m ρ c 5).trans ((Cert.Gin.Reg.val6 (V16 m ρ) c).trans ?_)
  show Cert.Gin.cls (φ₁ := .bf16) (φ₂ := .bf16) (W16 m ρ c (Proc.devRef .tc main_v69)) (W16 m ρ c (Proc.devRef .tc main_v70)) (W16 m ρ c (Proc.devRef .tc main_arg22)) (W16 m ρ c (Proc.devRef .tc main_v71)) (W16 m ρ c (Proc.devRef .tc main_arg24)) = _
  rw [W16_v69, W16_v70, W16_arg m ρ c main_arg22 (by decide), W16_v71, W16_arg m ρ c main_arg24 (by decide)]
  rfl
theorem W17_v57 : W17 m ρ c (Proc.devRef .tc main_v57) = H3 m c := (keep_W17 m ρ c main_v57 (by decide)).trans (W16_v57 m ρ c)
theorem W17_v69 : W17 m ρ c (Proc.devRef .tc main_v69) = GR m c := (keep_W17 m ρ c main_v69 (by decide)).trans (W16_v69 m ρ c)

end Cert.KernelIdeal.Fold

end
-- ==== Proof.KernelFinal.lean ====
/-
  The idealized kernel program's run with its results as functions of the arguments.

  Every weakly fair execution terminates without a fault; the embeddings' buffer ends at the network's three layers
  of the arguments, the pooled rows' buffer at the per-graph means of those, the output buffer at the classifier of
  those, and every argument array is as launched.  The boundary walk gives the network with its weights rounded to
  bf16; at the exact values that is the network of the weights themselves.
-/
import proofs.«131036_j27977416966474_1_alg».proof.Proof.KernelRun
import proofs.«131036_j27977416966474_1_alg».proof.Proof.KernelFold

set_option maxRecDepth 16384

noncomputable section

namespace Cert.KernelIdeal.Final

open Cert.KernelIdeal Cert.KernelIdeal.Gen Cert.KernelIdeal.Fold
open Idealize.ShloMosaic Idealize.ShloMosaic.TcCoe Idealize.SL.Sem
open Cert.Gin (tr)

variable (m : (ℓ : Loc nD τ sig) → Buf (Elt Ideal) ℓ) (ρ : Dev nD → PrngReg) (c : Dev nD)

/-- The embeddings the walk finds are the network's of the unrounded weights. -/
theorem H3_eq : H3 m c = Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (show H3 m c = Cert.Gin.netH (φ := .bf16) (m ((c.tc : Thread nD τ).loc main_arg0)) (m ((c.tc : Thread nD τ).loc main_arg1)) (tr (m ((c.tc : Thread nD τ).loc main_arg3))) (m ((c.tc : Thread nD τ).loc main_arg4)) (m ((c.tc : Thread nD τ).loc main_arg5)) (m ((c.tc : Thread nD τ).loc main_arg6)) (tr (m ((c.tc : Thread nD τ).loc main_arg7))) (m ((c.tc : Thread nD τ).loc main_arg8)) (tr (m ((c.tc : Thread nD τ).loc main_arg9))) (m ((c.tc : Thread nD τ).loc main_arg10)) (m ((c.tc : Thread nD τ).loc main_arg11)) (m ((c.tc : Thread nD τ).loc main_arg12)) (tr (m ((c.tc : Thread nD τ).loc main_arg13))) (m ((c.tc : Thread nD τ).loc main_arg14)) (tr (m ((c.tc : Thread nD τ).loc main_arg15))) (m ((c.tc : Thread nD τ).loc main_arg16)) (m ((c.tc : Thread nD τ).loc main_arg17)) (m ((c.tc : Thread nD τ).loc main_arg18)) (tr (m ((c.tc : Thread nD τ).loc main_arg19))) (m ((c.tc : Thread nD τ).loc main_arg20)) from rfl).trans
    (Cert.Gin.netH_tr _ _ _ _ _ _ _ _ _ _ _ _ _ _ _ _ _ _ _ _)

theorem GR_eq : GR m c = Cert.Gin.pool (Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg2)) := by
  unfold GR; rw [H3_eq]

theorem LG_eq : LG m c = Cert.Gin.cls (φ₁ := .f32) (φ₂ := .f32) (Cert.Gin.pool (Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg2))) (m ((c.tc : Thread nD τ).loc main_arg21)) (m ((c.tc : Thread nD τ).loc main_arg22)) (m ((c.tc : Thread nD τ).loc main_arg23)) (m ((c.tc : Thread nD τ).loc main_arg24)) := by
  unfold LG; rw [GR_eq]; exact Cert.Gin.cls_tr _ _ _ _ _

/-- The run with the three results named and the arguments unchanged. -/
theorem run : θ_run defs (onTc (τ := τ) (main (F := Ideal))) ⟨m, fun _ => 0, ρ⟩ (fun r => ∀ c : Dev nD,
      r.2.mem ((c.tc : Thread nD τ).loc main_v57) = Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v69) = Cert.Gin.pool (Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg2))
      ∧ r.2.mem ((c.tc : Thread nD τ).loc main_v72) = Cert.Gin.cls (φ₁ := .f32) (φ₂ := .f32) (Cert.Gin.pool (Cert.Gin.netH (φ := .f32) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg2))) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_v57 (by decide))).trans ((W17_v57 m ρ c).trans (H3_eq m c)),
     (h c _ (mem_uc main_v69 (by decide))).trans ((W17_v69 m ρ c).trans (GR_eq m c)),
     (h c _ (mem_uc main_v72 (by decide))).trans ((W17_v72 m ρ c).trans (LG_eq m c)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c),
     (h c _ (mem_uc main_arg20 (by decide))).trans (W17_main_arg20 m ρ c),
     (h c _ (mem_uc main_arg21 (by decide))).trans (W17_main_arg21 m ρ c),
     (h c _ (mem_uc main_arg22 (by decide))).trans (W17_main_arg22 m ρ c),
     (h c _ (mem_uc main_arg23 (by decide))).trans (W17_main_arg23 m ρ c),
     (h c _ (mem_uc main_arg24 (by decide))).trans (W17_main_arg24 m ρ c)⟩)
    (Cert.KernelIdeal.RunAll.run m ρ)

end Cert.KernelIdeal.Final

end
-- ==== Proof.RefOps.lean ====
/-
  The plain program's @main as a list of its host operations, in order, the operations of each function it calls
  listed at the call over that call's buffers (the variance function's, with the guard's inside it; each relu's),
  cut into consecutive stretches: for each of the three layers the neighbour sum, the first linear map, the column
  statistics and the rest of the layer; then the pooling; then the classifier.
-/
import proofs.«131036_j27977416966474_1_alg».proof.Proof.Gen.ReferenceIdeal
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- Layer 1, the neighbour sum: the two rows of the edge list, the wrapped source indices, the gather of the source rows and their scatter-add into the destination rows. (17 operations) -/
abbrev opsA1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem opsA1_sub : (opsA1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

theorem opsA1_fresh : ∀ op ∈ (opsA1 : List (HloOp τ sig (Elt F))), op.fresh = ∅ := by
  intro _ h; (repeat (cases h with | head => rfl | tail _ h => ?_)); exact nomatch h

/-- Layer 1, the first linear map: (h + agg) · w1 + b1. (5 operations) -/
abbrev opsZ1 : List (HloOp τ sig (Elt F)) :=
  [ StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)) ]

theorem opsZ1_sub : (opsZ1 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩

theorem opsZ1_fresh : ∀ op ∈ (opsZ1 : List (HloOp τ sig (Elt F))), op.fresh = ∅ := by
  intro _ h; (repeat (cases h with | head => rfl | tail _ h => ?_)); exact nomatch h

/-- Layer 1, the column statistics: the mean (a column sum over the row count) and the variance function's operations listed at its call (the guard's three operations last). (28 operations) -/
abbrev opsS1 : List (HloOp τ sig (Elt F)) :=
  [ StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

theorem opsS1_sub : (opsS1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsS1_fresh : ∀ op ∈ (opsS1 : List (HloOp τ sig (Elt F))), op.fresh = ∅ := by
  intro _ h; (repeat (cases h with | head => rfl | tail _ h => ?_)); exact nomatch h

/-- Layer 1, the rest: the normalisation, relu, the second linear map, relu (each relu's three operations listed at its call). (26 operations) -/
abbrev opsB1 : List (HloOp τ sig (Elt F)) :=
  [ StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg6 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v37 : StableHlo.TRef sig ⟨S100000x128, .f32⟩) main_call1.v0 main_call1.v1 maximumf,
    StableHlo.binary main_v38 main_arg7 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42 : StableHlo.TRef sig ⟨S100000x128, .f32⟩) main_call2.v0 main_call2.v1 maximumf ]

theorem opsB1_sub : (opsB1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsB1_fresh : ∀ op ∈ (opsB1 : List (HloOp τ sig (Elt F))), op.fresh = ∅ := by
  intro _ h; (repeat (cases h with | head => rfl | tail _ h => ?_)); exact nomatch h

/-- Layer 2, the neighbour sum. (13 operations) -/
abbrev opsA2 : List (HloOp τ sig (Elt F)) :=
  [ StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_v1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v51 (broadcastInDim S100000x128 ![] bcast_S_S100000x128 : (⟨S_, .f32⟩ : BufTy).Contents (Elt F) → (⟨S100000x128, .f32⟩ : BufTy).Contents (Elt F)),
    StableHlo.unary main_v3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem opsA2_sub : (opsA2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

theorem opsA2_fresh : ∀ op ∈ (opsA2 : List (HloOp τ sig (Elt F))), op.fresh = ∅ := by
  intro _ h; (repeat (cases h with | head => rfl | tail _ h => ?_)); exact nomatch h

/-- Layer 2, the first linear map. (5 operations) -/
abbrev opsZ2 : List (HloOp τ sig (Elt F)) :=
  [ StableHlo.binary main_v43 main_v53 main_v54 (addf : (⟨S100000x128, .f32⟩ : BufTy).Contents (Elt F) → (⟨S100000x128, .f32⟩ : BufTy).Contents (Elt F) → (⟨S100000x128, .f32⟩ : BufTy).Contents (Elt F)),
    StableHlo.binary main_v54 main_arg9 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)) ]

theorem opsZ2_sub : (opsZ2 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩

theorem opsZ2_fresh : ∀ op ∈ (opsZ2 : List (HloOp τ sig (Elt F))), op.fresh = ∅ := by
  intro _ h; (repeat (cases h with | head => rfl | tail _ h => ?_)); exact nomatch h

/-- Layer 2, the column statistics. (28 operations) -/
abbrev opsS2 : List (HloOp τ sig (Elt F)) :=
  [ StableHlo.nullary main_cst_8 (constant S_ .f32 0x00000000#32),
    StableHlo.binary main_v58 main_cst_8 main_v59 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (.of main_v58 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v58 : StableHlo.TRef sig ⟨S100000x128, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

theorem opsS2_sub : (opsS2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsS2_fresh : ∀ op ∈ (opsS2 : List (HloOp τ sig (Elt F))), op.fresh = ∅ := by
  intro _ h; (repeat (cases h with | head => rfl | tail _ h => ?_)); exact nomatch h

/-- Layer 2, the rest of the layer. (26 operations) -/
abbrev opsB2 : List (HloOp τ sig (Elt F)) :=
  [ StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v64 main_v65 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v70 main_v71 (mulf : (⟨S100000x128, .f32⟩ : BufTy).Contents (Elt F) → (⟨S100000x128, .f32⟩ : BufTy).Contents (Elt F) → (⟨S100000x128, .f32⟩ : BufTy).Contents (Elt F)),
    StableHlo.unary main_arg11 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (mulf : (⟨S100000x128, .f32⟩ : BufTy).Contents (Elt F) → (⟨S100000x128, .f32⟩ : BufTy).Contents (Elt F) → (⟨S100000x128, .f32⟩ : BufTy).Contents (Elt F)),
    StableHlo.unary main_arg12 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v77 : StableHlo.TRef sig ⟨S100000x128, .f32⟩) main_call4.v0 main_call4.v1 maximumf,
    StableHlo.binary main_v78 main_arg13 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v82 : StableHlo.TRef sig ⟨S100000x128, .f32⟩) main_call5.v0 main_call5.v1 maximumf ]

theorem opsB2_sub : (opsB2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem opsB2_fresh : ∀ op ∈ (opsB2 : List (HloOp τ sig (Elt F))), op.fresh = ∅ := by
  intro _ h; (repeat (cases h with | head => rfl | tail _ h => ?_)); exact nomatch h

/-- Layer 3, the neighbour sum. (13 operations) -/
abbrev opsA3 : List (HloOp τ sig (Elt F)) :=
  [ StableHlo.nullary main_c_12 (constantI S_ 32 0#32),
    StableHlo.unary main_c_12 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v91 (broadcastInDim S100000x128 ![] bcast_S_S100000x128 : (⟨S_, .f32⟩ : BufTy).Contents (Elt F) → (⟨S100000x128, .f32⟩ : BufTy).Contents (Elt F)),
    StableHlo.unary main_v3 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem opsA3_sub : (opsA3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

theorem opsA3_fresh : ∀ op ∈ (opsA3 : List (HloOp τ sig (Elt F))), op.fresh = ∅ := by
  intro _ h; (repeat (cases h with | head => rfl | tail _ h => ?_)); exact nomatch h

/-- Layer 3, the first linear map. (5 operations) -/
abbrev opsZ3 : List (HloOp τ sig (Elt F)) :=
  [ StableHlo.binary main_v83 main_v93 main_v94 (addf : (⟨S100000x128, .f32⟩ : BufTy).Contents (Elt F) → (⟨S100000x128, .f32⟩ : BufTy).Contents (Elt F) → (⟨S100000x128, .f32⟩ : BufTy).Contents (Elt F)),
    StableHlo.binary main_v94 main_arg15 main_v95 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)) ]

theorem opsZ3_sub : (opsZ3 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩

theorem opsZ3_fresh : ∀ op ∈ (opsZ3 : List (HloOp τ sig (Elt F))), op.fresh = ∅ := by
  intro _ h; (repeat (cases h with | head => rfl | tail _ h => ?_)); exact nomatch h

/-- Layer 3, the column statistics. (28 operations) -/
abbrev opsS3 : List (HloOp τ sig (Elt F)) :=
  [ StableHlo.nullary main_cst_15 (constant S_ .f32 0x00000000#32),
    StableHlo.binary main_v98 main_cst_15 main_v99 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v100 (broadcastInDim S128 ![] bcast_S_S128 : (⟨S_, .f32⟩ : BufTy).Contents (Elt F) → (⟨S128, .f32⟩ : BufTy).Contents (Elt F)),
    StableHlo.binary main_v99 main_v100 main_v101 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call6.cst (constant S_ .f32 0x00000000#32),
    StableHlo.TRef.binary (.of main_v98 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v98 : StableHlo.TRef sig ⟨S100000x128, .f32⟩) main_call6.v4 main_call6.v5 subf,
    StableHlo.TRef.binary main_call6.v5 main_call6.v5 main_call6.v6 mulf,
    StableHlo.TRef.unary (.of main_c_17 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

theorem opsS3_sub : (opsS3 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem opsS3_fresh : ∀ op ∈ (opsS3 : List (HloOp τ sig (Elt F))), op.fresh = ∅ := by
  intro _ h; (repeat (cases h with | head => rfl | tail _ h => ?_)); exact nomatch h

/-- Layer 3, the rest of the layer (no relu after the second linear map). (23 operations) -/
abbrev opsB3 : List (HloOp τ sig (Elt F)) :=
  [ StableHlo.unary main_v101 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v104 main_v105 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v106 (broadcastInDim S128 ![] bcast_S_S128 : (⟨S_, .f32⟩ : BufTy).Contents (Elt F) → (⟨S128, .f32⟩ : BufTy).Contents (Elt F)),
    StableHlo.binary main_v102 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.rsqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v110 main_v111 (mulf : (⟨S100000x128, .f32⟩ : BufTy).Contents (Elt F) → (⟨S100000x128, .f32⟩ : BufTy).Contents (Elt F) → (⟨S100000x128, .f32⟩ : BufTy).Contents (Elt F)),
    StableHlo.unary main_arg17 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_arg18 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v117 : StableHlo.TRef sig ⟨S100000x128, .f32⟩) main_call7.v0 main_call7.v1 maximumf,
    StableHlo.binary main_v118 main_arg19 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg20 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)) ]

theorem opsB3_sub : (opsB3 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

theorem opsB3_fresh : ∀ op ∈ (opsB3 : List (HloOp τ sig (Elt F))), op.fresh = ∅ := by
  intro _ h; (repeat (cases h with | head => rfl | tail _ h => ?_)); exact nomatch h

/-- The pooling: the node rows summed by graph, over the graph's node count (at least 1). (16 operations) -/
abbrev opsP : List (HloOp τ sig (Elt F)) :=
  [ StableHlo.nullary main_cst_19 (constant S_ .f32 0x00000000#32),
    StableHlo.unary main_cst_19 main_v123 (broadcastInDim S512x128 ![] bcast_S_S512x128 : (⟨S_, .f32⟩ : BufTy).Contents (Elt F) → (⟨S512x128, .f32⟩ : BufTy).Contents (Elt F)),
    StableHlo.unary main_arg2 main_v124 (broadcastInDim S100000x1 ![0] bcast_S100000_S100000x1_0 : (⟨S100000, .i32⟩ : BufTy).Contents (Elt F) → (⟨S100000x1, .i32⟩ : BufTy).Contents (Elt F)),
    StableHlo.ternary main_v123 main_v124 main_v122 main_v125 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_20 (constant S_ .f32 0x3F800000#32),
    StableHlo.unary main_cst_20 main_v126 (broadcastInDim S100000 ![] bcast_S_S100000 : (⟨S_, .f32⟩ : BufTy).Contents (Elt F) → (⟨S100000, .f32⟩ : BufTy).Contents (Elt F)),
    StableHlo.nullary main_cst_21 (constant S_ .f32 0x00000000#32),
    StableHlo.unary main_cst_21 main_v127 (broadcastInDim S512 ![] bcast_S_S512 : (⟨S_, .f32⟩ : BufTy).Contents (Elt F) → (⟨S512, .f32⟩ : BufTy).Contents (Elt F)),
    StableHlo.unary main_arg2 main_v128 (broadcastInDim S100000x1 ![0] bcast_S100000_S100000x1_0 : (⟨S100000, .i32⟩ : BufTy).Contents (Elt F) → (⟨S100000x1, .i32⟩ : BufTy).Contents (Elt F)),
    StableHlo.ternary main_v127 main_v128 main_v126 main_v129 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_22 (constant S_ .f32 0x3F800000#32),
    StableHlo.unary main_cst_22 main_v130 (broadcastInDim S512 ![] bcast_S_S512 : (⟨S_, .f32⟩ : BufTy).Contents (Elt F) → (⟨S512, .f32⟩ : BufTy).Contents (Elt F)),
    StableHlo.binary main_v129 main_v130 main_v131 (maximumf : (⟨S512, .f32⟩ : BufTy).Contents (Elt F) → (⟨S512, .f32⟩ : BufTy).Contents (Elt F) → (⟨S512, .f32⟩ : BufTy).Contents (Elt F)),
    StableHlo.unary main_v131 main_v132 (broadcastInDim S512x1 ![0] bcast_S512_S512x1_0 : (⟨S512, .f32⟩ : BufTy).Contents (Elt F) → (⟨S512x1, .f32⟩ : BufTy).Contents (Elt F)),
    StableHlo.unary main_v132 main_v133 (broadcastInDim S512x128 ![0, 1] bcast_S512x1_S512x128_0_1 : (⟨S512x1, .f32⟩ : BufTy).Contents (Elt F) → (⟨S512x128, .f32⟩ : BufTy).Contents (Elt F)),
    StableHlo.binary main_v125 main_v133 main_v134 (Host.divf : (⟨S512x128, .f32⟩ : BufTy).Contents (Elt F) → (⟨S512x128, .f32⟩ : BufTy).Contents (Elt F) → (⟨S512x128, .f32⟩ : BufTy).Contents (Elt F)) ]

theorem opsP_sub : (opsP : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem opsP_fresh : ∀ op ∈ (opsP : List (HloOp τ sig (Elt F))), op.fresh = ∅ := by
  intro _ h; (repeat (cases h with | head => rfl | tail _ h => ?_)); exact nomatch h

/-- The classifier: a linear map, relu (its three operations listed at the call), a linear map. (11 operations) -/
abbrev opsC : List (HloOp τ sig (Elt F)) :=
  [ StableHlo.binary main_v134 main_arg21 main_v135 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg22 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S512x128 ![0, 1] bcast_S1x128_S512x128_0_1 : (⟨S1x128, .f32⟩ : BufTy).Contents (Elt F) → (⟨S512x128, .f32⟩ : BufTy).Contents (Elt F)),
    StableHlo.binary main_v135 main_v137 main_v138 (addf : (⟨S512x128, .f32⟩ : BufTy).Contents (Elt F) → (⟨S512x128, .f32⟩ : BufTy).Contents (Elt F) → (⟨S512x128, .f32⟩ : BufTy).Contents (Elt F)),
    StableHlo.TRef.nullary main_call8.cst (constant S_ .f32 0x00000000#32),
    StableHlo.TRef.unary main_call8.cst main_call8.v0 (broadcastInDim S512x128 ![] bcast_S_S512x128),
    StableHlo.TRef.binary (.of main_v138 : StableHlo.TRef sig ⟨S512x128, .f32⟩) main_call8.v0 main_call8.v1 maximumf,
    StableHlo.binary main_v139 main_arg23 main_v140 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg24 main_v141 (broadcastInDim S1x10 ![1] bcast_S10_S1x10_1 : (⟨S10, .f32⟩ : BufTy).Contents (Elt F) → (⟨S1x10, .f32⟩ : BufTy).Contents (Elt F)),
    StableHlo.unary main_v141 main_v142 (broadcastInDim S512x10 ![0, 1] bcast_S1x10_S512x10_0_1 : (⟨S1x10, .f32⟩ : BufTy).Contents (Elt F) → (⟨S512x10, .f32⟩ : BufTy).Contents (Elt F)),
    StableHlo.binary main_v140 main_v142 main_v143 (addf : (⟨S512x10, .f32⟩ : BufTy).Contents (Elt F) → (⟨S512x10, .f32⟩ : BufTy).Contents (Elt F) → (⟨S512x10, .f32⟩ : BufTy).Contents (Elt F)) ]

theorem opsC_sub : (opsC : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

theorem opsC_fresh : ∀ op ∈ (opsC : List (HloOp τ sig (Elt F))), op.fresh = ∅ := by
  intro _ h; (repeat (cases h with | head => rfl | tail _ h => ?_)); exact nomatch h

/-- The plain program's operations, in order: the three layers, the pooling, the classifier. -/
abbrev ops : List (HloOp τ sig (Elt F)) :=
  opsA1 ++ opsZ1 ++ opsS1 ++ opsB1 ++ opsA2 ++ opsZ2 ++ opsS2 ++ opsB2 ++ opsA3 ++ opsZ3 ++ opsS3 ++ opsB3 ++ opsP ++ opsC

end Cert.ReferenceIdeal.RefRun

end
-- ==== Proof.RefRun.lean ====
/-
  The plain program's run: @main is the straight line of its operations (RefOps' list), so on every device, from any
  memory with zero counters, every weakly fair execution terminates with each TensorCore buffer at the fold of the
  operations' results over its launch contents.
-/
import proofs.«131036_j27977416966474_1_alg».proof.Proof.RefOps
import Idealize.ShloMosaic.Lib.Pipeline.Regions

noncomputable section

namespace Cert.ReferenceIdeal.RefRun

open Idealize.ShloMosaic Idealize.ShloMosaic.TcCoe Idealize.SL.Sem Cert.ReferenceIdeal Cert.ReferenceIdeal.Facts₀

variable {F : FTy → Type} [FloatOps F]

/-- @main is that straight line: its three windows of statements one after the other, each called function's body
    unfolded at its call over the call's buffers, are the operations of the list, in order; both sides are one chain
    of the same steps once sequencing is re-associated, which is a computation. -/
theorem main_eq (c : Dev nD) : main (F := F) c = StableHlo.seq ops := by
  chain_rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: stretch by stretch. -/
theorem ops_sub : (ops : List (HloOp τ sig (Elt F))).Forall fun op => op.bufs ⊆ StableHlo.tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨opsA1_sub, opsZ1_sub⟩, opsS1_sub⟩, opsB1_sub⟩, opsA2_sub⟩, opsZ2_sub⟩, opsS2_sub⟩, opsB2_sub⟩, opsA3_sub⟩, opsZ3_sub⟩, opsS3_sub⟩, opsB3_sub⟩, opsP_sub⟩, opsC_sub⟩

/-- Every operation determines its results (none allocates): stretch by stretch. -/
theorem ops_fresh : (ops : List (HloOp τ sig (Elt F))).Forall fun op => op.fresh = ∅ :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_iff_forall_mem.2 opsA1_fresh, List.forall_iff_forall_mem.2 opsZ1_fresh⟩, List.forall_iff_forall_mem.2 opsS1_fresh⟩, List.forall_iff_forall_mem.2 opsB1_fresh⟩, List.forall_iff_forall_mem.2 opsA2_fresh⟩, List.forall_iff_forall_mem.2 opsZ2_fresh⟩, List.forall_iff_forall_mem.2 opsS2_fresh⟩, List.forall_iff_forall_mem.2 opsB2_fresh⟩, List.forall_iff_forall_mem.2 opsA3_fresh⟩, List.forall_iff_forall_mem.2 opsZ3_fresh⟩, List.forall_iff_forall_mem.2 opsS3_fresh⟩, List.forall_iff_forall_mem.2 opsB3_fresh⟩, List.forall_iff_forall_mem.2 opsP_fresh⟩, List.forall_iff_forall_mem.2 opsC_fresh⟩

/-- On every device, for any float values, from any memory with zero counters: every weakly fair execution of @main on
    the TensorCores terminates, and every final state has each TensorCore buffer at the operations' fold over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ
    (fun _ => List.forall_iff_forall_mem.1 ops_fresh)

end Cert.ReferenceIdeal.RefRun

end
-- ==== Proof.RefStage.lean ====
/-
  The plain program's fold read stretch by stretch: from ANY contents W, the contents after a stretch at the stretch's
  outputs are the network's stage functions (Spec) of W at the stretch's inputs. Each is the fold unrolled, every
  operation's result read at its own buffer and passed over at the others, and then an equation between the same
  host operations on both sides.
-/
import proofs.«131036_j27977416966474_1_alg».proof.Proof.RefOps
import proofs.«131036_j27977416966474_1_alg».proof.Proof.Spec

noncomputable section

namespace Cert.ReferenceIdeal.RefRun

open Idealize.ShloMosaic Idealize.ShloMosaic.TcCoe Idealize.SL.Sem Idealize.ShloMosaic.StableHlo Cert.ReferenceIdeal Cert.ReferenceIdeal.Facts₀

/-- After layer 1's first stretch the source and destination rows of the edge list are read off it, and the neighbour sum is taken over them. -/
theorem stageA1_src (W : Valuation τ sig (Elt Ideal)) :
    StableHlo.after (opsA1 (F := Ideal)) W (Proc.devRef .tc main_v1) = Cert.Gin.srcOf (W (Proc.devRef .tc main_arg1)) := by
  after_results_simp
  rfl

theorem stageA1_dst (W : Valuation τ sig (Elt Ideal)) :
    StableHlo.after (opsA1 (F := Ideal)) W (Proc.devRef .tc main_v3) = Cert.Gin.dstOf (W (Proc.devRef .tc main_arg1)) := by
  after_results_simp
  rfl

theorem stageA1 (W : Valuation τ sig (Elt Ideal)) :
    StableHlo.after (opsA1 (F := Ideal)) W (Proc.devRef .tc main_v13) = Cert.Gin.agg (W (Proc.devRef .tc main_arg0)) (Cert.Gin.srcOf (W (Proc.devRef .tc main_arg1))) (Cert.Gin.dstOf (W (Proc.devRef .tc main_arg1))) := by
  after_results_simp
  rfl

/-- Layer 1's first linear map, of the features plus their neighbour sum. -/
theorem stageZ1 (W : Valuation τ sig (Elt Ideal)) :
    StableHlo.after (opsZ1 (F := Ideal)) W (Proc.devRef .tc main_v18) = Cert.Gin.lin (φ := .f32) (addf (W (Proc.devRef .tc main_arg0)) (W (Proc.devRef .tc main_v13))) (W (Proc.devRef .tc main_arg3)) (W (Proc.devRef .tc main_arg4)) := by
  after_results_simp
  rfl

/-- Layer 1's column means and column variances. -/
theorem stageS1_mean (W : Valuation τ sig (Elt Ideal)) :
    StableHlo.after (opsS1 (F := Ideal)) W (Proc.devRef .tc main_v21) = Cert.Gin.meanOf (W (Proc.devRef .tc main_v18)) := by
  after_results_simp
  rfl

theorem stageS1_var (W : Valuation τ sig (Elt Ideal)) :
    StableHlo.after (opsS1 (F := Ideal)) W (Proc.devRef .tc main_v22) = Cert.Gin.varOf (W (Proc.devRef .tc main_v18)) := by
  after_results_simp
  rfl

theorem stageS1 (W : Valuation τ sig (Elt Ideal)) :
    StableHlo.after (opsS1 (F := Ideal)) W (Proc.devRef .tc main_v21) = Cert.Gin.meanOf (W (Proc.devRef .tc main_v18)) ∧ StableHlo.after (opsS1 (F := Ideal)) W (Proc.devRef .tc main_v22) = Cert.Gin.varOf (W (Proc.devRef .tc main_v18)) :=
  ⟨stageS1_mean W, stageS1_var W⟩

/-- The rest of layer 1: the normalisation, relu, the second linear map, relu. -/
theorem stageB1 (W : Valuation τ sig (Elt Ideal)) :
    StableHlo.after (opsB1 (F := Ideal)) W (Proc.devRef .tc main_v43) = Cert.Gin.reluN (Cert.Gin.mlp2 (φ := .f32) (W (Proc.devRef .tc main_v18)) (W (Proc.devRef .tc main_v21)) (W (Proc.devRef .tc main_v22)) (W (Proc.devRef .tc main_arg5)) (W (Proc.devRef .tc main_arg6)) (W (Proc.devRef .tc main_arg7)) (W (Proc.devRef .tc main_arg8))) := by
  after_results_simp
  rfl

/-- Layer 2's neighbour sum, over the rows of the edge list read in layer 1. -/
theorem stageA2 (W : Valuation τ sig (Elt Ideal)) :
    StableHlo.after (opsA2 (F := Ideal)) W (Proc.devRef .tc main_v53) = Cert.Gin.agg (W (Proc.devRef .tc main_v43)) (W (Proc.devRef .tc main_v1)) (W (Proc.devRef .tc main_v3)) := by
  after_results_simp
  rfl

/-- Layer 2's first linear map, of the features plus their neighbour sum. -/
theorem stageZ2 (W : Valuation τ sig (Elt Ideal)) :
    StableHlo.after (opsZ2 (F := Ideal)) W (Proc.devRef .tc main_v58) = Cert.Gin.lin (φ := .f32) (addf (W (Proc.devRef .tc main_v43)) (W (Proc.devRef .tc main_v53))) (W (Proc.devRef .tc main_arg9)) (W (Proc.devRef .tc main_arg10)) := by
  after_results_simp
  rfl

/-- Layer 2's column means and column variances. -/
theorem stageS2_mean (W : Valuation τ sig (Elt Ideal)) :
    StableHlo.after (opsS2 (F := Ideal)) W (Proc.devRef .tc main_v61) = Cert.Gin.meanOf (W (Proc.devRef .tc main_v58)) := by
  after_results_simp
  rfl

theorem stageS2_var (W : Valuation τ sig (Elt Ideal)) :
    StableHlo.after (opsS2 (F := Ideal)) W (Proc.devRef .tc main_v62) = Cert.Gin.varOf (W (Proc.devRef .tc main_v58)) := by
  after_results_simp
  rfl

theorem stageS2 (W : Valuation τ sig (Elt Ideal)) :
    StableHlo.after (opsS2 (F := Ideal)) W (Proc.devRef .tc main_v61) = Cert.Gin.meanOf (W (Proc.devRef .tc main_v58)) ∧ StableHlo.after (opsS2 (F := Ideal)) W (Proc.devRef .tc main_v62) = Cert.Gin.varOf (W (Proc.devRef .tc main_v58)) :=
  ⟨stageS2_mean W, stageS2_var W⟩

/-- The rest of layer 2: the normalisation, relu, the second linear map, relu. -/
theorem stageB2 (W : Valuation τ sig (Elt Ideal)) :
    StableHlo.after (opsB2 (F := Ideal)) W (Proc.devRef .tc main_v83) = Cert.Gin.reluN (Cert.Gin.mlp2 (φ := .f32) (W (Proc.devRef .tc main_v58)) (W (Proc.devRef .tc main_v61)) (W (Proc.devRef .tc main_v62)) (W (Proc.devRef .tc main_arg11)) (W (Proc.devRef .tc main_arg12)) (W (Proc.devRef .tc main_arg13)) (W (Proc.devRef .tc main_arg14))) := by
  after_results_simp
  rfl

/-- Layer 3's neighbour sum, over the rows of the edge list read in layer 1. -/
theorem stageA3 (W : Valuation τ sig (Elt Ideal)) :
    StableHlo.after (opsA3 (F := Ideal)) W (Proc.devRef .tc main_v93) = Cert.Gin.agg (W (Proc.devRef .tc main_v83)) (W (Proc.devRef .tc main_v1)) (W (Proc.devRef .tc main_v3)) := by
  after_results_simp
  rfl

/-- Layer 3's first linear map, of the features plus their neighbour sum. -/
theorem stageZ3 (W : Valuation τ sig (Elt Ideal)) :
    StableHlo.after (opsZ3 (F := Ideal)) W (Proc.devRef .tc main_v98) = Cert.Gin.lin (φ := .f32) (addf (W (Proc.devRef .tc main_v83)) (W (Proc.devRef .tc main_v93))) (W (Proc.devRef .tc main_arg15)) (W (Proc.devRef .tc main_arg16)) := by
  after_results_simp
  rfl

/-- Layer 3's column means and column variances. -/
theorem stageS3_mean (W : Valuation τ sig (Elt Ideal)) :
    StableHlo.after (opsS3 (F := Ideal)) W (Proc.devRef .tc main_v101) = Cert.Gin.meanOf (W (Proc.devRef .tc main_v98)) := by
  after_results_simp
  rfl

theorem stageS3_var (W : Valuation τ sig (Elt Ideal)) :
    StableHlo.after (opsS3 (F := Ideal)) W (Proc.devRef .tc main_v102) = Cert.Gin.varOf (W (Proc.devRef .tc main_v98)) := by
  after_results_simp
  rfl

theorem stageS3 (W : Valuation τ sig (Elt Ideal)) :
    StableHlo.after (opsS3 (F := Ideal)) W (Proc.devRef .tc main_v101) = Cert.Gin.meanOf (W (Proc.devRef .tc main_v98)) ∧ StableHlo.after (opsS3 (F := Ideal)) W (Proc.devRef .tc main_v102) = Cert.Gin.varOf (W (Proc.devRef .tc main_v98)) :=
  ⟨stageS3_mean W, stageS3_var W⟩

/-- The rest of layer 3: the normalisation, relu, the second linear map. -/
theorem stageB3 (W : Valuation τ sig (Elt Ideal)) :
    StableHlo.after (opsB3 (F := Ideal)) W (Proc.devRef .tc main_v122) = Cert.Gin.mlp2 (φ := .f32) (W (Proc.devRef .tc main_v98)) (W (Proc.devRef .tc main_v101)) (W (Proc.devRef .tc main_v102)) (W (Proc.devRef .tc main_arg17)) (W (Proc.devRef .tc main_arg18)) (W (Proc.devRef .tc main_arg19)) (W (Proc.devRef .tc main_arg20)) := by
  after_results_simp
  rfl

/-- The pooling of the last layer's rows by graph. -/
theorem stageP (W : Valuation τ sig (Elt Ideal)) :
    StableHlo.after (opsP (F := Ideal)) W (Proc.devRef .tc main_v134) = Cert.Gin.pool (W (Proc.devRef .tc main_v122)) (W (Proc.devRef .tc main_arg2)) := by
  after_results_simp
  rfl

/-- The classifier on the pooled rows. -/
theorem stageC (W : Valuation τ sig (Elt Ideal)) :
    StableHlo.after (opsC (F := Ideal)) W (Proc.devRef .tc main_v143) = Cert.Gin.cls (φ₁ := .f32) (φ₂ := .f32) (W (Proc.devRef .tc main_v134)) (W (Proc.devRef .tc main_arg21)) (W (Proc.devRef .tc main_arg22)) (W (Proc.devRef .tc main_arg23)) (W (Proc.devRef .tc main_arg24)) := by
  after_results_simp
  rfl

end Cert.ReferenceIdeal.RefRun

end
-- ==== Proof.RefFold.lean ====
/-
  The plain program's buffer contents, boundary by boundary, as the network's functions of the arguments.

  The fold over the whole operation list is the folds over its stretches in turn. Across a stretch a buffer that is
  none of the stretch's result buffers keeps its contents — so an argument array, written by nothing, holds its
  launch contents at every boundary — and a stretch's outputs are the stage functions of its inputs (RefStage). Walking
  the boundaries: the two rows of the edge list, then for each layer the neighbour sum, the first linear map, the
  column means and variances, the layer's output; then the pooled rows; then the classifier's output. At the end the
  three result buffers hold the node embeddings, the pooled rows and the classifier's output of the network (Net) at
  the argument arrays.
-/
import proofs.«131036_j27977416966474_1_alg».proof.Proof.RefStage
import proofs.«131036_j27977416966474_1_alg».proof.Proof.Net
import Idealize.ShloMosaic.Lib.Pipeline.Frame

set_option maxRecDepth 16384

noncomputable section

namespace Cert.ReferenceIdeal.RefFold

open Cert.ReferenceIdeal Cert.ReferenceIdeal.RefRun
open Idealize.ShloMosaic Idealize.ShloMosaic.TcCoe Idealize.SL.Sem Idealize.ShloMosaic.StableHlo

/-- A stretch leaves a buffer alone when the buffer is none of its operations' result buffers: one lemma per stretch, over the list of the stretch's result buffers. -/
abbrev wr_opsA1 : List (Ref sig .tc) := [main_v0, main_v1, main_v2, main_v3, main_c, main_v4, main_v5, main_c_0, main_v6, main_v7, main_v8, main_v9, main_v10, main_cst, main_v11, main_v12, main_v13]
theorem keep_A1 (W : Valuation τ sig (Elt Ideal)) (r : Ref sig .tc) (hr : r ∉ wr_opsA1) :
    after (opsA1 (F := Ideal)) W (Proc.devRef .tc r) = W (Proc.devRef .tc r) :=
  after_of_forall_not_mem (b := Proc.devRef .tc r) _ _ (List.forall_iff_forall_mem.mp (by
    simp only [opsA1, List.Forall, nullary_writes, unary_writes, binary_writes, ternary_writes, reshape_writes, Finset.mem_singleton]
    repeat' apply And.intro
    all_goals exact devRef_ne_of_ne (ne_of_mem_of_not_mem (by decide) hr).symm))

abbrev wr_opsZ1 : List (Ref sig .tc) := [main_v14, main_v15, main_v16, main_v17, main_v18]
theorem keep_Z1 (W : Valuation τ sig (Elt Ideal)) (r : Ref sig .tc) (hr : r ∉ wr_opsZ1) :
    after (opsZ1 (F := Ideal)) W (Proc.devRef .tc r) = W (Proc.devRef .tc r) :=
  after_of_forall_not_mem (b := Proc.devRef .tc r) _ _ (List.forall_iff_forall_mem.mp (by
    simp only [opsZ1, List.Forall, nullary_writes, unary_writes, binary_writes, ternary_writes, reshape_writes, Finset.mem_singleton]
    repeat' apply And.intro
    all_goals exact devRef_ne_of_ne (ne_of_mem_of_not_mem (by decide) hr).symm))

abbrev wr_opsS1 : List (Ref sig .tc) := [main_cst_1, main_v19, main_cst_2, main_v20, main_v21, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v22]
theorem keep_S1 (W : Valuation τ sig (Elt Ideal)) (r : Ref sig .tc) (hr : r ∉ wr_opsS1) :
    after (opsS1 (F := Ideal)) W (Proc.devRef .tc r) = W (Proc.devRef .tc r) :=
  after_of_forall_not_mem (b := Proc.devRef .tc r) _ _ (List.forall_iff_forall_mem.mp (by
    simp only [opsS1, List.Forall, nullary_writes, unary_writes, binary_writes, ternary_writes, reshape_writes, Finset.mem_singleton]
    repeat' apply And.intro
    all_goals exact devRef_ne_of_ne (ne_of_mem_of_not_mem (by decide) hr).symm))

abbrev wr_opsB1 : List (Ref sig .tc) := [main_v23, main_v24, main_v25, main_cst_4, main_v26, main_v27, main_v28, main_v29, main_v30, main_v31, main_v32, main_v33, main_v34, main_v35, main_v36, main_v37, main_call1_cst, main_call1_v0, main_v38, main_v39, main_v40, main_v41, main_v42, main_call2_cst, main_call2_v0, main_v43]
theorem keep_B1 (W : Valuation τ sig (Elt Ideal)) (r : Ref sig .tc) (hr : r ∉ wr_opsB1) :
    after (opsB1 (F := Ideal)) W (Proc.devRef .tc r) = W (Proc.devRef .tc r) :=
  after_of_forall_not_mem (b := Proc.devRef .tc r) _ _ (List.forall_iff_forall_mem.mp (by
    simp only [opsB1, List.Forall, nullary_writes, unary_writes, binary_writes, ternary_writes, reshape_writes, Finset.mem_singleton]
    repeat' apply And.intro
    all_goals exact devRef_ne_of_ne (ne_of_mem_of_not_mem (by decide) hr).symm))

abbrev wr_opsA2 : List (Ref sig .tc) := [main_c_5, main_v44, main_v45, main_c_6, main_v46, main_v47, main_v48, main_v49, main_v50, main_cst_7, main_v51, main_v52, main_v53]
theorem keep_A2 (W : Valuation τ sig (Elt Ideal)) (r : Ref sig .tc) (hr : r ∉ wr_opsA2) :
    after (opsA2 (F := Ideal)) W (Proc.devRef .tc r) = W (Proc.devRef .tc r) :=
  after_of_forall_not_mem (b := Proc.devRef .tc r) _ _ (List.forall_iff_forall_mem.mp (by
    simp only [opsA2, List.Forall, nullary_writes, unary_writes, binary_writes, ternary_writes, reshape_writes, Finset.mem_singleton]
    repeat' apply And.intro
    all_goals exact devRef_ne_of_ne (ne_of_mem_of_not_mem (by decide) hr).symm))

abbrev wr_opsZ2 : List (Ref sig .tc) := [main_v54, main_v55, main_v56, main_v57, main_v58]
theorem keep_Z2 (W : Valuation τ sig (Elt Ideal)) (r : Ref sig .tc) (hr : r ∉ wr_opsZ2) :
    after (opsZ2 (F := Ideal)) W (Proc.devRef .tc r) = W (Proc.devRef .tc r) :=
  after_of_forall_not_mem (b := Proc.devRef .tc r) _ _ (List.forall_iff_forall_mem.mp (by
    simp only [opsZ2, List.Forall, nullary_writes, unary_writes, binary_writes, ternary_writes, reshape_writes, Finset.mem_singleton]
    repeat' apply And.intro
    all_goals exact devRef_ne_of_ne (ne_of_mem_of_not_mem (by decide) hr).symm))

abbrev wr_opsS2 : List (Ref sig .tc) := [main_cst_8, main_v59, main_cst_9, main_v60, main_v61, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v62]
theorem keep_S2 (W : Valuation τ sig (Elt Ideal)) (r : Ref sig .tc) (hr : r ∉ wr_opsS2) :
    after (opsS2 (F := Ideal)) W (Proc.devRef .tc r) = W (Proc.devRef .tc r) :=
  after_of_forall_not_mem (b := Proc.devRef .tc r) _ _ (List.forall_iff_forall_mem.mp (by
    simp only [opsS2, List.Forall, nullary_writes, unary_writes, binary_writes, ternary_writes, reshape_writes, Finset.mem_singleton]
    repeat' apply And.intro
    all_goals exact devRef_ne_of_ne (ne_of_mem_of_not_mem (by decide) hr).symm))

abbrev wr_opsB2 : List (Ref sig .tc) := [main_v63, main_v64, main_v65, main_cst_11, main_v66, main_v67, main_v68, main_v69, main_v70, main_v71, main_v72, main_v73, main_v74, main_v75, main_v76, main_v77, main_call4_cst, main_call4_v0, main_v78, main_v79, main_v80, main_v81, main_v82, main_call5_cst, main_call5_v0, main_v83]
theorem keep_B2 (W : Valuation τ sig (Elt Ideal)) (r : Ref sig .tc) (hr : r ∉ wr_opsB2) :
    after (opsB2 (F := Ideal)) W (Proc.devRef .tc r) = W (Proc.devRef .tc r) :=
  after_of_forall_not_mem (b := Proc.devRef .tc r) _ _ (List.forall_iff_forall_mem.mp (by
    simp only [opsB2, List.Forall, nullary_writes, unary_writes, binary_writes, ternary_writes, reshape_writes, Finset.mem_singleton]
    repeat' apply And.intro
    all_goals exact devRef_ne_of_ne (ne_of_mem_of_not_mem (by decide) hr).symm))

abbrev wr_opsA3 : List (Ref sig .tc) := [main_c_12, main_v84, main_v85, main_c_13, main_v86, main_v87, main_v88, main_v89, main_v90, main_cst_14, main_v91, main_v92, main_v93]
theorem keep_A3 (W : Valuation τ sig (Elt Ideal)) (r : Ref sig .tc) (hr : r ∉ wr_opsA3) :
    after (opsA3 (F := Ideal)) W (Proc.devRef .tc r) = W (Proc.devRef .tc r) :=
  after_of_forall_not_mem (b := Proc.devRef .tc r) _ _ (List.forall_iff_forall_mem.mp (by
    simp only [opsA3, List.Forall, nullary_writes, unary_writes, binary_writes, ternary_writes, reshape_writes, Finset.mem_singleton]
    repeat' apply And.intro
    all_goals exact devRef_ne_of_ne (ne_of_mem_of_not_mem (by decide) hr).symm))

abbrev wr_opsZ3 : List (Ref sig .tc) := [main_v94, main_v95, main_v96, main_v97, main_v98]
theorem keep_Z3 (W : Valuation τ sig (Elt Ideal)) (r : Ref sig .tc) (hr : r ∉ wr_opsZ3) :
    after (opsZ3 (F := Ideal)) W (Proc.devRef .tc r) = W (Proc.devRef .tc r) :=
  after_of_forall_not_mem (b := Proc.devRef .tc r) _ _ (List.forall_iff_forall_mem.mp (by
    simp only [opsZ3, List.Forall, nullary_writes, unary_writes, binary_writes, ternary_writes, reshape_writes, Finset.mem_singleton]
    repeat' apply And.intro
    all_goals exact devRef_ne_of_ne (ne_of_mem_of_not_mem (by decide) hr).symm))

abbrev wr_opsS3 : List (Ref sig .tc) := [main_cst_15, main_v99, main_cst_16, main_v100, main_v101, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v102]
theorem keep_S3 (W : Valuation τ sig (Elt Ideal)) (r : Ref sig .tc) (hr : r ∉ wr_opsS3) :
    after (opsS3 (F := Ideal)) W (Proc.devRef .tc r) = W (Proc.devRef .tc r) :=
  after_of_forall_not_mem (b := Proc.devRef .tc r) _ _ (List.forall_iff_forall_mem.mp (by
    simp only [opsS3, List.Forall, nullary_writes, unary_writes, binary_writes, ternary_writes, reshape_writes, Finset.mem_singleton]
    repeat' apply And.intro
    all_goals exact devRef_ne_of_ne (ne_of_mem_of_not_mem (by decide) hr).symm))

abbrev wr_opsB3 : List (Ref sig .tc) := [main_v103, main_v104, main_v105, main_cst_18, main_v106, main_v107, main_v108, main_v109, main_v110, main_v111, main_v112, main_v113, main_v114, main_v115, main_v116, main_v117, main_call7_cst, main_call7_v0, main_v118, main_v119, main_v120, main_v121, main_v122]
theorem keep_B3 (W : Valuation τ sig (Elt Ideal)) (r : Ref sig .tc) (hr : r ∉ wr_opsB3) :
    after (opsB3 (F := Ideal)) W (Proc.devRef .tc r) = W (Proc.devRef .tc r) :=
  after_of_forall_not_mem (b := Proc.devRef .tc r) _ _ (List.forall_iff_forall_mem.mp (by
    simp only [opsB3, List.Forall, nullary_writes, unary_writes, binary_writes, ternary_writes, reshape_writes, Finset.mem_singleton]
    repeat' apply And.intro
    all_goals exact devRef_ne_of_ne (ne_of_mem_of_not_mem (by decide) hr).symm))

abbrev wr_opsP : List (Ref sig .tc) := [main_cst_19, main_v123, main_v124, main_v125, main_cst_20, main_v126, main_cst_21, main_v127, main_v128, main_v129, main_cst_22, main_v130, main_v131, main_v132, main_v133, main_v134]
theorem keep_P (W : Valuation τ sig (Elt Ideal)) (r : Ref sig .tc) (hr : r ∉ wr_opsP) :
    after (opsP (F := Ideal)) W (Proc.devRef .tc r) = W (Proc.devRef .tc r) :=
  after_of_forall_not_mem (b := Proc.devRef .tc r) _ _ (List.forall_iff_forall_mem.mp (by
    simp only [opsP, List.Forall, nullary_writes, unary_writes, binary_writes, ternary_writes, reshape_writes, Finset.mem_singleton]
    repeat' apply And.intro
    all_goals exact devRef_ne_of_ne (ne_of_mem_of_not_mem (by decide) hr).symm))

abbrev wr_opsC : List (Ref sig .tc) := [main_v135, main_v136, main_v137, main_v138, main_call8_cst, main_call8_v0, main_v139, main_v140, main_v141, main_v142, main_v143]
theorem keep_C (W : Valuation τ sig (Elt Ideal)) (r : Ref sig .tc) (hr : r ∉ wr_opsC) :
    after (opsC (F := Ideal)) W (Proc.devRef .tc r) = W (Proc.devRef .tc r) :=
  after_of_forall_not_mem (b := Proc.devRef .tc r) _ _ (List.forall_iff_forall_mem.mp (by
    simp only [opsC, List.Forall, nullary_writes, unary_writes, binary_writes, ternary_writes, reshape_writes, Finset.mem_singleton]
    repeat' apply And.intro
    all_goals exact devRef_ne_of_ne (ne_of_mem_of_not_mem (by decide) hr).symm))

/-! ## The contents boundary by boundary -/

variable (m : (ℓ : Loc nD τ sig) → Buf (Elt Ideal) ℓ) (d : Dev nD)

/-- The launch contents, then the contents after each stretch in turn. -/
def R0 : Valuation τ sig (Elt Ideal) := launchContents m d
def R1 : Valuation τ sig (Elt Ideal) := after (opsA1 (F := Ideal)) (R0 m d)
def R2 : Valuation τ sig (Elt Ideal) := after (opsZ1 (F := Ideal)) (R1 m d)
def R3 : Valuation τ sig (Elt Ideal) := after (opsS1 (F := Ideal)) (R2 m d)
def R4 : Valuation τ sig (Elt Ideal) := after (opsB1 (F := Ideal)) (R3 m d)
def R5 : Valuation τ sig (Elt Ideal) := after (opsA2 (F := Ideal)) (R4 m d)
def R6 : Valuation τ sig (Elt Ideal) := after (opsZ2 (F := Ideal)) (R5 m d)
def R7 : Valuation τ sig (Elt Ideal) := after (opsS2 (F := Ideal)) (R6 m d)
def R8 : Valuation τ sig (Elt Ideal) := after (opsB2 (F := Ideal)) (R7 m d)
def R9 : Valuation τ sig (Elt Ideal) := after (opsA3 (F := Ideal)) (R8 m d)
def R10 : Valuation τ sig (Elt Ideal) := after (opsZ3 (F := Ideal)) (R9 m d)
def R11 : Valuation τ sig (Elt Ideal) := after (opsS3 (F := Ideal)) (R10 m d)
def R12 : Valuation τ sig (Elt Ideal) := after (opsB3 (F := Ideal)) (R11 m d)
def R13 : Valuation τ sig (Elt Ideal) := after (opsP (F := Ideal)) (R12 m d)
def R14 : Valuation τ sig (Elt Ideal) := after (opsC (F := Ideal)) (R13 m d)

/-- The whole fold is the last of them: the fold over a concatenation is the folds in turn. -/
theorem fold_eq : after (ops (F := Ideal)) (launchContents m d) = R14 m d := by
  simp only [ops, StableHlo.after_append]
  rfl

/-! ## The argument arrays are kept at every boundary -/

/-- An argument array's launch contents on the device. -/
abbrev arg (r : Ref sig .tc) : Buf (Elt Ideal) ((d.tc : Thread nD τ).loc r) := m ((d.tc : Thread nD τ).loc r)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

theorem R0_arg (r : Ref sig .tc) (hr : r ∈ argRefs) : R0 m d (Proc.devRef .tc r) = m ((d.tc : Thread nD τ).loc r) := rfl
theorem R1_arg (r : Ref sig .tc) (hr : r ∈ argRefs) : R1 m d (Proc.devRef .tc r) = m ((d.tc : Thread nD τ).loc r) :=
  (keep_A1 (R0 m d) r ((by decide : ∀ r ∈ argRefs, r ∉ wr_opsA1) r hr)).trans (R0_arg m d r hr)
theorem R2_arg (r : Ref sig .tc) (hr : r ∈ argRefs) : R2 m d (Proc.devRef .tc r) = m ((d.tc : Thread nD τ).loc r) :=
  (keep_Z1 (R1 m d) r ((by decide : ∀ r ∈ argRefs, r ∉ wr_opsZ1) r hr)).trans (R1_arg m d r hr)
theorem R3_arg (r : Ref sig .tc) (hr : r ∈ argRefs) : R3 m d (Proc.devRef .tc r) = m ((d.tc : Thread nD τ).loc r) :=
  (keep_S1 (R2 m d) r ((by decide : ∀ r ∈ argRefs, r ∉ wr_opsS1) r hr)).trans (R2_arg m d r hr)
theorem R4_arg (r : Ref sig .tc) (hr : r ∈ argRefs) : R4 m d (Proc.devRef .tc r) = m ((d.tc : Thread nD τ).loc r) :=
  (keep_B1 (R3 m d) r ((by decide : ∀ r ∈ argRefs, r ∉ wr_opsB1) r hr)).trans (R3_arg m d r hr)
theorem R5_arg (r : Ref sig .tc) (hr : r ∈ argRefs) : R5 m d (Proc.devRef .tc r) = m ((d.tc : Thread nD τ).loc r) :=
  (keep_A2 (R4 m d) r ((by decide : ∀ r ∈ argRefs, r ∉ wr_opsA2) r hr)).trans (R4_arg m d r hr)
theorem R6_arg (r : Ref sig .tc) (hr : r ∈ argRefs) : R6 m d (Proc.devRef .tc r) = m ((d.tc : Thread nD τ).loc r) :=
  (keep_Z2 (R5 m d) r ((by decide : ∀ r ∈ argRefs, r ∉ wr_opsZ2) r hr)).trans (R5_arg m d r hr)
theorem R7_arg (r : Ref sig .tc) (hr : r ∈ argRefs) : R7 m d (Proc.devRef .tc r) = m ((d.tc : Thread nD τ).loc r) :=
  (keep_S2 (R6 m d) r ((by decide : ∀ r ∈ argRefs, r ∉ wr_opsS2) r hr)).trans (R6_arg m d r hr)
theorem R8_arg (r : Ref sig .tc) (hr : r ∈ argRefs) : R8 m d (Proc.devRef .tc r) = m ((d.tc : Thread nD τ).loc r) :=
  (keep_B2 (R7 m d) r ((by decide : ∀ r ∈ argRefs, r ∉ wr_opsB2) r hr)).trans (R7_arg m d r hr)
theorem R9_arg (r : Ref sig .tc) (hr : r ∈ argRefs) : R9 m d (Proc.devRef .tc r) = m ((d.tc : Thread nD τ).loc r) :=
  (keep_A3 (R8 m d) r ((by decide : ∀ r ∈ argRefs, r ∉ wr_opsA3) r hr)).trans (R8_arg m d r hr)
theorem R10_arg (r : Ref sig .tc) (hr : r ∈ argRefs) : R10 m d (Proc.devRef .tc r) = m ((d.tc : Thread nD τ).loc r) :=
  (keep_Z3 (R9 m d) r ((by decide : ∀ r ∈ argRefs, r ∉ wr_opsZ3) r hr)).trans (R9_arg m d r hr)
theorem R11_arg (r : Ref sig .tc) (hr : r ∈ argRefs) : R11 m d (Proc.devRef .tc r) = m ((d.tc : Thread nD τ).loc r) :=
  (keep_S3 (R10 m d) r ((by decide : ∀ r ∈ argRefs, r ∉ wr_opsS3) r hr)).trans (R10_arg m d r hr)
theorem R12_arg (r : Ref sig .tc) (hr : r ∈ argRefs) : R12 m d (Proc.devRef .tc r) = m ((d.tc : Thread nD τ).loc r) :=
  (keep_B3 (R11 m d) r ((by decide : ∀ r ∈ argRefs, r ∉ wr_opsB3) r hr)).trans (R11_arg m d r hr)
theorem R13_arg (r : Ref sig .tc) (hr : r ∈ argRefs) : R13 m d (Proc.devRef .tc r) = m ((d.tc : Thread nD τ).loc r) :=
  (keep_P (R12 m d) r ((by decide : ∀ r ∈ argRefs, r ∉ wr_opsP) r hr)).trans (R12_arg m d r hr)
theorem R14_arg (r : Ref sig .tc) (hr : r ∈ argRefs) : R14 m d (Proc.devRef .tc r) = m ((d.tc : Thread nD τ).loc r) :=
  (keep_C (R13 m d) r ((by decide : ∀ r ∈ argRefs, r ∉ wr_opsC) r hr)).trans (R13_arg m d r hr)

/-! ## The values -/

def S : IVec S1600000 32 := Cert.Gin.srcOf (arg m d main_arg1)
def D : IVec S1600000 32 := Cert.Gin.dstOf (arg m d main_arg1)
def Z1 := Cert.Gin.zOf (φ := .f32) (arg m d main_arg0) (S m d) (D m d) (arg m d main_arg3) (arg m d main_arg4)
def H1 := Cert.Gin.layer (φ := .f32) (arg m d main_arg0) (S m d) (D m d) (arg m d main_arg3) (arg m d main_arg4) (arg m d main_arg5) (arg m d main_arg6) (arg m d main_arg7) (arg m d main_arg8)
def Z2 := Cert.Gin.zOf (φ := .f32) (H1 m d) (S m d) (D m d) (arg m d main_arg9) (arg m d main_arg10)
def H2 := Cert.Gin.layer (φ := .f32) (H1 m d) (S m d) (D m d) (arg m d main_arg9) (arg m d main_arg10) (arg m d main_arg11) (arg m d main_arg12) (arg m d main_arg13) (arg m d main_arg14)
def Z3 := Cert.Gin.zOf (φ := .f32) (H2 m d) (S m d) (D m d) (arg m d main_arg15) (arg m d main_arg16)
def H3 := Cert.Gin.layerLast (φ := .f32) (H2 m d) (S m d) (D m d) (arg m d main_arg15) (arg m d main_arg16) (arg m d main_arg17) (arg m d main_arg18) (arg m d main_arg19) (arg m d main_arg20)
def GR := Cert.Gin.pool (H3 m d) (arg m d main_arg2)
def LG := Cert.Gin.cls (φ₁ := .f32) (φ₂ := .f32) (GR m d) (arg m d main_arg21) (arg m d main_arg22) (arg m d main_arg23) (arg m d main_arg24)

theorem R1_v1 : R1 m d (Proc.devRef .tc main_v1) = S m d :=
  (stageA1_src (R0 m d)).trans (by
    rw [R0_arg m d main_arg1 (by decide)]
    rfl)
theorem R1_v3 : R1 m d (Proc.devRef .tc main_v3) = D m d :=
  (stageA1_dst (R0 m d)).trans (by
    rw [R0_arg m d main_arg1 (by decide)]
    rfl)
theorem R1_v13 : R1 m d (Proc.devRef .tc main_v13) = Cert.Gin.agg (arg m d main_arg0) (S m d) (D m d) :=
  (stageA1 (R0 m d)).trans (by
    rw [R0_arg m d main_arg0 (by decide), R0_arg m d main_arg1 (by decide)]
    rfl)
theorem R2_v18 : R2 m d (Proc.devRef .tc main_v18) = Z1 m d :=
  (stageZ1 (R1 m d)).trans (by
    rw [R1_arg m d main_arg0 (by decide), R1_v13, R1_arg m d main_arg3 (by decide), R1_arg m d main_arg4 (by decide)]
    rfl)
theorem R2_v1 : R2 m d (Proc.devRef .tc main_v1) = S m d :=
  (keep_Z1 (R1 m d) main_v1 (by decide)).trans (R1_v1 m d)
theorem R2_v3 : R2 m d (Proc.devRef .tc main_v3) = D m d :=
  (keep_Z1 (R1 m d) main_v3 (by decide)).trans (R1_v3 m d)
theorem R3_v21 : R3 m d (Proc.devRef .tc main_v21) = Cert.Gin.meanOf (Z1 m d) :=
  (stageS1_mean (R2 m d)).trans (by
    rw [R2_v18])
theorem R3_v22 : R3 m d (Proc.devRef .tc main_v22) = Cert.Gin.varOf (Z1 m d) :=
  (stageS1_var (R2 m d)).trans (by
    rw [R2_v18])
theorem R3_v18 : R3 m d (Proc.devRef .tc main_v18) = Z1 m d :=
  (keep_S1 (R2 m d) main_v18 (by decide)).trans (R2_v18 m d)
theorem R3_v1 : R3 m d (Proc.devRef .tc main_v1) = S m d :=
  (keep_S1 (R2 m d) main_v1 (by decide)).trans (R2_v1 m d)
theorem R3_v3 : R3 m d (Proc.devRef .tc main_v3) = D m d :=
  (keep_S1 (R2 m d) main_v3 (by decide)).trans (R2_v3 m d)
theorem R4_v43 : R4 m d (Proc.devRef .tc main_v43) = H1 m d :=
  (stageB1 (R3 m d)).trans (by
    rw [R3_v18, R3_v21, R3_v22, R3_arg m d main_arg5 (by decide), R3_arg m d main_arg6 (by decide), R3_arg m d main_arg7 (by decide), R3_arg m d main_arg8 (by decide)]
    rfl)
theorem R4_v1 : R4 m d (Proc.devRef .tc main_v1) = S m d :=
  (keep_B1 (R3 m d) main_v1 (by decide)).trans (R3_v1 m d)
theorem R4_v3 : R4 m d (Proc.devRef .tc main_v3) = D m d :=
  (keep_B1 (R3 m d) main_v3 (by decide)).trans (R3_v3 m d)
theorem R5_v53 : R5 m d (Proc.devRef .tc main_v53) = Cert.Gin.agg (H1 m d) (S m d) (D m d) :=
  (stageA2 (R4 m d)).trans (by
    rw [R4_v43, R4_v1, R4_v3])
theorem R5_v43 : R5 m d (Proc.devRef .tc main_v43) = H1 m d :=
  (keep_A2 (R4 m d) main_v43 (by decide)).trans (R4_v43 m d)
theorem R5_v1 : R5 m d (Proc.devRef .tc main_v1) = S m d :=
  (keep_A2 (R4 m d) main_v1 (by decide)).trans (R4_v1 m d)
theorem R5_v3 : R5 m d (Proc.devRef .tc main_v3) = D m d :=
  (keep_A2 (R4 m d) main_v3 (by decide)).trans (R4_v3 m d)
theorem R6_v58 : R6 m d (Proc.devRef .tc main_v58) = Z2 m d :=
  (stageZ2 (R5 m d)).trans (by
    rw [R5_v43, R5_v53, R5_arg m d main_arg9 (by decide), R5_arg m d main_arg10 (by decide)]
    rfl)
theorem R6_v1 : R6 m d (Proc.devRef .tc main_v1) = S m d :=
  (keep_Z2 (R5 m d) main_v1 (by decide)).trans (R5_v1 m d)
theorem R6_v3 : R6 m d (Proc.devRef .tc main_v3) = D m d :=
  (keep_Z2 (R5 m d) main_v3 (by decide)).trans (R5_v3 m d)
theorem R7_v61 : R7 m d (Proc.devRef .tc main_v61) = Cert.Gin.meanOf (Z2 m d) :=
  (stageS2_mean (R6 m d)).trans (by
    rw [R6_v58])
theorem R7_v62 : R7 m d (Proc.devRef .tc main_v62) = Cert.Gin.varOf (Z2 m d) :=
  (stageS2_var (R6 m d)).trans (by
    rw [R6_v58])
theorem R7_v58 : R7 m d (Proc.devRef .tc main_v58) = Z2 m d :=
  (keep_S2 (R6 m d) main_v58 (by decide)).trans (R6_v58 m d)
theorem R7_v1 : R7 m d (Proc.devRef .tc main_v1) = S m d :=
  (keep_S2 (R6 m d) main_v1 (by decide)).trans (R6_v1 m d)
theorem R7_v3 : R7 m d (Proc.devRef .tc main_v3) = D m d :=
  (keep_S2 (R6 m d) main_v3 (by decide)).trans (R6_v3 m d)
theorem R8_v83 : R8 m d (Proc.devRef .tc main_v83) = H2 m d :=
  (stageB2 (R7 m d)).trans (by
    rw [R7_v58, R7_v61, R7_v62, R7_arg m d main_arg11 (by decide), R7_arg m d main_arg12 (by decide), R7_arg m d main_arg13 (by decide), R7_arg m d main_arg14 (by decide)]
    rfl)
theorem R8_v1 : R8 m d (Proc.devRef .tc main_v1) = S m d :=
  (keep_B2 (R7 m d) main_v1 (by decide)).trans (R7_v1 m d)
theorem R8_v3 : R8 m d (Proc.devRef .tc main_v3) = D m d :=
  (keep_B2 (R7 m d) main_v3 (by decide)).trans (R7_v3 m d)
theorem R9_v93 : R9 m d (Proc.devRef .tc main_v93) = Cert.Gin.agg (H2 m d) (S m d) (D m d) :=
  (stageA3 (R8 m d)).trans (by
    rw [R8_v83, R8_v1, R8_v3])
theorem R9_v83 : R9 m d (Proc.devRef .tc main_v83) = H2 m d :=
  (keep_A3 (R8 m d) main_v83 (by decide)).trans (R8_v83 m d)
theorem R10_v98 : R10 m d (Proc.devRef .tc main_v98) = Z3 m d :=
  (stageZ3 (R9 m d)).trans (by
    rw [R9_v83, R9_v93, R9_arg m d main_arg15 (by decide), R9_arg m d main_arg16 (by decide)]
    rfl)
theorem R11_v101 : R11 m d (Proc.devRef .tc main_v101) = Cert.Gin.meanOf (Z3 m d) :=
  (stageS3_mean (R10 m d)).trans (by
    rw [R10_v98])
theorem R11_v102 : R11 m d (Proc.devRef .tc main_v102) = Cert.Gin.varOf (Z3 m d) :=
  (stageS3_var (R10 m d)).trans (by
    rw [R10_v98])
theorem R11_v98 : R11 m d (Proc.devRef .tc main_v98) = Z3 m d :=
  (keep_S3 (R10 m d) main_v98 (by decide)).trans (R10_v98 m d)
theorem R12_v122 : R12 m d (Proc.devRef .tc main_v122) = H3 m d :=
  (stageB3 (R11 m d)).trans (by
    rw [R11_v98, R11_v101, R11_v102, R11_arg m d main_arg17 (by decide), R11_arg m d main_arg18 (by decide), R11_arg m d main_arg19 (by decide), R11_arg m d main_arg20 (by decide)]
    rfl)
theorem R13_v134 : R13 m d (Proc.devRef .tc main_v134) = GR m d :=
  (stageP (R12 m d)).trans (by
    rw [R12_v122, R12_arg m d main_arg2 (by decide)]
    rfl)
theorem R13_v122 : R13 m d (Proc.devRef .tc main_v122) = H3 m d :=
  (keep_P (R12 m d) main_v122 (by decide)).trans (R12_v122 m d)
theorem R14_v143 : R14 m d (Proc.devRef .tc main_v143) = LG m d :=
  (stageC (R13 m d)).trans (by
    rw [R13_v134, R13_arg m d main_arg21 (by decide), R13_arg m d main_arg22 (by decide), R13_arg m d main_arg23 (by decide), R13_arg m d main_arg24 (by decide)]
    rfl)
theorem R14_v122 : R14 m d (Proc.devRef .tc main_v122) = H3 m d :=
  (keep_C (R13 m d) main_v122 (by decide)).trans (R13_v122 m d)
theorem R14_v134 : R14 m d (Proc.devRef .tc main_v134) = GR m d :=
  (keep_C (R13 m d) main_v134 (by decide)).trans (R13_v134 m d)

/-! ## The results as functions of the arguments -/

/-- The node embeddings: the three layers of the arguments. -/
theorem ref_h : after (ops (F := Ideal)) (launchContents m d) (Proc.devRef .tc main_v122) = Cert.Gin.netH (φ := .f32) (arg m d main_arg0) (arg m d main_arg1) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) := by
  rw [fold_eq]
  exact (R14_v122 m d).trans rfl

/-- The pooled rows. -/
theorem ref_gr : after (ops (F := Ideal)) (launchContents m d) (Proc.devRef .tc main_v134) = Cert.Gin.pool (Cert.Gin.netH (φ := .f32) (arg m d main_arg0) (arg m d main_arg1) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20)) (arg m d main_arg2) := by
  rw [fold_eq]
  exact (R14_v134 m d).trans rfl

/-- The classifier's output. -/
theorem ref_lg : after (ops (F := Ideal)) (launchContents m d) (Proc.devRef .tc main_v143)
    = Cert.Gin.cls (φ₁ := .f32) (φ₂ := .f32) (Cert.Gin.pool (Cert.Gin.netH (φ := .f32) (arg m d main_arg0) (arg m d main_arg1) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20)) (arg m d main_arg2)) (arg m d main_arg21) (arg m d main_arg22) (arg m d main_arg23) (arg m d main_arg24) := by
  rw [fold_eq]
  exact (R14_v143 m d).trans rfl

/-- An argument array holds its launch contents at the end. -/
theorem ref_arg (r : Ref sig .tc) (hr : r ∈ argRefs) : after (ops (F := Ideal)) (launchContents m d) (Proc.devRef .tc r) = m ((d.tc : Thread nD τ).loc r) := by
  rw [fold_eq]
  exact R14_arg m d r hr

end Cert.ReferenceIdeal.RefFold

end
-- ==== Proof.lean ====
/-
  The idealized kernel program and the idealized reference compute the same network.

  Both programs run three graph-isomorphism layers  h ↦ relu?( relu(bn((h + agg h)·w1 + b1))·w2 + b2 ), pool the node rows
  by graph and classify the pooled rows.  The kernel program does the dense halves of each layer and the classifier in
  seven tiled regions (row blocks of 5000 nodes; products with weights rounded to bf16) and the neighbour sums, the
  column statistics and the pooling on the host; the reference does everything on the host.  At the exact values a
  row block of a product is the product of the row block, a product into a zero accumulator is the plain sum of
  products, and rounding a weight is the identity: each region's output array is the reference's host term of the
  region's input arrays (the region value modules), the host stretches are the reference's own operations, and the two
  runs end at one function of the arguments.  No finiteness is needed: only the definitions of the operations and the
  re-association of a tiling are used, never distributivity or cancellation.

  The frames of the two kernel programs are the generated ones; the reference's frame is its run with the results
  dropped; the ideal pass rewrote nothing, so the idealization claim is trivial.
-/
import proofs.«131036_j27977416966474_1_alg».proof.Defs
import proofs.«131036_j27977416966474_1_alg».proof.Proof.Gen.Kernel.Frame
import proofs.«131036_j27977416966474_1_alg».proof.Proof.Gen.KernelIdeal.Frame
import proofs.«131036_j27977416966474_1_alg».proof.Proof.Gen.Pre_finite_inputs
import proofs.«131036_j27977416966474_1_alg».proof.Proof.KernelFinal
import proofs.«131036_j27977416966474_1_alg».proof.Proof.RefRun
import proofs.«131036_j27977416966474_1_alg».proof.Proof.RefFold

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference runs and leaves its arguments alone: no operation writes an argument array. -/
theorem frame_ri : Cert.frame_ReferenceIdeal := fun m' ρ' _ =>
  (θ_run Cert.ReferenceIdeal.defs _ _).mono (fun r h c =>
    ⟨(h c Cert.ReferenceIdeal.main_arg0).trans (Cert.ReferenceIdeal.RefFold.ref_arg m' c Cert.ReferenceIdeal.main_arg0 (by decide)),
     (h c Cert.ReferenceIdeal.main_arg1).trans (Cert.ReferenceIdeal.RefFold.ref_arg m' c Cert.ReferenceIdeal.main_arg1 (by decide)),
     (h c Cert.ReferenceIdeal.main_arg2).trans (Cert.ReferenceIdeal.RefFold.ref_arg m' c Cert.ReferenceIdeal.main_arg2 (by decide)),
     (h c Cert.ReferenceIdeal.main_arg3).trans (Cert.ReferenceIdeal.RefFold.ref_arg m' c Cert.ReferenceIdeal.main_arg3 (by decide)),
     (h c Cert.ReferenceIdeal.main_arg4).trans (Cert.ReferenceIdeal.RefFold.ref_arg m' c Cert.ReferenceIdeal.main_arg4 (by decide)),
     (h c Cert.ReferenceIdeal.main_arg5).trans (Cert.ReferenceIdeal.RefFold.ref_arg m' c Cert.ReferenceIdeal.main_arg5 (by decide)),
     (h c Cert.ReferenceIdeal.main_arg6).trans (Cert.ReferenceIdeal.RefFold.ref_arg m' c Cert.ReferenceIdeal.main_arg6 (by decide)),
     (h c Cert.ReferenceIdeal.main_arg7).trans (Cert.ReferenceIdeal.RefFold.ref_arg m' c Cert.ReferenceIdeal.main_arg7 (by decide)),
     (h c Cert.ReferenceIdeal.main_arg8).trans (Cert.ReferenceIdeal.RefFold.ref_arg m' c Cert.ReferenceIdeal.main_arg8 (by decide)),
     (h c Cert.ReferenceIdeal.main_arg9).trans (Cert.ReferenceIdeal.RefFold.ref_arg m' c Cert.ReferenceIdeal.main_arg9 (by decide)),
     (h c Cert.ReferenceIdeal.main_arg10).trans (Cert.ReferenceIdeal.RefFold.ref_arg m' c Cert.ReferenceIdeal.main_arg10 (by decide)),
     (h c Cert.ReferenceIdeal.main_arg11).trans (Cert.ReferenceIdeal.RefFold.ref_arg m' c Cert.ReferenceIdeal.main_arg11 (by decide)),
     (h c Cert.ReferenceIdeal.main_arg12).trans (Cert.ReferenceIdeal.RefFold.ref_arg m' c Cert.ReferenceIdeal.main_arg12 (by decide)),
     (h c Cert.ReferenceIdeal.main_arg13).trans (Cert.ReferenceIdeal.RefFold.ref_arg m' c Cert.ReferenceIdeal.main_arg13 (by decide)),
     (h c Cert.ReferenceIdeal.main_arg14).trans (Cert.ReferenceIdeal.RefFold.ref_arg m' c Cert.ReferenceIdeal.main_arg14 (by decide)),
     (h c Cert.ReferenceIdeal.main_arg15).trans (Cert.ReferenceIdeal.RefFold.ref_arg m' c Cert.ReferenceIdeal.main_arg15 (by decide)),
     (h c Cert.ReferenceIdeal.main_arg16).trans (Cert.ReferenceIdeal.RefFold.ref_arg m' c Cert.ReferenceIdeal.main_arg16 (by decide)),
     (h c Cert.ReferenceIdeal.main_arg17).trans (Cert.ReferenceIdeal.RefFold.ref_arg m' c Cert.ReferenceIdeal.main_arg17 (by decide)),
     (h c Cert.ReferenceIdeal.main_arg18).trans (Cert.ReferenceIdeal.RefFold.ref_arg m' c Cert.ReferenceIdeal.main_arg18 (by decide)),
     (h c Cert.ReferenceIdeal.main_arg19).trans (Cert.ReferenceIdeal.RefFold.ref_arg m' c Cert.ReferenceIdeal.main_arg19 (by decide)),
     (h c Cert.ReferenceIdeal.main_arg20).trans (Cert.ReferenceIdeal.RefFold.ref_arg m' c Cert.ReferenceIdeal.main_arg20 (by decide)),
     (h c Cert.ReferenceIdeal.main_arg21).trans (Cert.ReferenceIdeal.RefFold.ref_arg m' c Cert.ReferenceIdeal.main_arg21 (by decide)),
     (h c Cert.ReferenceIdeal.main_arg22).trans (Cert.ReferenceIdeal.RefFold.ref_arg m' c Cert.ReferenceIdeal.main_arg22 (by decide)),
     (h c Cert.ReferenceIdeal.main_arg23).trans (Cert.ReferenceIdeal.RefFold.ref_arg m' c Cert.ReferenceIdeal.main_arg23 (by decide)),
     (h c Cert.ReferenceIdeal.main_arg24).trans (Cert.ReferenceIdeal.RefFold.ref_arg m' c Cert.ReferenceIdeal.main_arg24 (by decide))⟩)
    (Cert.ReferenceIdeal.RefRun.run (F := Ideal) m' ρ')

theorem preserves : Cert.preserves_Kernel_KernelIdeal := trivial

/-- Both runs end with the embeddings, the pooled rows and the classifier's output of one network of the arguments. -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun r h c => ?_) (Cert.ReferenceIdeal.RefRun.run (F := Ideal) m' ρ')
  obtain ⟨e0, e1, e2, e3, e4, e5, e6, e7, e8, e9, e10, e11, e12, e13, e14, e15, e16, e17, e18, e19, e20, e21, e22, e23, e24⟩ := hagree c
  refine ⟨?_, ?_, ?_, (h c Cert.ReferenceIdeal.main_arg0).trans (Cert.ReferenceIdeal.RefFold.ref_arg m' c Cert.ReferenceIdeal.main_arg0 (by decide)),
    (h c Cert.ReferenceIdeal.main_arg1).trans (Cert.ReferenceIdeal.RefFold.ref_arg m' c Cert.ReferenceIdeal.main_arg1 (by decide)),
    (h c Cert.ReferenceIdeal.main_arg2).trans (Cert.ReferenceIdeal.RefFold.ref_arg m' c Cert.ReferenceIdeal.main_arg2 (by decide)),
    (h c Cert.ReferenceIdeal.main_arg3).trans (Cert.ReferenceIdeal.RefFold.ref_arg m' c Cert.ReferenceIdeal.main_arg3 (by decide)),
    (h c Cert.ReferenceIdeal.main_arg4).trans (Cert.ReferenceIdeal.RefFold.ref_arg m' c Cert.ReferenceIdeal.main_arg4 (by decide)),
    (h c Cert.ReferenceIdeal.main_arg5).trans (Cert.ReferenceIdeal.RefFold.ref_arg m' c Cert.ReferenceIdeal.main_arg5 (by decide)),
    (h c Cert.ReferenceIdeal.main_arg6).trans (Cert.ReferenceIdeal.RefFold.ref_arg m' c Cert.ReferenceIdeal.main_arg6 (by decide)),
    (h c Cert.ReferenceIdeal.main_arg7).trans (Cert.ReferenceIdeal.RefFold.ref_arg m' c Cert.ReferenceIdeal.main_arg7 (by decide)),
    (h c Cert.ReferenceIdeal.main_arg8).trans (Cert.ReferenceIdeal.RefFold.ref_arg m' c Cert.ReferenceIdeal.main_arg8 (by decide)),
    (h c Cert.ReferenceIdeal.main_arg9).trans (Cert.ReferenceIdeal.RefFold.ref_arg m' c Cert.ReferenceIdeal.main_arg9 (by decide)),
    (h c Cert.ReferenceIdeal.main_arg10).trans (Cert.ReferenceIdeal.RefFold.ref_arg m' c Cert.ReferenceIdeal.main_arg10 (by decide)),
    (h c Cert.ReferenceIdeal.main_arg11).trans (Cert.ReferenceIdeal.RefFold.ref_arg m' c Cert.ReferenceIdeal.main_arg11 (by decide)),
    (h c Cert.ReferenceIdeal.main_arg12).trans (Cert.ReferenceIdeal.RefFold.ref_arg m' c Cert.ReferenceIdeal.main_arg12 (by decide)),
    (h c Cert.ReferenceIdeal.main_arg13).trans (Cert.ReferenceIdeal.RefFold.ref_arg m' c Cert.ReferenceIdeal.main_arg13 (by decide)),
    (h c Cert.ReferenceIdeal.main_arg14).trans (Cert.ReferenceIdeal.RefFold.ref_arg m' c Cert.ReferenceIdeal.main_arg14 (by decide)),
    (h c Cert.ReferenceIdeal.main_arg15).trans (Cert.ReferenceIdeal.RefFold.ref_arg m' c Cert.ReferenceIdeal.main_arg15 (by decide)),
    (h c Cert.ReferenceIdeal.main_arg16).trans (Cert.ReferenceIdeal.RefFold.ref_arg m' c Cert.ReferenceIdeal.main_arg16 (by decide)),
    (h c Cert.ReferenceIdeal.main_arg17).trans (Cert.ReferenceIdeal.RefFold.ref_arg m' c Cert.ReferenceIdeal.main_arg17 (by decide)),
    (h c Cert.ReferenceIdeal.main_arg18).trans (Cert.ReferenceIdeal.RefFold.ref_arg m' c Cert.ReferenceIdeal.main_arg18 (by decide)),
    (h c Cert.ReferenceIdeal.main_arg19).trans (Cert.ReferenceIdeal.RefFold.ref_arg m' c Cert.ReferenceIdeal.main_arg19 (by decide)),
    (h c Cert.ReferenceIdeal.main_arg20).trans (Cert.ReferenceIdeal.RefFold.ref_arg m' c Cert.ReferenceIdeal.main_arg20 (by decide)),
    (h c Cert.ReferenceIdeal.main_arg21).trans (Cert.ReferenceIdeal.RefFold.ref_arg m' c Cert.ReferenceIdeal.main_arg21 (by decide)),
    (h c Cert.ReferenceIdeal.main_arg22).trans (Cert.ReferenceIdeal.RefFold.ref_arg m' c Cert.ReferenceIdeal.main_arg22 (by decide)),
    (h c Cert.ReferenceIdeal.main_arg23).trans (Cert.ReferenceIdeal.RefFold.ref_arg m' c Cert.ReferenceIdeal.main_arg23 (by decide)),
    (h c Cert.ReferenceIdeal.main_arg24).trans (Cert.ReferenceIdeal.RefFold.ref_arg m' c Cert.ReferenceIdeal.main_arg24 (by decide))⟩
  · rw [h c Cert.ReferenceIdeal.main_v122, Cert.ReferenceIdeal.RefFold.ref_h m' c]
    simp only [e0, e1, e2, e3, e4, e5, e6, e7, e8, e9, e10, e11, e12, e13, e14, e15, e16, e17, e18, e19, e20, e21, e22, e23, e24]
  · rw [h c Cert.ReferenceIdeal.main_v134, Cert.ReferenceIdeal.RefFold.ref_gr m' c]
    simp only [e0, e1, e2, e3, e4, e5, e6, e7, e8, e9, e10, e11, e12, e13, e14, e15, e16, e17, e18, e19, e20, e21, e22, e23, e24]
  · rw [h c Cert.ReferenceIdeal.main_v143, Cert.ReferenceIdeal.RefFold.ref_lg m' c]
    simp only [e0, e1, e2, e3, e4, e5, e6, e7, e8, e9, e10, e11, e12, e13, e14, e15, e16, e17, e18, e19, e20, e21, e22, e23, e24]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
